-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v189)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v189) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v255) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S120000x128 : Shape := ⟨2, ![120000, 128]⟩
abbrev S64x64 : Shape := ⟨2, ![64, 64]⟩
abbrev S19000x128 : Shape := ⟨2, ![19000, 128]⟩
abbrev S2x1200000 : Shape := ⟨2, ![2, 1200000]⟩
abbrev S120000 : Shape := ⟨1, ![120000]⟩
abbrev S2x256 : Shape := ⟨2, ![2, 256]⟩
abbrev S2x600000 : Shape := ⟨2, ![2, 600000]⟩
abbrev S128x200 : Shape := ⟨2, ![128, 200]⟩
abbrev S200 : Shape := ⟨1, ![200]⟩
abbrev S200x200 : Shape := ⟨2, ![200, 200]⟩
abbrev S200x256 : Shape := ⟨2, ![200, 256]⟩
abbrev S256 : Shape := ⟨1, ![256]⟩
abbrev S64x200 : Shape := ⟨2, ![64, 200]⟩
abbrev S200x128 : Shape := ⟨2, ![200, 128]⟩
abbrev S128 : Shape := ⟨1, ![128]⟩
abbrev S256x256 : Shape := ⟨2, ![256, 256]⟩
abbrev S1 : Shape := ⟨1, ![1]⟩
abbrev S_ : Shape := ⟨0, ![]⟩

class Facts : Prop where
  bcast_S_S120000x128 : S_.BroadcastsInDim S120000x128 (![] : Fin 0 → Fin S120000x128.rank)
  reducesTo_S120000x128_S_d0_1 : S120000x128.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S19000x128 : S_.BroadcastsInDim S19000x128 (![] : Fin 0 → Fin S19000x128.rank)
  reducesTo_S19000x128_S_d0_1 : S19000x128.ReducesTo [0, 1] S_
  bcast_S_S128x200 : S_.BroadcastsInDim S128x200 (![] : Fin 0 → Fin S128x200.rank)
  reducesTo_S128x200_S_d0_1 : S128x200.ReducesTo [0, 1] S_
  bcast_S_S200 : S_.BroadcastsInDim S200 (![] : Fin 0 → Fin S200.rank)
  reducesTo_S200_S_d0 : S200.ReducesTo [0] S_
  bcast_S_S200x200 : S_.BroadcastsInDim S200x200 (![] : Fin 0 → Fin S200x200.rank)
  reducesTo_S200x200_S_d0_1 : S200x200.ReducesTo [0, 1] S_
  bcast_S_S200x256 : S_.BroadcastsInDim S200x256 (![] : Fin 0 → Fin S200x256.rank)
  reducesTo_S200x256_S_d0_1 : S200x256.ReducesTo [0, 1] S_
  bcast_S_S256 : S_.BroadcastsInDim S256 (![] : Fin 0 → Fin S256.rank)
  reducesTo_S256_S_d0 : S256.ReducesTo [0] S_
  bcast_S_S64x200 : S_.BroadcastsInDim S64x200 (![] : Fin 0 → Fin S64x200.rank)
  reducesTo_S64x200_S_d0_1 : S64x200.ReducesTo [0, 1] S_
  bcast_S_S200x128 : S_.BroadcastsInDim S200x128 (![] : Fin 0 → Fin S200x128.rank)
  reducesTo_S200x128_S_d0_1 : S200x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_v118 : IVec S_ 1) (main_v119 : FVec F S1 .f32) : IVec S_ 1 :=
  let main_cst_46 : FVec F S_ .f32 := constant S_ .f32 0x7F800000#32
  let main_v120 : FVec F S1 .f32 := broadcastInDim S1 ![] bcast_S_S1 main_cst_46
  let main_v121 : IVec S1 1 := cmpf .olt main_v119 main_v120
  let main_c_47 : IVec S_ 1 := constantI S_ 1 1#1
  let main_v122 : IVec S_ 1 := (fun x v => Host.reduce IntOp.andi x v reducesTo_S1_S_d0 h_S_) main_v121 main_c_47
  let main_v123 : IVec S_ 1 := andi main_v118 main_v122
  main_v123

def fn_part6 {F : FTy → Type} [FloatOps F] (main_arg25 : FVec F S200x128 .f32) (main_arg26 : FVec F S128 .f32) (main_arg27 : FVec F S256x256 .f32) (main_arg28 : FVec F S1 .f32) (main_v98 : IVec S_ 1) (main_v101 : IVec S200 1) (main_c_39 : IVec S_ 1) : IVec S_ 1 :=
  let main_v102 : IVec S_ 1 := (fun x v => Host.reduce IntOp.andi x v reducesTo_S200_S_d0 h_S_) main_v101 main_c_39
  let main_v103 : IVec S_ 1 := andi main_v98 main_v102
  let main_v104 : FVec F S200x128 .f32 := Host.absf main_arg25
  let main_cst_40 : FVec F S_ .f32 := constant S_ .f32 0x7F800000#32
  let main_v105 : FVec F S200x128 .f32 := broadcastInDim S200x128 ![] bcast_S_S200x128 main_cst_40
  let main_v106 : IVec S200x128 1 := cmpf .olt main_v104 main_v105
  let main_c_41 : IVec S_ 1 := constantI S_ 1 1#1
  let main_v107 : IVec S_ 1 := (fun x v => Host.reduce IntOp.andi x v reducesTo_S200x128_S_d0_1 h_S_) main_v106 main_c_41
  let main_v108 : IVec S_ 1 := andi main_v103 main_v107
  let main_v109 : FVec F S128 .f32 := Host.absf main_arg26
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S256x256 .f32 := Host.absf main_arg27
  let main_cst_44 : FVec F S_ .f32 := constant S_ .f32 0x7F800000#32
  let main_v115 : FVec F S256x256 .f32 := broadcastInDim S256x256 ![] bcast_S_S256x256 main_cst_44
  let main_v116 : IVec S256x256 1 := cmpf .olt main_v114 main_v115
  let main_c_45 : IVec S_ 1 := constantI S_ 1 1#1
  let main_v117 : IVec S_ 1 := (fun x v => Host.reduce IntOp.andi x v reducesTo_S256x256_S_d0_1 h_S_) main_v116 main_c_45
  let main_v118 : IVec S_ 1 := andi main_v113 main_v117
  let main_v119 : FVec F S1 .f32 := Host.absf main_arg28
  fn_part7 (F := F) main_v118 main_v119

def fn_part5 {F : FTy → Type} [FloatOps F] (main_arg22 : FVec F S200 .f32) (main_arg23 : FVec F S200x200 .f32) (main_arg24 : FVec F S200 .f32) (main_arg25 : FVec F S200x128 .f32) (main_arg26 : FVec F S128 .f32) (main_arg27 : FVec F S256x256 .f32) (main_arg28 : FVec F S1 .f32) (main_v83 : IVec S_ 1) (main_v84 : FVec F S128x200 .f32) (main_cst_32 : FVec F S_ .f32) : IVec S_ 1 :=
  let main_v85 : FVec F S128x200 .f32 := broadcastInDim S128x200 ![] bcast_S_S128x200 main_cst_32
  let main_v86 : IVec S128x200 1 := cmpf .olt main_v84 main_v85
  let main_c_33 : IVec S_ 1 := constantI S_ 1 1#1
  let main_v87 : IVec S_ 1 := (fun x v => Host.reduce IntOp.andi x v reducesTo_S128x200_S_d0_1 h_S_) main_v86 main_c_33
  let main_v88 : IVec S_ 1 := andi main_v83 main_v87
  let main_v89 : FVec F S200 .f32 := Host.absf main_arg22
  let main_cst_34 : FVec F S_ .f32 := constant S_ .f32 0x7F800000#32
  let main_v90 : FVec F S200 .f32 := broadcastInDim S200 ![] bcast_S_S200 main_cst_34
  let main_v91 : IVec S200 1 := cmpf .olt main_v89 main_v90
  let main_c_35 : IVec S_ 1 := constantI S_ 1 1#1
  let main_v92 : IVec S_ 1 := (fun x v => Host.reduce IntOp.andi x v reducesTo_S200_S_d0 h_S_) main_v91 main_c_35
  let main_v93 : IVec S_ 1 := andi main_v88 main_v92
  let main_v94 : FVec F S200x200 .f32 := Host.absf main_arg23
  let main_cst_36 : FVec F S_ .f32 := constant S_ .f32 0x7F800000#32
  let main_v95 : FVec F S200x200 .f32 := broadcastInDim S200x200 ![] bcast_S_S200x200 main_cst_36
  let main_v96 : IVec S200x200 1 := cmpf .olt main_v94 main_v95
  let main_c_37 : IVec S_ 1 := constantI S_ 1 1#1
  let main_v97 : IVec S_ 1 := (fun x v => Host.reduce IntOp.andi x v reducesTo_S200x200_S_d0_1 h_S_) main_v96 main_c_37
  let main_v98 : IVec S_ 1 := andi main_v93 main_v97
  let main_v99 : FVec F S200 .f32 := Host.absf main_arg24
  let main_cst_38 : FVec F S_ .f32 := constant S_ .f32 0x7F800000#32
  let main_v100 : FVec F S200 .f32 := broadcastInDim S200 ![] bcast_S_S200 main_cst_38
  let main_v101 : IVec S200 1 := cmpf .olt main_v99 main_v100
  let main_c_39 : IVec S_ 1 := constantI S_ 1 1#1
  fn_part6 (F := F) main_arg25 main_arg26 main_arg27 main_arg28 main_v98 main_v101 main_c_39

def fn_part4 {F : FTy → Type} [FloatOps F] (main_arg18 : FVec F S200x200 .f32) (main_arg19 : FVec F S200x128 .f32) (main_arg20 : FVec F S128 .f32) (main_arg21 : FVec F S128x200 .f32) (main_arg22 : FVec F S200 .f32) (main_arg23 : FVec F S200x200 .f32) (main_arg24 : FVec F S200 .f32) (main_arg25 : FVec F S200x128 .f32) (main_arg26 : FVec F S128 .f32) (main_arg27 : FVec F S256x256 .f32) (main_arg28 : FVec F S1 .f32) (main_v63 : IVec S_ 1) (main_v67 : IVec S_ 1) : IVec S_ 1 :=
  let main_v68 : IVec S_ 1 := andi main_v63 main_v67
  let main_v69 : FVec F S200x200 .f32 := Host.absf main_arg18
  let main_cst_26 : FVec F S_ .f32 := constant S_ .f32 0x7F800000#32
  let main_v70 : FVec F S200x200 .f32 := broadcastInDim S200x200 ![] bcast_S_S200x200 main_cst_26
  let main_v71 : IVec S200x200 1 := cmpf .olt main_v69 main_v70
  let main_c_27 : IVec S_ 1 := constantI S_ 1 1#1
  let main_v72 : IVec S_ 1 := (fun x v => Host.reduce IntOp.andi x v reducesTo_S200x200_S_d0_1 h_S_) main_v71 main_c_27
  let main_v73 : IVec S_ 1 := andi main_v68 main_v72
  let main_v74 : FVec F S200x128 .f32 := Host.absf main_arg19
  let main_cst_28 : FVec F S_ .f32 := constant S_ .f32 0x7F800000#32
  let main_v75 : FVec F S200x128 .f32 := broadcastInDim S200x128 ![] bcast_S_S200x128 main_cst_28
  let main_v76 : IVec S200x128 1 := cmpf .olt main_v74 main_v75
  let main_c_29 : IVec S_ 1 := constantI S_ 1 1#1
  let main_v77 : IVec S_ 1 := (fun x v => Host.reduce IntOp.andi x v reducesTo_S200x128_S_d0_1 h_S_) main_v76 main_c_29
  let main_v78 : IVec S_ 1 := andi main_v73 main_v77
  let main_v79 : FVec F S128 .f32 := Host.absf main_arg20
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x200 .f32 := Host.absf main_arg21
  let main_cst_32 : FVec F S_ .f32 := constant S_ .f32 0x7F800000#32
  fn_part5 (F := F) main_arg22 main_arg23 main_arg24 main_arg25 main_arg26 main_arg27 main_arg28 main_v83 main_v84 main_cst_32

def fn_part3 {F : FTy → Type} [FloatOps F] (main_arg15 : FVec F S64x200 .f32) (main_arg16 : FVec F S200x200 .f32) (main_arg17 : FVec F S200 .f32) (main_arg18 : FVec F S200x200 .f32) (main_arg19 : FVec F S200x128 .f32) (main_arg20 : FVec F S128 .f32) (main_arg21 : FVec F S128x200 .f32) (main_arg22 : FVec F S200 .f32) (main_arg23 : FVec F S200x200 .f32) (main_arg24 : FVec F S200 .f32) (main_arg25 : FVec F S200x128 .f32) (main_arg26 : FVec F S128 .f32) (main_arg27 : FVec F S256x256 .f32) (main_arg28 : FVec F S1 .f32) (main_v48 : IVec S_ 1) (main_v49 : FVec F S200 .f32) (main_v50 : FVec F S200 .f32) : IVec S_ 1 :=
  let main_v51 : IVec S200 1 := cmpf .olt main_v49 main_v50
  let main_c_19 : IVec S_ 1 := constantI S_ 1 1#1
  let main_v52 : IVec S_ 1 := (fun x v => Host.reduce IntOp.andi x v reducesTo_S200_S_d0 h_S_) main_v51 main_c_19
  let main_v53 : IVec S_ 1 := andi main_v48 main_v52
  let main_v54 : FVec F S64x200 .f32 := Host.absf main_arg15
  let main_cst_20 : FVec F S_ .f32 := constant S_ .f32 0x7F800000#32
  let main_v55 : FVec F S64x200 .f32 := broadcastInDim S64x200 ![] bcast_S_S64x200 main_cst_20
  let main_v56 : IVec S64x200 1 := cmpf .olt main_v54 main_v55
  let main_c_21 : IVec S_ 1 := constantI S_ 1 1#1
  let main_v57 : IVec S_ 1 := (fun x v => Host.reduce IntOp.andi x v reducesTo_S64x200_S_d0_1 h_S_) main_v56 main_c_21
  let main_v58 : IVec S_ 1 := andi main_v53 main_v57
  let main_v59 : FVec F S200x200 .f32 := Host.absf main_arg16
  let main_cst_22 : FVec F S_ .f32 := constant S_ .f32 0x7F800000#32
  let main_v60 : FVec F S200x200 .f32 := broadcastInDim S200x200 ![] bcast_S_S200x200 main_cst_22
  let main_v61 : IVec S200x200 1 := cmpf .olt main_v59 main_v60
  let main_c_23 : IVec S_ 1 := constantI S_ 1 1#1
  let main_v62 : IVec S_ 1 := (fun x v => Host.reduce IntOp.andi x v reducesTo_S200x200_S_d0_1 h_S_) main_v61 main_c_23
  let main_v63 : IVec S_ 1 := andi main_v58 main_v62
  let main_v64 : FVec F S200 .f32 := Host.absf main_arg17
  let main_cst_24 : FVec F S_ .f32 := constant S_ .f32 0x7F800000#32
  let main_v65 : FVec F S200 .f32 := broadcastInDim S200 ![] bcast_S_S200 main_cst_24
  let main_v66 : IVec S200 1 := cmpf .olt main_v64 main_v65
  let main_c_25 : IVec S_ 1 := constantI S_ 1 1#1
  let main_v67 : IVec S_ 1 := (fun x v => Host.reduce IntOp.andi x v reducesTo_S200_S_d0 h_S_) main_v66 main_c_25
  fn_part4 (F := F) main_arg18 main_arg19 main_arg20 main_arg21 main_arg22 main_arg23 main_arg24 main_arg25 main_arg26 main_arg27 main_arg28 main_v63 main_v67

def fn_part2 {F : FTy → Type} [FloatOps F] (main_arg11 : FVec F S200x256 .f32) (main_arg12 : FVec F S256 .f32) (main_arg13 : FVec F S64x200 .f32) (main_arg14 : FVec F S200 .f32) (main_arg15 : FVec F S64x200 .f32) (main_arg16 : FVec F S200x200 .f32) (main_arg17 : FVec F S200 .f32) (main_arg18 : FVec F S200x200 .f32) (main_arg19 : FVec F S200x128 .f32) (main_arg20 : FVec F S128 .f32) (main_arg21 : FVec F S128x200 .f32) (main_arg22 : FVec F S200 .f32) (main_arg23 : FVec F S200x200 .f32) (main_arg24 : FVec F S200 .f32) (main_arg25 : FVec F S200x128 .f32) (main_arg26 : FVec F S128 .f32) (main_arg27 : FVec F S256x256 .f32) (main_arg28 : FVec F S1 .f32) (main_v33 : IVec S_ 1) : IVec S_ 1 :=
  let main_v34 : FVec F S200x256 .f32 := Host.absf main_arg11
  let main_cst_12 : FVec F S_ .f32 := constant S_ .f32 0x7F800000#32
  let main_v35 : FVec F S200x256 .f32 := broadcastInDim S200x256 ![] bcast_S_S200x256 main_cst_12
  let main_v36 : IVec S200x256 1 := cmpf .olt main_v34 main_v35
  let main_c_13 : IVec S_ 1 := constantI S_ 1 1#1
  let main_v37 : IVec S_ 1 := (fun x v => Host.reduce IntOp.andi x v reducesTo_S200x256_S_d0_1 h_S_) main_v36 main_c_13
  let main_v38 : IVec S_ 1 := andi main_v33 main_v37
  let main_v39 : FVec F S256 .f32 := Host.absf main_arg12
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S64x200 .f32 := Host.absf main_arg13
  let main_cst_16 : FVec F S_ .f32 := constant S_ .f32 0x7F800000#32
  let main_v45 : FVec F S64x200 .f32 := broadcastInDim S64x200 ![] bcast_S_S64x200 main_cst_16
  let main_v46 : IVec S64x200 1 := cmpf .olt main_v44 main_v45
  let main_c_17 : IVec S_ 1 := constantI S_ 1 1#1
  let main_v47 : IVec S_ 1 := (fun x v => Host.reduce IntOp.andi x v reducesTo_S64x200_S_d0_1 h_S_) main_v46 main_c_17
  let main_v48 : IVec S_ 1 := andi main_v43 main_v47
  let main_v49 : FVec F S200 .f32 := Host.absf main_arg14
  let main_cst_18 : FVec F S_ .f32 := constant S_ .f32 0x7F800000#32
  let main_v50 : FVec F S200 .f32 := broadcastInDim S200 ![] bcast_S_S200 main_cst_18
  fn_part3 (F := F) main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg8 : FVec F S200 .f32) (main_arg9 : FVec F S200x200 .f32) (main_arg10 : FVec F S200 .f32) (main_arg11 : FVec F S200x256 .f32) (main_arg12 : FVec F S256 .f32) (main_arg13 : FVec F S64x200 .f32) (main_arg14 : FVec F S200 .f32) (main_arg15 : FVec F S64x200 .f32) (main_arg16 : FVec F S200x200 .f32) (main_arg17 : FVec F S200 .f32) (main_arg18 : FVec F S200x200 .f32) (main_arg19 : FVec F S200x128 .f32) (main_arg20 : FVec F S128 .f32) (main_arg21 : FVec F S128x200 .f32) (main_arg22 : FVec F S200 .f32) (main_arg23 : FVec F S200x200 .f32) (main_arg24 : FVec F S200 .f32) (main_arg25 : FVec F S200x128 .f32) (main_arg26 : FVec F S128 .f32) (main_arg27 : FVec F S256x256 .f32) (main_arg28 : FVec F S1 .f32) (main_v13 : IVec S_ 1) (main_v16 : IVec S128x200 1) : IVec S_ 1 :=
  let main_c_5 : IVec S_ 1 := constantI S_ 1 1#1
  let main_v17 : IVec S_ 1 := (fun x v => Host.reduce IntOp.andi x v reducesTo_S128x200_S_d0_1 h_S_) main_v16 main_c_5
  let main_v18 : IVec S_ 1 := andi main_v13 main_v17
  let main_v19 : FVec F S200 .f32 := Host.absf main_arg8
  let main_cst_6 : FVec F S_ .f32 := constant S_ .f32 0x7F800000#32
  let main_v20 : FVec F S200 .f32 := broadcastInDim S200 ![] bcast_S_S200 main_cst_6
  let main_v21 : IVec S200 1 := cmpf .olt main_v19 main_v20
  let main_c_7 : IVec S_ 1 := constantI S_ 1 1#1
  let main_v22 : IVec S_ 1 := (fun x v => Host.reduce IntOp.andi x v reducesTo_S200_S_d0 h_S_) main_v21 main_c_7
  let main_v23 : IVec S_ 1 := andi main_v18 main_v22
  let main_v24 : FVec F S200x200 .f32 := Host.absf main_arg9
  let main_cst_8 : FVec F S_ .f32 := constant S_ .f32 0x7F800000#32
  let main_v25 : FVec F S200x200 .f32 := broadcastInDim S200x200 ![] bcast_S_S200x200 main_cst_8
  let main_v26 : IVec S200x200 1 := cmpf .olt main_v24 main_v25
  let main_c_9 : IVec S_ 1 := constantI S_ 1 1#1
  let main_v27 : IVec S_ 1 := (fun x v => Host.reduce IntOp.andi x v reducesTo_S200x200_S_d0_1 h_S_) main_v26 main_c_9
  let main_v28 : IVec S_ 1 := andi main_v23 main_v27
  let main_v29 : FVec F S200 .f32 := Host.absf main_arg10
  let main_cst_10 : FVec F S_ .f32 := constant S_ .f32 0x7F800000#32
  let main_v30 : FVec F S200 .f32 := broadcastInDim S200 ![] bcast_S_S200 main_cst_10
  let main_v31 : IVec S200 1 := cmpf .olt main_v29 main_v30
  let main_c_11 : IVec S_ 1 := constantI S_ 1 1#1
  let main_v32 : IVec S_ 1 := (fun x v => Host.reduce IntOp.andi x v reducesTo_S200_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S120000x128 .f32) (main_arg1 : FVec F S64x64 .f32) (main_arg2 : FVec F S19000x128 .f32) (main_arg3 : IVec S2x1200000 32) (main_arg4 : IVec S120000 32) (main_arg5 : IVec S2x256 32) (main_arg6 : IVec S2x600000 32) (main_arg7 : FVec F S128x200 .f32) (main_arg8 : FVec F S200 .f32) (main_arg9 : FVec F S200x200 .f32) (main_arg10 : FVec F S200 .f32) (main_arg11 : FVec F S200x256 .f32) (main_arg12 : FVec F S256 .f32) (main_arg13 : FVec F S64x200 .f32) (main_arg14 : FVec F S200 .f32) (main_arg15 : FVec F S64x200 .f32) (main_arg16 : FVec F S200x200 .f32) (main_arg17 : FVec F S200 .f32) (main_arg18 : FVec F S200x200 .f32) (main_arg19 : FVec F S200x128 .f32) (main_arg20 : FVec F S128 .f32) (main_arg21 : FVec F S128x200 .f32) (main_arg22 : FVec F S200 .f32) (main_arg23 : FVec F S200x200 .f32) (main_arg24 : FVec F S200 .f32) (main_arg25 : FVec F S200x128 .f32) (main_arg26 : FVec F S128 .f32) (main_arg27 : FVec F S256x256 .f32) (main_arg28 : FVec F S1 .f32) : IVec S_ 1 :=
  let main_v0 : FVec F S120000x128 .f32 := Host.absf main_arg0
  let main_cst : FVec F S_ .f32 := constant S_ .f32 0x7F800000#32
  let main_v1 : FVec F S120000x128 .f32 := broadcastInDim S120000x128 ![] bcast_S_S120000x128 main_cst
  let main_v2 : IVec S120000x128 1 := cmpf .olt main_v0 main_v1
  let main_c : IVec S_ 1 := constantI S_ 1 1#1
  let main_v3 : IVec S_ 1 := (fun x v => Host.reduce IntOp.andi x v reducesTo_S120000x128_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S19000x128 .f32 := Host.absf main_arg2
  let main_cst_2 : FVec F S_ .f32 := constant S_ .f32 0x7F800000#32
  let main_v10 : FVec F S19000x128 .f32 := broadcastInDim S19000x128 ![] bcast_S_S19000x128 main_cst_2
  let main_v11 : IVec S19000x128 1 := cmpf .olt main_v9 main_v10
  let main_c_3 : IVec S_ 1 := constantI S_ 1 1#1
  let main_v12 : IVec S_ 1 := (fun x v => Host.reduce IntOp.andi x v reducesTo_S19000x128_S_d0_1 h_S_) main_v11 main_c_3
  let main_v13 : IVec S_ 1 := andi main_v8 main_v12
  let main_v14 : FVec F S128x200 .f32 := Host.absf main_arg7
  let main_cst_4 : FVec F S_ .f32 := constant S_ .f32 0x7F800000#32
  let main_v15 : FVec F S128x200 .f32 := broadcastInDim S128x200 ![] bcast_S_S128x200 main_cst_4
  let main_v16 : IVec S128x200 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S120000x128 : Shape := ⟨2, ![120000, 128]⟩
abbrev S64x64 : Shape := ⟨2, ![64, 64]⟩
abbrev S19000x128 : Shape := ⟨2, ![19000, 128]⟩
abbrev S2x1200000 : Shape := ⟨2, ![2, 1200000]⟩
abbrev S120000 : Shape := ⟨1, ![120000]⟩
abbrev S2x256 : Shape := ⟨2, ![2, 256]⟩
abbrev S2x600000 : Shape := ⟨2, ![2, 600000]⟩
abbrev S128x200 : Shape := ⟨2, ![128, 200]⟩
abbrev S200 : Shape := ⟨1, ![200]⟩
abbrev S200x200 : Shape := ⟨2, ![200, 200]⟩
abbrev S200x256 : Shape := ⟨2, ![200, 256]⟩
abbrev S256 : Shape := ⟨1, ![256]⟩
abbrev S64x200 : Shape := ⟨2, ![64, 200]⟩
abbrev S200x128 : Shape := ⟨2, ![200, 128]⟩
abbrev S128 : Shape := ⟨1, ![128]⟩
abbrev S256x256 : Shape := ⟨2, ![256, 256]⟩
abbrev S1 : Shape := ⟨1, ![1]⟩
abbrev S1x1200000 : Shape := ⟨2, ![1, 1200000]⟩
abbrev S1200000 : Shape := ⟨1, ![1200000]⟩
abbrev S1320000 : Shape := ⟨1, ![1320000]⟩
abbrev S_ : Shape := ⟨0, ![]⟩
abbrev S1320000x1 : Shape := ⟨2, ![1320000, 1]⟩
abbrev S1320000x128 : Shape := ⟨2, ![1320000, 128]⟩
abbrev S1x200 : Shape := ⟨2, ![1, 200]⟩
abbrev S120000x200 : Shape := ⟨2, ![120000, 200]⟩
abbrev S4000x128 : Shape := ⟨2, ![4000, 128]⟩
abbrev S4000x200 : Shape := ⟨2, ![4000, 200]⟩
abbrev S1320000x200 : Shape := ⟨2, ![1320000, 200]⟩
abbrev S120000x1 : Shape := ⟨2, ![120000, 1]⟩
abbrev S200x1 : Shape := ⟨2, ![200, 1]⟩
abbrev S1x256 : Shape := ⟨2, ![1, 256]⟩
abbrev S256x1 : Shape := ⟨2, ![256, 1]⟩
abbrev S256x64 : Shape := ⟨2, ![256, 64]⟩
abbrev S256x200 : Shape := ⟨2, ![256, 200]⟩
abbrev S1x128 : Shape := ⟨2, ![1, 128]⟩
abbrev S1x600000 : Shape := ⟨2, ![1, 600000]⟩
abbrev S600000 : Shape := ⟨1, ![600000]⟩
abbrev S19000 : Shape := ⟨1, ![19000]⟩
abbrev S619000 : Shape := ⟨1, ![619000]⟩
abbrev S619000x1 : Shape := ⟨2, ![619000, 1]⟩
abbrev S619000x128 : Shape := ⟨2, ![619000, 128]⟩
abbrev S19000x200 : Shape := ⟨2, ![19000, 200]⟩
abbrev S1000x128 : Shape := ⟨2, ![1000, 128]⟩
abbrev S1000x200 : Shape := ⟨2, ![1000, 200]⟩
abbrev S619000x200 : Shape := ⟨2, ![619000, 200]⟩
abbrev S1x1 : Shape := ⟨2, ![1, 1]⟩

abbrev nBuf : Space → Nat
  | .hbm => 258
  | .vmem => 24
  | .smem => 0
  | _ => 0

abbrev hbmTy0_0 (i : Nat) : BufTy := match i % 128 with
  | 0 => ⟨S120000x128, .f32⟩
  | 1 => ⟨S64x64, .f32⟩
  | 2 => ⟨S19000x128, .f32⟩
  | 3 => ⟨S2x1200000, .i32⟩
  | 4 => ⟨S120000, .i32⟩
  | 5 => ⟨S2x256, .i32⟩
  | 6 => ⟨S2x600000, .i32⟩
  | 7 => ⟨S128x200, .f32⟩
  | 8 => ⟨S200, .f32⟩
  | 9 => ⟨S200x200, .f32⟩
  | 10 => ⟨S200, .f32⟩
  | 11 => ⟨S200x256, .f32⟩
  | 12 => ⟨S256, .f32⟩
  | 13 => ⟨S64x200, .f32⟩
  | 14 => ⟨S200, .f32⟩
  | 15 => ⟨S64x200, .f32⟩
  | 16 => ⟨S200x200, .f32⟩
  | 17 => ⟨S200, .f32⟩
  | 18 => ⟨S200x200, .f32⟩
  | 19 => ⟨S200x128, .f32⟩
  | 20 => ⟨S128, .f32⟩
  | 21 => ⟨S128x200, .f32⟩
  | 22 => ⟨S200, .f32⟩
  | 23 => ⟨S200x200, .f32⟩
  | 24 => ⟨S200, .f32⟩
  | 25 => ⟨S200x128, .f32⟩
  | 26 => ⟨S128, .f32⟩
  | 27 => ⟨S256x256, .f32⟩
  | 28 => ⟨S1, .f32⟩
  | 29 => ⟨S1x1200000, .i32⟩
  | 30 => ⟨S1200000, .i32⟩
  | 31 => ⟨S1x1200000, .i32⟩
  | 32 => ⟨S1200000, .i32⟩
  | 33 => ⟨S120000, .i32⟩
  | 34 => ⟨S1320000, .i32⟩
  | 35 => ⟨S1320000, .i32⟩
  | 36 => ⟨S_, .f32⟩
  | 37 => ⟨S1320000, .f32⟩
  | 38 => ⟨S_, .f32⟩
  | 39 => ⟨S120000, .f32⟩
  | 40 => ⟨S1320000x1, .i32⟩
  | 41 => ⟨S120000, .f32⟩
  | 42 => ⟨S120000, .f32⟩
  | 43 => ⟨S_, .i32⟩
  | 44 => ⟨S1320000, .i32⟩
  | 45 => ⟨S1320000, .i1⟩
  | 46 => ⟨S_, .i32⟩
  | 47 => ⟨S1320000, .i32⟩
  | 48 => ⟨S1320000, .i32⟩
  | 49 => ⟨S1320000, .i32⟩
  | 50 => ⟨S1320000x1, .i32⟩
  | 51 => ⟨S1320000, .f32⟩
  | 52 => ⟨S_, .i32⟩
  | 53 => ⟨S1320000, .i32⟩
  | 54 => ⟨S1320000, .i1⟩
  | 55 => ⟨S_, .i32⟩
  | 56 => ⟨S1320000, .i32⟩
  | 57 => ⟨S1320000, .i32⟩
  | 58 => ⟨S1320000, .i32⟩
  | 59 => ⟨S1320000x1, .i32⟩
  | 60 => ⟨S1320000, .f32⟩
  | 61 => ⟨S1320000, .f32⟩
  | 62 => ⟨S_, .i32⟩
  | 63 => ⟨S1320000, .i32⟩
  | 64 => ⟨S1320000, .i1⟩
  | 65 => ⟨S_, .i32⟩
  | 66 => ⟨S1320000, .i32⟩
  | 67 => ⟨S1320000, .i32⟩
  | 68 => ⟨S1320000, .i32⟩
  | 69 => ⟨S1320000x1, .i32⟩
  | 70 => ⟨S1320000x128, .f32⟩
  | 71 => ⟨S1320000x1, .f32⟩
  | 72 => ⟨S1320000x128, .f32⟩
  | 73 => ⟨S1320000x128, .f32⟩
  | 74 => ⟨S_, .f32⟩
  | 75 => ⟨S120000x128, .f32⟩
  | 76 => ⟨S1320000x1, .i32⟩
  | 77 => ⟨S120000x128, .f32⟩
  | 78 => ⟨S1x200, .f32⟩
  | 79 => ⟨S120000x200, .f32⟩
  | 80 => ⟨S_, .i32⟩
  | 81 => ⟨S1320000, .i32⟩
  | 82 => ⟨S1320000, .i1⟩
  | 83 => ⟨S_, .i32⟩
  | 84 => ⟨S1320000, .i32⟩
  | 85 => ⟨S1320000, .i32⟩
  | 86 => ⟨S1320000, .i32⟩
  | 87 => ⟨S1320000x1, .i32⟩
  | 88 => ⟨S1320000x200, .f32⟩
  | 89 => ⟨S1320000x1, .f32⟩
  | 90 => ⟨S1320000x200, .f32⟩
  | 91 => ⟨S1320000x200, .f32⟩
  | 92 => ⟨S_, .f32⟩
  | 93 => ⟨S120000x200, .f32⟩
  | 94 => ⟨S1320000x1, .i32⟩
  | 95 => ⟨S120000x200, .f32⟩
  | 96 => ⟨S1x200, .f32⟩
  | 97 => ⟨S120000x200, .f32⟩
  | 98 => ⟨S_, .f32⟩
  | 99 => ⟨S200x200, .f32⟩
  | 100 => ⟨S120000x1, .i32⟩
  | 101 => ⟨S200x200, .f32⟩
  | 102 => ⟨S_, .f32⟩
  | 103 => ⟨S120000, .f32⟩
  | 104 => ⟨S_, .f32⟩
  | 105 => ⟨S200, .f32⟩
  | 106 => ⟨S120000x1, .i32⟩
  | 107 => ⟨S200, .f32⟩
  | 108 => ⟨S200x1, .f32⟩
  | 109 => ⟨S200x200, .f32⟩
  | 110 => ⟨S200x200, .f32⟩
  | 111 => ⟨S200x256, .f32⟩
  | 112 => ⟨S1x256, .f32⟩
  | 113 => ⟨S200x256, .f32⟩
  | 114 => ⟨S200x256, .f32⟩
  | 115 => ⟨S1x256, .i32⟩
  | 116 => ⟨S256, .i32⟩
  | 117 => ⟨S1x256, .i32⟩
  | 118 => ⟨S256, .i32⟩
  | 119 => ⟨S_, .i32⟩
  | 120 => ⟨S256, .i32⟩
  | 121 => ⟨S256, .i1⟩
  | 122 => ⟨S_, .i32⟩
  | 123 => ⟨S256, .i32⟩
  | 124 => ⟨S256, .i32⟩
  | 125 => ⟨S256, .i32⟩
  | 126 => ⟨S256x1, .i32⟩
  | 127 => ⟨S256x64, .f32⟩
  | _ => ⟨S120000x128, .f32⟩

abbrev hbmTy0_1 (i : Nat) : BufTy := match i % 128 with
  | 0 => ⟨S_, .f32⟩
  | 1 => ⟨S64x64, .f32⟩
  | 2 => ⟨S256x1, .i32⟩
  | 3 => ⟨S64x64, .f32⟩
  | 4 => ⟨S64x200, .f32⟩
  | 5 => ⟨S1x200, .f32⟩
  | 6 => ⟨S64x200, .f32⟩
  | 7 => ⟨S64x200, .f32⟩
  | 8 => ⟨S64x200, .f32⟩
  | 9 => ⟨S64x200, .f32⟩
  | 10 => ⟨S_, .f32⟩
  | 11 => ⟨S64x200, .f32⟩
  | 12 => ⟨S64x200, .f32⟩
  | 13 => ⟨S1x256, .i32⟩
  | 14 => ⟨S256, .i32⟩
  | 15 => ⟨S1x256, .i32⟩
  | 16 => ⟨S256, .i32⟩
  | 17 => ⟨S_, .i32⟩
  | 18 => ⟨S256, .i32⟩
  | 19 => ⟨S256, .i1⟩
  | 20 => ⟨S_, .i32⟩
  | 21 => ⟨S256, .i32⟩
  | 22 => ⟨S256, .i32⟩
  | 23 => ⟨S256, .i32⟩
  | 24 => ⟨S256x1, .i32⟩
  | 25 => ⟨S256x200, .f32⟩
  | 26 => ⟨S_, .f32⟩
  | 27 => ⟨S64x200, .f32⟩
  | 28 => ⟨S256x1, .i32⟩
  | 29 => ⟨S64x200, .f32⟩
  | 30 => ⟨S64x200, .f32⟩
  | 31 => ⟨S1x200, .f32⟩
  | 32 => ⟨S64x200, .f32⟩
  | 33 => ⟨S64x200, .f32⟩
  | 34 => ⟨S64x200, .f32⟩
  | 35 => ⟨S64x200, .f32⟩
  | 36 => ⟨S_, .f32⟩
  | 37 => ⟨S64x200, .f32⟩
  | 38 => ⟨S64x200, .f32⟩
  | 39 => ⟨S_, .f32⟩
  | 40 => ⟨S200, .f32⟩
  | 41 => ⟨S1x200, .f32⟩
  | 42 => ⟨S_, .f32⟩
  | 43 => ⟨S1x200, .f32⟩
  | 44 => ⟨S1x200, .f32⟩
  | 45 => ⟨S1x128, .f32⟩
  | 46 => ⟨S1x128, .f32⟩
  | 47 => ⟨S1x128, .f32⟩
  | 48 => ⟨S1x600000, .i32⟩
  | 49 => ⟨S600000, .i32⟩
  | 50 => ⟨S1x600000, .i32⟩
  | 51 => ⟨S600000, .i32⟩
  | 52 => ⟨S19000, .i32⟩
  | 53 => ⟨S619000, .i32⟩
  | 54 => ⟨S619000, .i32⟩
  | 55 => ⟨S_, .f32⟩
  | 56 => ⟨S619000, .f32⟩
  | 57 => ⟨S_, .f32⟩
  | 58 => ⟨S19000, .f32⟩
  | 59 => ⟨S619000x1, .i32⟩
  | 60 => ⟨S19000, .f32⟩
  | 61 => ⟨S19000, .f32⟩
  | 62 => ⟨S_, .i32⟩
  | 63 => ⟨S619000, .i32⟩
  | 64 => ⟨S619000, .i1⟩
  | 65 => ⟨S_, .i32⟩
  | 66 => ⟨S619000, .i32⟩
  | 67 => ⟨S619000, .i32⟩
  | 68 => ⟨S619000, .i32⟩
  | 69 => ⟨S619000x1, .i32⟩
  | 70 => ⟨S619000, .f32⟩
  | 71 => ⟨S_, .i32⟩
  | 72 => ⟨S619000, .i32⟩
  | 73 => ⟨S619000, .i1⟩
  | 74 => ⟨S_, .i32⟩
  | 75 => ⟨S619000, .i32⟩
  | 76 => ⟨S619000, .i32⟩
  | 77 => ⟨S619000, .i32⟩
  | 78 => ⟨S619000x1, .i32⟩
  | 79 => ⟨S619000, .f32⟩
  | 80 => ⟨S619000, .f32⟩
  | 81 => ⟨S_, .i32⟩
  | 82 => ⟨S619000, .i32⟩
  | 83 => ⟨S619000, .i1⟩
  | 84 => ⟨S_, .i32⟩
  | 85 => ⟨S619000, .i32⟩
  | 86 => ⟨S619000, .i32⟩
  | 87 => ⟨S619000, .i32⟩
  | 88 => ⟨S619000x1, .i32⟩
  | 89 => ⟨S619000x128, .f32⟩
  | 90 => ⟨S619000x1, .f32⟩
  | 91 => ⟨S619000x128, .f32⟩
  | 92 => ⟨S619000x128, .f32⟩
  | 93 => ⟨S_, .f32⟩
  | 94 => ⟨S19000x128, .f32⟩
  | 95 => ⟨S619000x1, .i32⟩
  | 96 => ⟨S19000x128, .f32⟩
  | 97 => ⟨S1x200, .f32⟩
  | 98 => ⟨S19000x200, .f32⟩
  | 99 => ⟨S_, .i32⟩
  | 100 => ⟨S619000, .i32⟩
  | 101 => ⟨S619000, .i1⟩
  | 102 => ⟨S_, .i32⟩
  | 103 => ⟨S619000, .i32⟩
  | 104 => ⟨S619000, .i32⟩
  | 105 => ⟨S619000, .i32⟩
  | 106 => ⟨S619000x1, .i32⟩
  | 107 => ⟨S619000x200, .f32⟩
  | 108 => ⟨S619000x1, .f32⟩
  | 109 => ⟨S619000x200, .f32⟩
  | 110 => ⟨S619000x200, .f32⟩
  | 111 => ⟨S_, .f32⟩
  | 112 => ⟨S19000x200, .f32⟩
  | 113 => ⟨S619000x1, .i32⟩
  | 114 => ⟨S19000x200, .f32⟩
  | 115 => ⟨S1x200, .f32⟩
  | 116 => ⟨S19000x200, .f32⟩
  | 117 => ⟨S1x200, .f32⟩
  | 118 => ⟨S200, .f32⟩
  | 119 => ⟨S1x200, .f32⟩
  | 120 => ⟨S1x128, .f32⟩
  | 121 => ⟨S1x128, .f32⟩
  | 122 => ⟨S1x128, .f32⟩
  | 123 => ⟨S1x256, .f32⟩
  | 124 => ⟨S200x256, .f32⟩
  | 125 => ⟨S256x1, .f32⟩
  | 126 => ⟨S200x1, .f32⟩
  | 127 => ⟨S1x1, .f32⟩
  | _ => ⟨S120000x128, .f32⟩

abbrev hbmTy0_2 (i : Nat) : BufTy := match i % 128 with
  | 0 => ⟨S200x1, .f32⟩
  | 1 => ⟨S200x1, .f32⟩
  | _ => ⟨S120000x128, .f32⟩

abbrev hbmTy (i : Nat) : BufTy := match i / 128 with
  | 0 => hbmTy0_0 i
  | 1 => hbmTy0_1 i
  | 2 => hbmTy0_2 i
  | _ => ⟨S120000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x200, .f32⟩
  | .local _ .vmem, ⟨3, _⟩ => ⟨S1x200, .f32⟩
  | .local _ .vmem, ⟨4, _⟩ => ⟨S4000x200, .f32⟩
  | .local _ .vmem, ⟨5, _⟩ => ⟨S4000x200, .f32⟩
  | .local _ .vmem, ⟨6, _⟩ => ⟨S4000x200, .f32⟩
  | .local _ .vmem, ⟨7, _⟩ => ⟨S4000x200, .f32⟩
  | .local _ .vmem, ⟨8, _⟩ => ⟨S200x200, .f32⟩
  | .local _ .vmem, ⟨9, _⟩ => ⟨S1x200, .f32⟩
  | .local _ .vmem, ⟨10, _⟩ => ⟨S4000x200, .f32⟩
  | .local _ .vmem, ⟨11, _⟩ => ⟨S4000x200, .f32⟩
  | .local _ .vmem, ⟨12, _⟩ => ⟨S1000x128, .f32⟩
  | .local _ .vmem, ⟨13, _⟩ => ⟨S1000x128, .f32⟩
  | .local _ .vmem, ⟨14, _⟩ => ⟨S128x200, .f32⟩
  | .local _ .vmem, ⟨15, _⟩ => ⟨S1x200, .f32⟩
  | .local _ .vmem, ⟨16, _⟩ => ⟨S1000x200, .f32⟩
  | .local _ .vmem, ⟨17, _⟩ => ⟨S1000x200, .f32⟩
  | .local _ .vmem, ⟨18, _⟩ => ⟨S1000x200, .f32⟩
  | .local _ .vmem, ⟨19, _⟩ => ⟨S1000x200, .f32⟩
  | .local _ .vmem, ⟨20, _⟩ => ⟨S200x200, .f32⟩
  | .local _ .vmem, ⟨21, _⟩ => ⟨S1x200, .f32⟩
  | .local _ .vmem, ⟨22, _⟩ => ⟨S1000x200, .f32⟩
  | .local _ .vmem, ⟨23, _⟩ => ⟨S1000x200, .f32⟩
  | _, _ => ⟨S120000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst : Ref sig .tc := ⟨.hbm, 36, rfl⟩
abbrev main_v7 : Ref sig .tc := ⟨.hbm, 37, rfl⟩
abbrev main_cst_0 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_c : Ref sig .tc := ⟨.hbm, 43, rfl⟩
abbrev main_v12 : Ref sig .tc := ⟨.hbm, 44, rfl⟩
abbrev main_v13 : Ref sig .tc := ⟨.hbm, 45, rfl⟩
abbrev main_c_1 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_c_2 : Ref sig .tc := ⟨.hbm, 52, rfl⟩
abbrev main_v19 : Ref sig .tc := ⟨.hbm, 53, rfl⟩
abbrev main_v20 : Ref sig .tc := ⟨.hbm, 54, rfl⟩
abbrev main_c_3 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_c_4 : Ref sig .tc := ⟨.hbm, 62, rfl⟩
abbrev main_v27 : Ref sig .tc := ⟨.hbm, 63, rfl⟩
abbrev main_v28 : Ref sig .tc := ⟨.hbm, 64, rfl⟩
abbrev main_c_5 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_6 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_c_7 : Ref sig .tc := ⟨.hbm, 80, rfl⟩
abbrev main_v42 : Ref sig .tc := ⟨.hbm, 81, rfl⟩
abbrev main_v43 : Ref sig .tc := ⟨.hbm, 82, rfl⟩
abbrev main_c_8 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_cst_9 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_cst_10 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_cst_11 : Ref sig .tc := ⟨.hbm, 102, rfl⟩
abbrev main_v60 : Ref sig .tc := ⟨.hbm, 103, rfl⟩
abbrev main_cst_12 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_c_13 : Ref sig .tc := ⟨.hbm, 119, rfl⟩
abbrev main_v75 : Ref sig .tc := ⟨.hbm, 120, rfl⟩
abbrev main_v76 : Ref sig .tc := ⟨.hbm, 121, rfl⟩
abbrev main_c_14 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_15 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_call0_cst : Ref sig .tc := ⟨.hbm, 138, rfl⟩
abbrev main_call0_v0 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_c_16 : Ref sig .tc := ⟨.hbm, 145, rfl⟩
abbrev main_v96 : Ref sig .tc := ⟨.hbm, 146, rfl⟩
abbrev main_v97 : Ref sig .tc := ⟨.hbm, 147, rfl⟩
abbrev main_c_17 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_cst_18 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_call1_cst : Ref sig .tc := ⟨.hbm, 164, rfl⟩
abbrev main_call1_v0 : Ref sig .tc := ⟨.hbm, 165, rfl⟩
abbrev main_v112 : Ref sig .tc := ⟨.hbm, 166, rfl⟩
abbrev main_cst_19 : Ref sig .tc := ⟨.hbm, 167, rfl⟩
abbrev main_v113 : Ref sig .tc := ⟨.hbm, 168, rfl⟩
abbrev main_v114 : Ref sig .tc := ⟨.hbm, 169, rfl⟩
abbrev main_cst_20 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_cst_21 : Ref sig .tc := ⟨.hbm, 183, rfl⟩
abbrev main_v127 : Ref sig .tc := ⟨.hbm, 184, rfl⟩
abbrev main_cst_22 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_c_23 : Ref sig .tc := ⟨.hbm, 190, rfl⟩
abbrev main_v132 : Ref sig .tc := ⟨.hbm, 191, rfl⟩
abbrev main_v133 : Ref sig .tc := ⟨.hbm, 192, rfl⟩
abbrev main_c_24 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_c_25 : Ref sig .tc := ⟨.hbm, 199, rfl⟩
abbrev main_v139 : Ref sig .tc := ⟨.hbm, 200, rfl⟩
abbrev main_v140 : Ref sig .tc := ⟨.hbm, 201, rfl⟩
abbrev main_c_26 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_c_27 : Ref sig .tc := ⟨.hbm, 209, rfl⟩
abbrev main_v147 : Ref sig .tc := ⟨.hbm, 210, rfl⟩
abbrev main_v148 : Ref sig .tc := ⟨.hbm, 211, rfl⟩
abbrev main_c_28 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_cst_29 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_c_30 : Ref sig .tc := ⟨.hbm, 227, rfl⟩
abbrev main_v162 : Ref sig .tc := ⟨.hbm, 228, rfl⟩
abbrev main_v163 : Ref sig .tc := ⟨.hbm, 229, rfl⟩
abbrev main_c_31 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_cst_32 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S200x200 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x200 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x200 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![19], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x200 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x200 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x200 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![19], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x200 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S200x200 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x200 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x200 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S120000_S1320000_d0 : Shape.Concatenates [S1200000, S120000] S1320000 0
  bcast_S_S1320000 : S_.BroadcastsInDim S1320000 (![] : Fin 0 → Fin S1320000.rank)
  bcast_S_S120000 : S_.BroadcastsInDim S120000 (![] : Fin 0 → Fin S120000.rank)
  bcast_S1320000_S1320000x1_0 : S1320000.BroadcastsInDim S1320000x1 (![0] : Fin 1 → Fin S1320000x1.rank)
  bcast_S1320000x1_S1320000x128_0_1 : S1320000x1.BroadcastsInDim S1320000x128 (![0, 1] : Fin 2 → Fin S1320000x128.rank)
  bcast_S_S120000x128 : S_.BroadcastsInDim S120000x128 (![] : Fin 0 → Fin S120000x128.rank)
  shapeCasts_S200_S1x200 : S200.ShapeCasts S1x200
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x200_S128x200_0_0 : ∀ a, (![0, 0] : Fin 2 → Nat) a + S128x200.size a ≤ S128x200.size a
  h_S128x200 : 0 < S128x200.numel
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S4000x200 : S1x200.Broadcasts S4000x200
  inb_S4000x200_S4000x200_0_0 : ∀ a, (![0, 0] : Fin 2 → Nat) a + S4000x200.size a ≤ S4000x200.size a
  h_S4000x200 : 0 < S4000x200.numel
  bcast_S1320000x1_S1320000x200_0_1 : S1320000x1.BroadcastsInDim S1320000x200 (![0, 1] : Fin 2 → Fin S1320000x200.rank)
  bcast_S_S120000x200 : S_.BroadcastsInDim S120000x200 (![] : Fin 0 → Fin S120000x200.rank)
  shapeCasts_S4000x200_S4000x200 : S4000x200.ShapeCasts S4000x200
  inb_S200x200_S200x200_0_0 : ∀ a, (![0, 0] : Fin 2 → Nat) a + S200x200.size a ≤ S200x200.size a
  h_S200x200 : 0 < S200x200.numel
  bcast_S_S200x200 : S_.BroadcastsInDim S200x200 (![] : Fin 0 → Fin S200x200.rank)
  bcast_S120000_S120000x1_0 : S120000.BroadcastsInDim S120000x1 (![0] : Fin 1 → Fin S120000x1.rank)
  bcast_S_S200 : S_.BroadcastsInDim S200 (![] : Fin 0 → Fin S200.rank)
  bcast_S200_S200x1_0 : S200.BroadcastsInDim S200x1 (![0] : Fin 1 → Fin S200x1.rank)
  bcast_S200x1_S200x200_0_1 : S200x1.BroadcastsInDim S200x200 (![0, 1] : Fin 2 → Fin S200x200.rank)
  bcast_S256_S1x256_1 : S256.BroadcastsInDim S1x256 (![1] : Fin 1 → Fin S1x256.rank)
  bcast_S1x256_S200x256_0_1 : S1x256.BroadcastsInDim S200x256 (![0, 1] : Fin 2 → Fin S200x256.rank)
  slices_S2x256_S1x256_0_0 : S2x256.Slices ![0, 0] S1x256
  shapeCasts_S1x256_S256 : S1x256.ShapeCasts S256
  slices_S2x256_S1x256_1_0 : S2x256.Slices ![1, 0] S1x256
  bcast_S_S256 : S_.BroadcastsInDim S256 (![] : Fin 0 → Fin S256.rank)
  bcast_S256_S256x1_0 : S256.BroadcastsInDim S256x1 (![0] : Fin 1 → Fin S256x1.rank)
  bcast_S_S64x64 : S_.BroadcastsInDim S64x64 (![] : Fin 0 → Fin S64x64.rank)
  bcast_S200_S1x200_1 : S200.BroadcastsInDim S1x200 (![1] : Fin 1 → Fin S1x200.rank)
  bcast_S1x200_S64x200_0_1 : S1x200.BroadcastsInDim S64x200 (![0, 1] : Fin 2 → Fin S64x200.rank)
  bcast_S_S64x200 : S_.BroadcastsInDim S64x200 (![] : Fin 0 → Fin S64x200.rank)
  reducesTo_S64x200_S200_d0 : S64x200.ReducesTo [0] S200
  h_S_ : 0 < S_.numel
  bcast_S_S1x200 : S_.BroadcastsInDim S1x200 (![] : Fin 0 → Fin S1x200.rank)
  bcast_S128_S1x128_1 : S128.BroadcastsInDim S1x128 (![1] : Fin 1 → Fin S1x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S19000_S619000_d0 : Shape.Concatenates [S600000, S19000] S619000 0
  bcast_S_S619000 : S_.BroadcastsInDim S619000 (![] : Fin 0 → Fin S619000.rank)
  bcast_S_S19000 : S_.BroadcastsInDim S19000 (![] : Fin 0 → Fin S19000.rank)
  bcast_S619000_S619000x1_0 : S619000.BroadcastsInDim S619000x1 (![0] : Fin 1 → Fin S619000x1.rank)
  bcast_S619000x1_S619000x128_0_1 : S619000x1.BroadcastsInDim S619000x128 (![0, 1] : Fin 2 → Fin S619000x128.rank)
  bcast_S_S19000x128 : S_.BroadcastsInDim S19000x128 (![] : Fin 0 → Fin S19000x128.rank)
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1x200_S1000x200 : S1x200.Broadcasts S1000x200
  inb_S1000x200_S1000x200_0_0 : ∀ a, (![0, 0] : Fin 2 → Nat) a + S1000x200.size a ≤ S1000x200.size a
  h_S1000x200 : 0 < S1000x200.numel
  bcast_S619000x1_S619000x200_0_1 : S619000x1.BroadcastsInDim S619000x200 (![0, 1] : Fin 2 → Fin S619000x200.rank)
  bcast_S_S19000x200 : S_.BroadcastsInDim S19000x200 (![] : Fin 0 → Fin S19000x200.rank)
  shapeCasts_S1000x200_S1000x200 : S1000x200.ShapeCasts S1000x200
  slices_S19000x200_S1x200_18999_0 : S19000x200.Slices ![18999, 0] S1x200
  shapeCasts_S1x200_S200 : S1x200.ShapeCasts S200
  concatenates_S1x128_S1x128_S1x256_d1 : Shape.Concatenates [S1x128, S1x128] S1x256 1
  transposes_S1x256_S256x1_1_0 : S1x256.Transposes [1, 0] S256x1
  bcast_S1_S1x1_1 : S1.BroadcastsInDim S1x1 (![1] : Fin 1 → Fin S1x1.rank)
  bcast_S1x1_S200x1_0_1 : S1x1.BroadcastsInDim S200x1 (![0, 1] : Fin 2 → Fin S200x1.rank)
  scatter_S120000_S1320000x1_S1320000_n_0_0_1_wf : ScatterDims.WF S120000 S1320000x1 S1320000 [] [0] [0] 1
  gather_S120000_S1320000x1_S1320000_n_0_n_n_0_1_1_wf : GatherDims.WF S120000 S1320000x1 S1320000 [] [0] [] [0] [] 1 ![1]
  gather_S120000x128_S1320000x1_S1320000x128_1_0_n_n_0_1_1128_wf : GatherDims.WF S120000x128 S1320000x1 S1320000x128 [1] [0] [] [0] [] 1 ![1, 128]
  scatter_S120000x128_S1320000x1_S1320000x128_1_0_0_1_wf : ScatterDims.WF S120000x128 S1320000x1 S1320000x128 [1] [0] [0] 1
  dot_S4000x128_S128x200_S4000x200_1_0_0_1_n_n_wf : DotDims.WF S4000x128 S128x200 S4000x200 [1] [0] [0] [1] [] []
  gather_S120000x200_S1320000x1_S1320000x200_1_0_n_n_0_1_1200_wf : GatherDims.WF S120000x200 S1320000x1 S1320000x200 [1] [0] [] [0] [] 1 ![1, 200]
  scatter_S120000x200_S1320000x1_S1320000x200_1_0_0_1_wf : ScatterDims.WF S120000x200 S1320000x1 S1320000x200 [1] [0] [0] 1
  dot_S4000x200_S200x200_S4000x200_1_0_0_1_n_n_wf : DotDims.WF S4000x200 S200x200 S4000x200 [1] [0] [0] [1] [] []
  scatter_S200x200_S120000x1_S120000x200_1_0_0_1_wf : ScatterDims.WF S200x200 S120000x1 S120000x200 [1] [0] [0] 1
  scatter_S200_S120000x1_S120000_n_0_0_1_wf : ScatterDims.WF S200 S120000x1 S120000 [] [0] [0] 1
  dot_S200x200_S200x256_S200x256_1_0_0_1_n_n_wf : DotDims.WF S200x200 S200x256 S200x256 [1] [0] [0] [1] [] []
  gather_S64x64_S256x1_S256x64_1_0_n_n_0_1_164_wf : GatherDims.WF S64x64 S256x1 S256x64 [1] [0] [] [0] [] 1 ![1, 64]
  scatter_S64x64_S256x1_S256x64_1_0_0_1_wf : ScatterDims.WF S64x64 S256x1 S256x64 [1] [0] [0] 1
  dot_S64x64_S64x200_S64x200_1_0_0_1_n_n_wf : DotDims.WF S64x64 S64x200 S64x200 [1] [0] [0] [1] [] []
  gather_S64x200_S256x1_S256x200_1_0_n_n_0_1_1200_wf : GatherDims.WF S64x200 S256x1 S256x200 [1] [0] [] [0] [] 1 ![1, 200]
  scatter_S64x200_S256x1_S256x200_1_0_0_1_wf : ScatterDims.WF S64x200 S256x1 S256x200 [1] [0] [0] 1
  dot_S64x200_S200x200_S64x200_1_0_0_1_n_n_wf : DotDims.WF S64x200 S200x200 S64x200 [1] [0] [0] [1] [] []
  dot_S1x200_S200x128_S1x128_1_0_0_1_n_n_wf : DotDims.WF S1x200 S200x128 S1x128 [1] [0] [0] [1] [] []
  scatter_S19000_S619000x1_S619000_n_0_0_1_wf : ScatterDims.WF S19000 S619000x1 S619000 [] [0] [0] 1
  gather_S19000_S619000x1_S619000_n_0_n_n_0_1_1_wf : GatherDims.WF S19000 S619000x1 S619000 [] [0] [] [0] [] 1 ![1]
  gather_S19000x128_S619000x1_S619000x128_1_0_n_n_0_1_1128_wf : GatherDims.WF S19000x128 S619000x1 S619000x128 [1] [0] [] [0] [] 1 ![1, 128]
  scatter_S19000x128_S619000x1_S619000x128_1_0_0_1_wf : ScatterDims.WF S19000x128 S619000x1 S619000x128 [1] [0] [0] 1
  dot_S1000x128_S128x200_S1000x200_1_0_0_1_n_n_wf : DotDims.WF S1000x128 S128x200 S1000x200 [1] [0] [0] [1] [] []
  gather_S19000x200_S619000x1_S619000x200_1_0_n_n_0_1_1200_wf : GatherDims.WF S19000x200 S619000x1 S619000x200 [1] [0] [] [0] [] 1 ![1, 200]
  scatter_S19000x200_S619000x1_S619000x200_1_0_0_1_wf : ScatterDims.WF S19000x200 S619000x1 S619000x200 [1] [0] [0] 1
  dot_S1000x200_S200x200_S1000x200_1_0_0_1_n_n_wf : DotDims.WF S1000x200 S200x200 S1000x200 [1] [0] [0] [1] [] []
  dot_S200x256_S256x256_S200x256_1_0_0_1_n_n_wf : DotDims.WF S200x256 S256x256 S200x256 [1] [0] [0] [1] [] []
  dot_S200x256_S256x1_S200x1_1_0_0_1_n_n_wf : DotDims.WF S200x256 S256x1 S200x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S120000x128.size a
  hwx0_0 : ∀ i : grid0.Coords, EltTy.bits .f32 = 32 ∨ (Rect.block (s := S120000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x200.size a ≤ S128x200.size a
  hwx0_1 : ∀ i : grid0.Coords, EltTy.bits .f32 = 32 ∨ (Rect.block (s := S128x200) S128x200.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x200.size a ≤ S1x200.size a
  hwx0_2 : ∀ i : grid0.Coords, EltTy.bits .f32 = 32 ∨ (Rect.block (s := S1x200) S1x200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x200.size a ≤ S120000x200.size a
  hwx0_3 : ∀ i : grid0.Coords, EltTy.bits .f32 = 32 ∨ (Rect.block (s := S120000x200) S4000x200.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x200.size a ≤ S120000x200.size a
  hwx1_0 : ∀ i : grid1.Coords, EltTy.bits .f32 = 32 ∨ (Rect.block (s := S120000x200) S4000x200.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S200x200.size a ≤ S200x200.size a
  hwx1_1 : ∀ i : grid1.Coords, EltTy.bits .f32 = 32 ∨ (Rect.block (s := S200x200) S200x200.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x200.size a ≤ S1x200.size a
  hwx1_2 : ∀ i : grid1.Coords, EltTy.bits .f32 = 32 ∨ (Rect.block (s := S1x200) S1x200.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x200.size a ≤ S120000x200.size a
  hwx1_3 : ∀ i : grid1.Coords, EltTy.bits .f32 = 32 ∨ (Rect.block (s := S120000x200) S4000x200.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S19000x128.size a
  hwx2_0 : ∀ i : grid2.Coords, EltTy.bits .f32 = 32 ∨ (Rect.block (s := S19000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x200.size a ≤ S128x200.size a
  hwx2_1 : ∀ i : grid2.Coords, EltTy.bits .f32 = 32 ∨ (Rect.block (s := S128x200) S128x200.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x200.size a ≤ S1x200.size a
  hwx2_2 : ∀ i : grid2.Coords, EltTy.bits .f32 = 32 ∨ (Rect.block (s := S1x200) S1x200.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x200.size a ≤ S19000x200.size a
  hwx2_3 : ∀ i : grid2.Coords, EltTy.bits .f32 = 32 ∨ (Rect.block (s := S19000x200) S1000x200.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x200.size a ≤ S19000x200.size a
  hwx3_0 : ∀ i : grid3.Coords, EltTy.bits .f32 = 32 ∨ (Rect.block (s := S19000x200) S1000x200.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S200x200.size a ≤ S200x200.size a
  hwx3_1 : ∀ i : grid3.Coords, EltTy.bits .f32 = 32 ∨ (Rect.block (s := S200x200) S200x200.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x200.size a ≤ S1x200.size a
  hwx3_2 : ∀ i : grid3.Coords, EltTy.bits .f32 = 32 ∨ (Rect.block (s := S1x200) S1x200.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x200.size a ≤ S19000x200.size a
  hwx3_3 : ∀ i : grid3.Coords, EltTy.bits .f32 = 32 ∨ (Rect.block (s := S19000x200) S1000x200.size (cc3_transform_3 i) (hinb3_3 i)).WholeWords (EltTy.packing .f32)

variable [Facts₀]

def scatter_S120000_S1320000x1_S1320000_n_0_0_1 : ScatterDims S120000 S1320000x1 S1320000 where
  updateWindowDims := []
  insertedWindowDims := [0]
  scatterDimsToOperandDims := [0]
  indexVectorDim := 1
  wf := scatter_S120000_S1320000x1_S1320000_n_0_0_1_wf
def gather_S120000_S1320000x1_S1320000_n_0_n_n_0_1_1 : GatherDims S120000 S1320000x1 S1320000 where
  offsetDims := []
  collapsedSliceDims := [0]
  operandBatchingDims := []
  startIndicesBatchingDims := []
  startIndexMap := [0]
  indexVectorDim := 1
  sliceSizes := ![1]
  wf := gather_S120000_S1320000x1_S1320000_n_0_n_n_0_1_1_wf
def gather_S120000x128_S1320000x1_S1320000x128_1_0_n_n_0_1_1128 : GatherDims S120000x128 S1320000x1 S1320000x128 where
  offsetDims := [1]
  collapsedSliceDims := [0]
  operandBatchingDims := []
  startIndicesBatchingDims := []
  startIndexMap := [0]
  indexVectorDim := 1
  sliceSizes := ![1, 128]
  wf := gather_S120000x128_S1320000x1_S1320000x128_1_0_n_n_0_1_1128_wf
def scatter_S120000x128_S1320000x1_S1320000x128_1_0_0_1 : ScatterDims S120000x128 S1320000x1 S1320000x128 where
  updateWindowDims := [1]
  insertedWindowDims := [0]
  scatterDimsToOperandDims := [0]
  indexVectorDim := 1
  wf := scatter_S120000x128_S1320000x1_S1320000x128_1_0_0_1_wf
def dot_S4000x128_S128x200_S4000x200_1_0_0_1_n_n : DotDims S4000x128 S128x200 S4000x200 where
  lhsContracting := [1]
  rhsContracting := [0]
  lhsNonContracting := [0]
  rhsNonContracting := [1]
  lhsBatch := []
  rhsBatch := []
  wf := dot_S4000x128_S128x200_S4000x200_1_0_0_1_n_n_wf
def gather_S120000x200_S1320000x1_S1320000x200_1_0_n_n_0_1_1200 : GatherDims S120000x200 S1320000x1 S1320000x200 where
  offsetDims := [1]
  collapsedSliceDims := [0]
  operandBatchingDims := []
  startIndicesBatchingDims := []
  startIndexMap := [0]
  indexVectorDim := 1
  sliceSizes := ![1, 200]
  wf := gather_S120000x200_S1320000x1_S1320000x200_1_0_n_n_0_1_1200_wf
def scatter_S120000x200_S1320000x1_S1320000x200_1_0_0_1 : ScatterDims S120000x200 S1320000x1 S1320000x200 where
  updateWindowDims := [1]
  insertedWindowDims := [0]
  scatterDimsToOperandDims := [0]
  indexVectorDim := 1
  wf := scatter_S120000x200_S1320000x1_S1320000x200_1_0_0_1_wf
def dot_S4000x200_S200x200_S4000x200_1_0_0_1_n_n : DotDims S4000x200 S200x200 S4000x200 where
  lhsContracting := [1]
  rhsContracting := [0]
  lhsNonContracting := [0]
  rhsNonContracting := [1]
  lhsBatch := []
  rhsBatch := []
  wf := dot_S4000x200_S200x200_S4000x200_1_0_0_1_n_n_wf
def scatter_S200x200_S120000x1_S120000x200_1_0_0_1 : ScatterDims S200x200 S120000x1 S120000x200 where
  updateWindowDims := [1]
  insertedWindowDims := [0]
  scatterDimsToOperandDims := [0]
  indexVectorDim := 1
  wf := scatter_S200x200_S120000x1_S120000x200_1_0_0_1_wf
def scatter_S200_S120000x1_S120000_n_0_0_1 : ScatterDims S200 S120000x1 S120000 where
  updateWindowDims := []
  insertedWindowDims := [0]
  scatterDimsToOperandDims := [0]
  indexVectorDim := 1
  wf := scatter_S200_S120000x1_S120000_n_0_0_1_wf
def dot_S200x200_S200x256_S200x256_1_0_0_1_n_n : DotDims S200x200 S200x256 S200x256 where
  lhsContracting := [1]
  rhsContracting := [0]
  lhsNonContracting := [0]
  rhsNonContracting := [1]
  lhsBatch := []
  rhsBatch := []
  wf := dot_S200x200_S200x256_S200x256_1_0_0_1_n_n_wf
def gather_S64x64_S256x1_S256x64_1_0_n_n_0_1_164 : GatherDims S64x64 S256x1 S256x64 where
  offsetDims := [1]
  collapsedSliceDims := [0]
  operandBatchingDims := []
  startIndicesBatchingDims := []
  startIndexMap := [0]
  indexVectorDim := 1
  sliceSizes := ![1, 64]
  wf := gather_S64x64_S256x1_S256x64_1_0_n_n_0_1_164_wf
def scatter_S64x64_S256x1_S256x64_1_0_0_1 : ScatterDims S64x64 S256x1 S256x64 where
  updateWindowDims := [1]
  insertedWindowDims := [0]
  scatterDimsToOperandDims := [0]
  indexVectorDim := 1
  wf := scatter_S64x64_S256x1_S256x64_1_0_0_1_wf
def dot_S64x64_S64x200_S64x200_1_0_0_1_n_n : DotDims S64x64 S64x200 S64x200 where
  lhsContracting := [1]
  rhsContracting := [0]
  lhsNonContracting := [0]
  rhsNonContracting := [1]
  lhsBatch := []
  rhsBatch := []
  wf := dot_S64x64_S64x200_S64x200_1_0_0_1_n_n_wf
def gather_S64x200_S256x1_S256x200_1_0_n_n_0_1_1200 : GatherDims S64x200 S256x1 S256x200 where
  offsetDims := [1]
  collapsedSliceDims := [0]
  operandBatchingDims := []
  startIndicesBatchingDims := []
  startIndexMap := [0]
  indexVectorDim := 1
  sliceSizes := ![1, 200]
  wf := gather_S64x200_S256x1_S256x200_1_0_n_n_0_1_1200_wf
def scatter_S64x200_S256x1_S256x200_1_0_0_1 : ScatterDims S64x200 S256x1 S256x200 where
  updateWindowDims := [1]
  insertedWindowDims := [0]
  scatterDimsToOperandDims := [0]
  indexVectorDim := 1
  wf := scatter_S64x200_S256x1_S256x200_1_0_0_1_wf
def dot_S64x200_S200x200_S64x200_1_0_0_1_n_n : DotDims S64x200 S200x200 S64x200 where
  lhsContracting := [1]
  rhsContracting := [0]
  lhsNonContracting := [0]
  rhsNonContracting := [1]
  lhsBatch := []
  rhsBatch := []
  wf := dot_S64x200_S200x200_S64x200_1_0_0_1_n_n_wf
def dot_S1x200_S200x128_S1x128_1_0_0_1_n_n : DotDims S1x200 S200x128 S1x128 where
  lhsContracting := [1]
  rhsContracting := [0]
  lhsNonContracting := [0]
  rhsNonContracting := [1]
  lhsBatch := []
  rhsBatch := []
  wf := dot_S1x200_S200x128_S1x128_1_0_0_1_n_n_wf
def scatter_S19000_S619000x1_S619000_n_0_0_1 : ScatterDims S19000 S619000x1 S619000 where
  updateWindowDims := []
  insertedWindowDims := [0]
  scatterDimsToOperandDims := [0]
  indexVectorDim := 1
  wf := scatter_S19000_S619000x1_S619000_n_0_0_1_wf
def gather_S19000_S619000x1_S619000_n_0_n_n_0_1_1 : GatherDims S19000 S619000x1 S619000 where
  offsetDims := []
  collapsedSliceDims := [0]
  operandBatchingDims := []
  startIndicesBatchingDims := []
  startIndexMap := [0]
  indexVectorDim := 1
  sliceSizes := ![1]
  wf := gather_S19000_S619000x1_S619000_n_0_n_n_0_1_1_wf
def gather_S19000x128_S619000x1_S619000x128_1_0_n_n_0_1_1128 : GatherDims S19000x128 S619000x1 S619000x128 where
  offsetDims := [1]
  collapsedSliceDims := [0]
  operandBatchingDims := []
  startIndicesBatchingDims := []
  startIndexMap := [0]
  indexVectorDim := 1
  sliceSizes := ![1, 128]
  wf := gather_S19000x128_S619000x1_S619000x128_1_0_n_n_0_1_1128_wf
def scatter_S19000x128_S619000x1_S619000x128_1_0_0_1 : ScatterDims S19000x128 S619000x1 S619000x128 where
  updateWindowDims := [1]
  insertedWindowDims := [0]
  scatterDimsToOperandDims := [0]
  indexVectorDim := 1
  wf := scatter_S19000x128_S619000x1_S619000x128_1_0_0_1_wf
def dot_S1000x128_S128x200_S1000x200_1_0_0_1_n_n : DotDims S1000x128 S128x200 S1000x200 where
  lhsContracting := [1]
  rhsContracting := [0]
  lhsNonContracting := [0]
  rhsNonContracting := [1]
  lhsBatch := []
  rhsBatch := []
  wf := dot_S1000x128_S128x200_S1000x200_1_0_0_1_n_n_wf
def gather_S19000x200_S619000x1_S619000x200_1_0_n_n_0_1_1200 : GatherDims S19000x200 S619000x1 S619000x200 where
  offsetDims := [1]
  collapsedSliceDims := [0]
  operandBatchingDims := []
  startIndicesBatchingDims := []
  startIndexMap := [0]
  indexVectorDim := 1
  sliceSizes := ![1, 200]
  wf := gather_S19000x200_S619000x1_S619000x200_1_0_n_n_0_1_1200_wf
def scatter_S19000x200_S619000x1_S619000x200_1_0_0_1 : ScatterDims S19000x200 S619000x1 S619000x200 where
  updateWindowDims := [1]
  insertedWindowDims := [0]
  scatterDimsToOperandDims := [0]
  indexVectorDim := 1
  wf := scatter_S19000x200_S619000x1_S619000x200_1_0_0_1_wf
def dot_S1000x200_S200x200_S1000x200_1_0_0_1_n_n : DotDims S1000x200 S200x200 S1000x200 where
  lhsContracting := [1]
  rhsContracting := [0]
  lhsNonContracting := [0]
  rhsNonContracting := [1]
  lhsBatch := []
  rhsBatch := []
  wf := dot_S1000x200_S200x200_S1000x200_1_0_0_1_n_n_wf
def dot_S200x256_S256x256_S200x256_1_0_0_1_n_n : DotDims S200x256 S256x256 S200x256 where
  lhsContracting := [1]
  rhsContracting := [0]
  lhsNonContracting := [0]
  rhsNonContracting := [1]
  lhsBatch := []
  rhsBatch := []
  wf := dot_S200x256_S256x256_S200x256_1_0_0_1_n_n_wf
def dot_S200x256_S256x1_S200x1_1_0_0_1_n_n : DotDims S200x256 S256x1 S200x1 where
  lhsContracting := [1]
  rhsContracting := [0]
  lhsNonContracting := [0]
  rhsNonContracting := [1]
  lhsBatch := []
  rhsBatch := []
  wf := dot_S200x256_S256x1_S200x1_1_0_0_1_n_n_wf

abbrev win0_0 : Pipeline.Window sig grid0 :=
  Pipeline.Window.ofSpec (Memref.whole main_v39) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S128x200.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1x200.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S4000x200.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v54) S4000x200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S200x200.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S1x200.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S4000x200.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v159) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg21) S128x200.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v160) S1x200.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v161) S1000x200.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v174) S1000x200.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg23) S200x200.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v175) S1x200.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v176) S1000x200.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S120000x128 : Shape := ⟨2, ![120000, 128]⟩
abbrev S64x64 : Shape := ⟨2, ![64, 64]⟩
abbrev S19000x128 : Shape := ⟨2, ![19000, 128]⟩
abbrev S2x1200000 : Shape := ⟨2, ![2, 1200000]⟩
abbrev S120000 : Shape := ⟨1, ![120000]⟩
abbrev S2x256 : Shape := ⟨2, ![2, 256]⟩
abbrev S2x600000 : Shape := ⟨2, ![2, 600000]⟩
abbrev S128x200 : Shape := ⟨2, ![128, 200]⟩
abbrev S200 : Shape := ⟨1, ![200]⟩
abbrev S200x200 : Shape := ⟨2, ![200, 200]⟩
abbrev S200x256 : Shape := ⟨2, ![200, 256]⟩
abbrev S256 : Shape := ⟨1, ![256]⟩
abbrev S64x200 : Shape := ⟨2, ![64, 200]⟩
abbrev S200x128 : Shape := ⟨2, ![200, 128]⟩
abbrev S128 : Shape := ⟨1, ![128]⟩
abbrev S256x256 : Shape := ⟨2, ![256, 256]⟩
abbrev S1 : Shape := ⟨1, ![1]⟩
abbrev S1x1200000 : Shape := ⟨2, ![1, 1200000]⟩
abbrev S1200000 : Shape := ⟨1, ![1200000]⟩
abbrev S120000x200 : Shape := ⟨2, ![120000, 200]⟩
abbrev S1320000 : Shape := ⟨1, ![1320000]⟩
abbrev S_ : Shape := ⟨0, ![]⟩
abbrev S1320000x1 : Shape := ⟨2, ![1320000, 1]⟩
abbrev S1320000x200 : Shape := ⟨2, ![1320000, 200]⟩
abbrev S1x200 : Shape := ⟨2, ![1, 200]⟩
abbrev S120000x1 : Shape := ⟨2, ![120000, 1]⟩
abbrev S200x1 : Shape := ⟨2, ![200, 1]⟩
abbrev S1x256 : Shape := ⟨2, ![1, 256]⟩
abbrev S256x1 : Shape := ⟨2, ![256, 1]⟩
abbrev S256x64 : Shape := ⟨2, ![256, 64]⟩
abbrev S256x200 : Shape := ⟨2, ![256, 200]⟩
abbrev S1x128 : Shape := ⟨2, ![1, 128]⟩
abbrev S1x600000 : Shape := ⟨2, ![1, 600000]⟩
abbrev S600000 : Shape := ⟨1, ![600000]⟩
abbrev S19000x200 : Shape := ⟨2, ![19000, 200]⟩
abbrev S19000 : Shape := ⟨1, ![19000]⟩
abbrev S619000 : Shape := ⟨1, ![619000]⟩
abbrev S619000x1 : Shape := ⟨2, ![619000, 1]⟩
abbrev S619000x200 : Shape := ⟨2, ![619000, 200]⟩
abbrev S1x1 : Shape := ⟨2, ![1, 1]⟩

abbrev nBuf : Space → Nat
  | .hbm => 344
  | .vmem => 0
  | .smem => 0
  | _ => 0

abbrev hbmTy0_0 (i : Nat) : BufTy := match i % 128 with
  | 0 => ⟨S120000x128, .f32⟩
  | 1 => ⟨S64x64, .f32⟩
  | 2 => ⟨S19000x128, .f32⟩
  | 3 => ⟨S2x1200000, .i32⟩
  | 4 => ⟨S120000, .i32⟩
  | 5 => ⟨S2x256, .i32⟩
  | 6 => ⟨S2x600000, .i32⟩
  | 7 => ⟨S128x200, .f32⟩
  | 8 => ⟨S200, .f32⟩
  | 9 => ⟨S200x200, .f32⟩
  | 10 => ⟨S200, .f32⟩
  | 11 => ⟨S200x256, .f32⟩
  | 12 => ⟨S256, .f32⟩
  | 13 => ⟨S64x200, .f32⟩
  | 14 => ⟨S200, .f32⟩
  | 15 => ⟨S64x200, .f32⟩
  | 16 => ⟨S200x200, .f32⟩
  | 17 => ⟨S200, .f32⟩
  | 18 => ⟨S200x200, .f32⟩
  | 19 => ⟨S200x128, .f32⟩
  | 20 => ⟨S128, .f32⟩
  | 21 => ⟨S128x200, .f32⟩
  | 22 => ⟨S200, .f32⟩
  | 23 => ⟨S200x200, .f32⟩
  | 24 => ⟨S200, .f32⟩
  | 25 => ⟨S200x128, .f32⟩
  | 26 => ⟨S128, .f32⟩
  | 27 => ⟨S256x256, .f32⟩
  | 28 => ⟨S1, .f32⟩
  | 29 => ⟨S1x1200000, .i32⟩
  | 30 => ⟨S1200000, .i32⟩
  | 31 => ⟨S1x1200000, .i32⟩
  | 32 => ⟨S1200000, .i32⟩
  | 33 => ⟨S120000x200, .f32⟩
  | 34 => ⟨S120000, .i32⟩
  | 35 => ⟨S1320000, .i32⟩
  | 36 => ⟨S1320000, .i32⟩
  | 37 => ⟨S_, .f32⟩
  | 38 => ⟨S1320000, .f32⟩
  | 39 => ⟨S_, .f32⟩
  | 40 => ⟨S120000, .f32⟩
  | 41 => ⟨S1320000x1, .i32⟩
  | 42 => ⟨S120000, .f32⟩
  | 43 => ⟨S120000, .f32⟩
  | 44 => ⟨S_, .i32⟩
  | 45 => ⟨S1320000, .i32⟩
  | 46 => ⟨S1320000, .i1⟩
  | 47 => ⟨S_, .i32⟩
  | 48 => ⟨S1320000, .i32⟩
  | 49 => ⟨S1320000, .i32⟩
  | 50 => ⟨S1320000, .i32⟩
  | 51 => ⟨S1320000x1, .i32⟩
  | 52 => ⟨S1320000, .f32⟩
  | 53 => ⟨S_, .i32⟩
  | 54 => ⟨S1320000, .i32⟩
  | 55 => ⟨S1320000, .i1⟩
  | 56 => ⟨S_, .i32⟩
  | 57 => ⟨S1320000, .i32⟩
  | 58 => ⟨S1320000, .i32⟩
  | 59 => ⟨S1320000, .i32⟩
  | 60 => ⟨S1320000x1, .i32⟩
  | 61 => ⟨S1320000, .f32⟩
  | 62 => ⟨S1320000, .f32⟩
  | 63 => ⟨S_, .i32⟩
  | 64 => ⟨S1320000, .i32⟩
  | 65 => ⟨S1320000, .i1⟩
  | 66 => ⟨S_, .i32⟩
  | 67 => ⟨S1320000, .i32⟩
  | 68 => ⟨S1320000, .i32⟩
  | 69 => ⟨S1320000, .i32⟩
  | 70 => ⟨S1320000x1, .i32⟩
  | 71 => ⟨S1320000x200, .f32⟩
  | 72 => ⟨S1320000x1, .f32⟩
  | 73 => ⟨S1320000x200, .f32⟩
  | 74 => ⟨S1320000x200, .f32⟩
  | 75 => ⟨S_, .f32⟩
  | 76 => ⟨S120000x200, .f32⟩
  | 77 => ⟨S1320000x1, .i32⟩
  | 78 => ⟨S120000x200, .f32⟩
  | 79 => ⟨S1x200, .f32⟩
  | 80 => ⟨S120000x200, .f32⟩
  | 81 => ⟨S120000x200, .f32⟩
  | 82 => ⟨S_, .f32⟩
  | 83 => ⟨S120000x200, .f32⟩
  | 84 => ⟨S120000x200, .f32⟩
  | 85 => ⟨S1x1200000, .i32⟩
  | 86 => ⟨S1200000, .i32⟩
  | 87 => ⟨S1x1200000, .i32⟩
  | 88 => ⟨S1200000, .i32⟩
  | 89 => ⟨S120000x200, .f32⟩
  | 90 => ⟨S120000, .i32⟩
  | 91 => ⟨S1320000, .i32⟩
  | 92 => ⟨S1320000, .i32⟩
  | 93 => ⟨S_, .f32⟩
  | 94 => ⟨S1320000, .f32⟩
  | 95 => ⟨S_, .f32⟩
  | 96 => ⟨S120000, .f32⟩
  | 97 => ⟨S1320000x1, .i32⟩
  | 98 => ⟨S120000, .f32⟩
  | 99 => ⟨S120000, .f32⟩
  | 100 => ⟨S_, .i32⟩
  | 101 => ⟨S1320000, .i32⟩
  | 102 => ⟨S1320000, .i1⟩
  | 103 => ⟨S_, .i32⟩
  | 104 => ⟨S1320000, .i32⟩
  | 105 => ⟨S1320000, .i32⟩
  | 106 => ⟨S1320000, .i32⟩
  | 107 => ⟨S1320000x1, .i32⟩
  | 108 => ⟨S1320000, .f32⟩
  | 109 => ⟨S_, .i32⟩
  | 110 => ⟨S1320000, .i32⟩
  | 111 => ⟨S1320000, .i1⟩
  | 112 => ⟨S_, .i32⟩
  | 113 => ⟨S1320000, .i32⟩
  | 114 => ⟨S1320000, .i32⟩
  | 115 => ⟨S1320000, .i32⟩
  | 116 => ⟨S1320000x1, .i32⟩
  | 117 => ⟨S1320000, .f32⟩
  | 118 => ⟨S1320000, .f32⟩
  | 119 => ⟨S_, .i32⟩
  | 120 => ⟨S1320000, .i32⟩
  | 121 => ⟨S1320000, .i1⟩
  | 122 => ⟨S_, .i32⟩
  | 123 => ⟨S1320000, .i32⟩
  | 124 => ⟨S1320000, .i32⟩
  | 125 => ⟨S1320000, .i32⟩
  | 126 => ⟨S1320000x1, .i32⟩
  | 127 => ⟨S1320000x200, .f32⟩
  | _ => ⟨S120000x128, .f32⟩

abbrev hbmTy0_1 (i : Nat) : BufTy := match i % 128 with
  | 0 => ⟨S1320000x1, .f32⟩
  | 1 => ⟨S1320000x200, .f32⟩
  | 2 => ⟨S1320000x200, .f32⟩
  | 3 => ⟨S_, .f32⟩
  | 4 => ⟨S120000x200, .f32⟩
  | 5 => ⟨S1320000x1, .i32⟩
  | 6 => ⟨S120000x200, .f32⟩
  | 7 => ⟨S1x200, .f32⟩
  | 8 => ⟨S120000x200, .f32⟩
  | 9 => ⟨S120000x200, .f32⟩
  | 10 => ⟨S_, .f32⟩
  | 11 => ⟨S120000x200, .f32⟩
  | 12 => ⟨S120000x200, .f32⟩
  | 13 => ⟨S_, .f32⟩
  | 14 => ⟨S200x200, .f32⟩
  | 15 => ⟨S120000x1, .i32⟩
  | 16 => ⟨S200x200, .f32⟩
  | 17 => ⟨S_, .f32⟩
  | 18 => ⟨S120000, .f32⟩
  | 19 => ⟨S_, .f32⟩
  | 20 => ⟨S200, .f32⟩
  | 21 => ⟨S120000x1, .i32⟩
  | 22 => ⟨S200, .f32⟩
  | 23 => ⟨S200x1, .f32⟩
  | 24 => ⟨S200x200, .f32⟩
  | 25 => ⟨S200x200, .f32⟩
  | 26 => ⟨S200x256, .f32⟩
  | 27 => ⟨S1x256, .f32⟩
  | 28 => ⟨S200x256, .f32⟩
  | 29 => ⟨S200x256, .f32⟩
  | 30 => ⟨S1x256, .i32⟩
  | 31 => ⟨S256, .i32⟩
  | 32 => ⟨S1x256, .i32⟩
  | 33 => ⟨S256, .i32⟩
  | 34 => ⟨S_, .i32⟩
  | 35 => ⟨S256, .i32⟩
  | 36 => ⟨S256, .i1⟩
  | 37 => ⟨S_, .i32⟩
  | 38 => ⟨S256, .i32⟩
  | 39 => ⟨S256, .i32⟩
  | 40 => ⟨S256, .i32⟩
  | 41 => ⟨S256x1, .i32⟩
  | 42 => ⟨S256x64, .f32⟩
  | 43 => ⟨S_, .f32⟩
  | 44 => ⟨S64x64, .f32⟩
  | 45 => ⟨S256x1, .i32⟩
  | 46 => ⟨S64x64, .f32⟩
  | 47 => ⟨S64x200, .f32⟩
  | 48 => ⟨S1x200, .f32⟩
  | 49 => ⟨S64x200, .f32⟩
  | 50 => ⟨S64x200, .f32⟩
  | 51 => ⟨S64x200, .f32⟩
  | 52 => ⟨S64x200, .f32⟩
  | 53 => ⟨S_, .f32⟩
  | 54 => ⟨S64x200, .f32⟩
  | 55 => ⟨S64x200, .f32⟩
  | 56 => ⟨S1x256, .i32⟩
  | 57 => ⟨S256, .i32⟩
  | 58 => ⟨S1x256, .i32⟩
  | 59 => ⟨S256, .i32⟩
  | 60 => ⟨S_, .i32⟩
  | 61 => ⟨S256, .i32⟩
  | 62 => ⟨S256, .i1⟩
  | 63 => ⟨S_, .i32⟩
  | 64 => ⟨S256, .i32⟩
  | 65 => ⟨S256, .i32⟩
  | 66 => ⟨S256, .i32⟩
  | 67 => ⟨S256x1, .i32⟩
  | 68 => ⟨S256x200, .f32⟩
  | 69 => ⟨S_, .f32⟩
  | 70 => ⟨S64x200, .f32⟩
  | 71 => ⟨S256x1, .i32⟩
  | 72 => ⟨S64x200, .f32⟩
  | 73 => ⟨S64x200, .f32⟩
  | 74 => ⟨S1x200, .f32⟩
  | 75 => ⟨S64x200, .f32⟩
  | 76 => ⟨S64x200, .f32⟩
  | 77 => ⟨S64x200, .f32⟩
  | 78 => ⟨S64x200, .f32⟩
  | 79 => ⟨S_, .f32⟩
  | 80 => ⟨S64x200, .f32⟩
  | 81 => ⟨S64x200, .f32⟩
  | 82 => ⟨S_, .f32⟩
  | 83 => ⟨S200, .f32⟩
  | 84 => ⟨S1x200, .f32⟩
  | 85 => ⟨S_, .f32⟩
  | 86 => ⟨S1x200, .f32⟩
  | 87 => ⟨S1x200, .f32⟩
  | 88 => ⟨S1x128, .f32⟩
  | 89 => ⟨S1x128, .f32⟩
  | 90 => ⟨S1x128, .f32⟩
  | 91 => ⟨S1x600000, .i32⟩
  | 92 => ⟨S600000, .i32⟩
  | 93 => ⟨S1x600000, .i32⟩
  | 94 => ⟨S600000, .i32⟩
  | 95 => ⟨S19000x200, .f32⟩
  | 96 => ⟨S19000, .i32⟩
  | 97 => ⟨S619000, .i32⟩
  | 98 => ⟨S619000, .i32⟩
  | 99 => ⟨S_, .f32⟩
  | 100 => ⟨S619000, .f32⟩
  | 101 => ⟨S_, .f32⟩
  | 102 => ⟨S19000, .f32⟩
  | 103 => ⟨S619000x1, .i32⟩
  | 104 => ⟨S19000, .f32⟩
  | 105 => ⟨S19000, .f32⟩
  | 106 => ⟨S_, .i32⟩
  | 107 => ⟨S619000, .i32⟩
  | 108 => ⟨S619000, .i1⟩
  | 109 => ⟨S_, .i32⟩
  | 110 => ⟨S619000, .i32⟩
  | 111 => ⟨S619000, .i32⟩
  | 112 => ⟨S619000, .i32⟩
  | 113 => ⟨S619000x1, .i32⟩
  | 114 => ⟨S619000, .f32⟩
  | 115 => ⟨S_, .i32⟩
  | 116 => ⟨S619000, .i32⟩
  | 117 => ⟨S619000, .i1⟩
  | 118 => ⟨S_, .i32⟩
  | 119 => ⟨S619000, .i32⟩
  | 120 => ⟨S619000, .i32⟩
  | 121 => ⟨S619000, .i32⟩
  | 122 => ⟨S619000x1, .i32⟩
  | 123 => ⟨S619000, .f32⟩
  | 124 => ⟨S619000, .f32⟩
  | 125 => ⟨S_, .i32⟩
  | 126 => ⟨S619000, .i32⟩
  | 127 => ⟨S619000, .i1⟩
  | _ => ⟨S120000x128, .f32⟩

abbrev hbmTy0_2 (i : Nat) : BufTy := match i % 128 with
  | 0 => ⟨S_, .i32⟩
  | 1 => ⟨S619000, .i32⟩
  | 2 => ⟨S619000, .i32⟩
  | 3 => ⟨S619000, .i32⟩
  | 4 => ⟨S619000x1, .i32⟩
  | 5 => ⟨S619000x200, .f32⟩
  | 6 => ⟨S619000x1, .f32⟩
  | 7 => ⟨S619000x200, .f32⟩
  | 8 => ⟨S619000x200, .f32⟩
  | 9 => ⟨S_, .f32⟩
  | 10 => ⟨S19000x200, .f32⟩
  | 11 => ⟨S619000x1, .i32⟩
  | 12 => ⟨S19000x200, .f32⟩
  | 13 => ⟨S1x200, .f32⟩
  | 14 => ⟨S19000x200, .f32⟩
  | 15 => ⟨S19000x200, .f32⟩
  | 16 => ⟨S_, .f32⟩
  | 17 => ⟨S19000x200, .f32⟩
  | 18 => ⟨S19000x200, .f32⟩
  | 19 => ⟨S1x600000, .i32⟩
  | 20 => ⟨S600000, .i32⟩
  | 21 => ⟨S1x600000, .i32⟩
  | 22 => ⟨S600000, .i32⟩
  | 23 => ⟨S19000x200, .f32⟩
  | 24 => ⟨S19000, .i32⟩
  | 25 => ⟨S619000, .i32⟩
  | 26 => ⟨S619000, .i32⟩
  | 27 => ⟨S_, .f32⟩
  | 28 => ⟨S619000, .f32⟩
  | 29 => ⟨S_, .f32⟩
  | 30 => ⟨S19000, .f32⟩
  | 31 => ⟨S619000x1, .i32⟩
  | 32 => ⟨S19000, .f32⟩
  | 33 => ⟨S19000, .f32⟩
  | 34 => ⟨S_, .i32⟩
  | 35 => ⟨S619000, .i32⟩
  | 36 => ⟨S619000, .i1⟩
  | 37 => ⟨S_, .i32⟩
  | 38 => ⟨S619000, .i32⟩
  | 39 => ⟨S619000, .i32⟩
  | 40 => ⟨S619000, .i32⟩
  | 41 => ⟨S619000x1, .i32⟩
  | 42 => ⟨S619000, .f32⟩
  | 43 => ⟨S_, .i32⟩
  | 44 => ⟨S619000, .i32⟩
  | 45 => ⟨S619000, .i1⟩
  | 46 => ⟨S_, .i32⟩
  | 47 => ⟨S619000, .i32⟩
  | 48 => ⟨S619000, .i32⟩
  | 49 => ⟨S619000, .i32⟩
  | 50 => ⟨S619000x1, .i32⟩
  | 51 => ⟨S619000, .f32⟩
  | 52 => ⟨S619000, .f32⟩
  | 53 => ⟨S_, .i32⟩
  | 54 => ⟨S619000, .i32⟩
  | 55 => ⟨S619000, .i1⟩
  | 56 => ⟨S_, .i32⟩
  | 57 => ⟨S619000, .i32⟩
  | 58 => ⟨S619000, .i32⟩
  | 59 => ⟨S619000, .i32⟩
  | 60 => ⟨S619000x1, .i32⟩
  | 61 => ⟨S619000x200, .f32⟩
  | 62 => ⟨S619000x1, .f32⟩
  | 63 => ⟨S619000x200, .f32⟩
  | 64 => ⟨S619000x200, .f32⟩
  | 65 => ⟨S_, .f32⟩
  | 66 => ⟨S19000x200, .f32⟩
  | 67 => ⟨S619000x1, .i32⟩
  | 68 => ⟨S19000x200, .f32⟩
  | 69 => ⟨S1x200, .f32⟩
  | 70 => ⟨S19000x200, .f32⟩
  | 71 => ⟨S19000x200, .f32⟩
  | 72 => ⟨S_, .f32⟩
  | 73 => ⟨S19000x200, .f32⟩
  | 74 => ⟨S19000x200, .f32⟩
  | 75 => ⟨S1x200, .f32⟩
  | 76 => ⟨S200, .f32⟩
  | 77 => ⟨S1x200, .f32⟩
  | 78 => ⟨S1x128, .f32⟩
  | 79 => ⟨S1x128, .f32⟩
  | 80 => ⟨S1x128, .f32⟩
  | 81 => ⟨S1x256, .f32⟩
  | 82 => ⟨S200x256, .f32⟩
  | 83 => ⟨S256x1, .f32⟩
  | 84 => ⟨S200x1, .f32⟩
  | 85 => ⟨S1x1, .f32⟩
  | 86 => ⟨S200x1, .f32⟩
  | 87 => ⟨S200x1, .f32⟩
  | _ => ⟨S120000x128, .f32⟩

abbrev hbmTy (i : Nat) : BufTy := match i / 128 with
  | 0 => hbmTy0_0 i
  | 1 => hbmTy0_1 i
  | 2 => hbmTy0_2 i
  | _ => ⟨S120000x128, .f32⟩

abbrev bufTy : (tb : Table) → Fin (tcTables nBuf tb) → BufTy
  | .hbm, ⟨i, _⟩ => hbmTy i
  | _, _ => ⟨S120000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst : Ref sig .tc := ⟨.hbm, 37, rfl⟩
abbrev main_v8 : Ref sig .tc := ⟨.hbm, 38, rfl⟩
abbrev main_cst_0 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_c : Ref sig .tc := ⟨.hbm, 44, rfl⟩
abbrev main_v13 : Ref sig .tc := ⟨.hbm, 45, rfl⟩
abbrev main_v14 : Ref sig .tc := ⟨.hbm, 46, rfl⟩
abbrev main_c_1 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_c_2 : Ref sig .tc := ⟨.hbm, 53, rfl⟩
abbrev main_v20 : Ref sig .tc := ⟨.hbm, 54, rfl⟩
abbrev main_v21 : Ref sig .tc := ⟨.hbm, 55, rfl⟩
abbrev main_c_3 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_c_4 : Ref sig .tc := ⟨.hbm, 63, rfl⟩
abbrev main_v28 : Ref sig .tc := ⟨.hbm, 64, rfl⟩
abbrev main_v29 : Ref sig .tc := ⟨.hbm, 65, rfl⟩
abbrev main_c_5 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_6 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_call0_cst : Ref sig .tc := ⟨.hbm, 82, rfl⟩
abbrev main_call0_v0 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_7 : Ref sig .tc := ⟨.hbm, 93, rfl⟩
abbrev main_v53 : Ref sig .tc := ⟨.hbm, 94, rfl⟩
abbrev main_cst_8 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_c_9 : Ref sig .tc := ⟨.hbm, 100, rfl⟩
abbrev main_v58 : Ref sig .tc := ⟨.hbm, 101, rfl⟩
abbrev main_v59 : Ref sig .tc := ⟨.hbm, 102, rfl⟩
abbrev main_c_10 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_c_11 : Ref sig .tc := ⟨.hbm, 109, rfl⟩
abbrev main_v65 : Ref sig .tc := ⟨.hbm, 110, rfl⟩
abbrev main_v66 : Ref sig .tc := ⟨.hbm, 111, rfl⟩
abbrev main_c_12 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_c_13 : Ref sig .tc := ⟨.hbm, 119, rfl⟩
abbrev main_v73 : Ref sig .tc := ⟨.hbm, 120, rfl⟩
abbrev main_v74 : Ref sig .tc := ⟨.hbm, 121, rfl⟩
abbrev main_c_14 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_cst_15 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_call1_cst : Ref sig .tc := ⟨.hbm, 138, rfl⟩
abbrev main_call1_v0 : Ref sig .tc := ⟨.hbm, 139, rfl⟩
abbrev main_v89 : Ref sig .tc := ⟨.hbm, 140, rfl⟩
abbrev main_cst_16 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_cst_17 : Ref sig .tc := ⟨.hbm, 145, rfl⟩
abbrev main_v93 : Ref sig .tc := ⟨.hbm, 146, rfl⟩
abbrev main_cst_18 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_c_19 : Ref sig .tc := ⟨.hbm, 162, rfl⟩
abbrev main_v108 : Ref sig .tc := ⟨.hbm, 163, rfl⟩
abbrev main_v109 : Ref sig .tc := ⟨.hbm, 164, rfl⟩
abbrev main_c_20 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_cst_21 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_call2_cst : Ref sig .tc := ⟨.hbm, 181, rfl⟩
abbrev main_call2_v0 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_c_22 : Ref sig .tc := ⟨.hbm, 188, rfl⟩
abbrev main_v129 : Ref sig .tc := ⟨.hbm, 189, rfl⟩
abbrev main_v130 : Ref sig .tc := ⟨.hbm, 190, rfl⟩
abbrev main_c_23 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_cst_24 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_call3_cst : Ref sig .tc := ⟨.hbm, 207, rfl⟩
abbrev main_call3_v0 : Ref sig .tc := ⟨.hbm, 208, rfl⟩
abbrev main_v145 : Ref sig .tc := ⟨.hbm, 209, rfl⟩
abbrev main_cst_25 : Ref sig .tc := ⟨.hbm, 210, rfl⟩
abbrev main_v146 : Ref sig .tc := ⟨.hbm, 211, rfl⟩
abbrev main_v147 : Ref sig .tc := ⟨.hbm, 212, rfl⟩
abbrev main_cst_26 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_cst_27 : Ref sig .tc := ⟨.hbm, 227, rfl⟩
abbrev main_v161 : Ref sig .tc := ⟨.hbm, 228, rfl⟩
abbrev main_cst_28 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_c_29 : Ref sig .tc := ⟨.hbm, 234, rfl⟩
abbrev main_v166 : Ref sig .tc := ⟨.hbm, 235, rfl⟩
abbrev main_v167 : Ref sig .tc := ⟨.hbm, 236, rfl⟩
abbrev main_c_30 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_c_31 : Ref sig .tc := ⟨.hbm, 243, rfl⟩
abbrev main_v173 : Ref sig .tc := ⟨.hbm, 244, rfl⟩
abbrev main_v174 : Ref sig .tc := ⟨.hbm, 245, rfl⟩
abbrev main_c_32 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_c_33 : Ref sig .tc := ⟨.hbm, 253, rfl⟩
abbrev main_v181 : Ref sig .tc := ⟨.hbm, 254, rfl⟩
abbrev main_v182 : Ref sig .tc := ⟨.hbm, 255, rfl⟩
abbrev main_c_34 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_cst_35 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_call4_cst : Ref sig .tc := ⟨.hbm, 272, rfl⟩
abbrev main_call4_v0 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_cst_36 : Ref sig .tc := ⟨.hbm, 283, rfl⟩
abbrev main_v206 : Ref sig .tc := ⟨.hbm, 284, rfl⟩
abbrev main_cst_37 : Ref sig .tc := ⟨.hbm, 285, rfl⟩
abbrev main_v207 : Ref sig .tc := ⟨.hbm, 286, rfl⟩
abbrev main_v208 : Ref sig .tc := ⟨.hbm, 287, rfl⟩
abbrev main_v209 : Ref sig .tc := ⟨.hbm, 288, rfl⟩
abbrev main_v210 : Ref sig .tc := ⟨.hbm, 289, rfl⟩
abbrev main_c_38 : Ref sig .tc := ⟨.hbm, 290, rfl⟩
abbrev main_v211 : Ref sig .tc := ⟨.hbm, 291, rfl⟩
abbrev main_v212 : Ref sig .tc := ⟨.hbm, 292, rfl⟩
abbrev main_c_39 : Ref sig .tc := ⟨.hbm, 293, rfl⟩
abbrev main_v213 : Ref sig .tc := ⟨.hbm, 294, rfl⟩
abbrev main_v214 : Ref sig .tc := ⟨.hbm, 295, rfl⟩
abbrev main_v215 : Ref sig .tc := ⟨.hbm, 296, rfl⟩
abbrev main_v216 : Ref sig .tc := ⟨.hbm, 297, rfl⟩
abbrev main_v217 : Ref sig .tc := ⟨.hbm, 298, rfl⟩
abbrev main_c_40 : Ref sig .tc := ⟨.hbm, 299, rfl⟩
abbrev main_v218 : Ref sig .tc := ⟨.hbm, 300, rfl⟩
abbrev main_v219 : Ref sig .tc := ⟨.hbm, 301, rfl⟩
abbrev main_c_41 : Ref sig .tc := ⟨.hbm, 302, rfl⟩
abbrev main_v220 : Ref sig .tc := ⟨.hbm, 303, rfl⟩
abbrev main_v221 : Ref sig .tc := ⟨.hbm, 304, rfl⟩
abbrev main_v222 : Ref sig .tc := ⟨.hbm, 305, rfl⟩
abbrev main_v223 : Ref sig .tc := ⟨.hbm, 306, rfl⟩
abbrev main_v224 : Ref sig .tc := ⟨.hbm, 307, rfl⟩
abbrev main_v225 : Ref sig .tc := ⟨.hbm, 308, rfl⟩
abbrev main_c_42 : Ref sig .tc := ⟨.hbm, 309, rfl⟩
abbrev main_v226 : Ref sig .tc := ⟨.hbm, 310, rfl⟩
abbrev main_v227 : Ref sig .tc := ⟨.hbm, 311, rfl⟩
abbrev main_c_43 : Ref sig .tc := ⟨.hbm, 312, rfl⟩
abbrev main_v228 : Ref sig .tc := ⟨.hbm, 313, rfl⟩
abbrev main_v229 : Ref sig .tc := ⟨.hbm, 314, rfl⟩
abbrev main_v230 : Ref sig .tc := ⟨.hbm, 315, rfl⟩
abbrev main_v231 : Ref sig .tc := ⟨.hbm, 316, rfl⟩
abbrev main_v232 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_cst_44 : Ref sig .tc := ⟨.hbm, 321, rfl⟩
abbrev main_v236 : Ref sig .tc := ⟨.hbm, 322, rfl⟩
abbrev main_v237 : Ref sig .tc := ⟨.hbm, 323, rfl⟩
abbrev main_v238 : Ref sig .tc := ⟨.hbm, 324, rfl⟩
abbrev main_v239 : Ref sig .tc := ⟨.hbm, 325, rfl⟩
abbrev main_v240 : Ref sig .tc := ⟨.hbm, 326, rfl⟩
abbrev main_v241 : Ref sig .tc := ⟨.hbm, 327, rfl⟩
abbrev main_call5_cst : Ref sig .tc := ⟨.hbm, 328, rfl⟩
abbrev main_call5_v0 : Ref sig .tc := ⟨.hbm, 329, rfl⟩
abbrev main_v242 : Ref sig .tc := ⟨.hbm, 330, rfl⟩
abbrev main_v243 : Ref sig .tc := ⟨.hbm, 331, rfl⟩
abbrev main_v244 : Ref sig .tc := ⟨.hbm, 332, rfl⟩
abbrev main_v245 : Ref sig .tc := ⟨.hbm, 333, rfl⟩
abbrev main_v246 : Ref sig .tc := ⟨.hbm, 334, rfl⟩
abbrev main_v247 : Ref sig .tc := ⟨.hbm, 335, rfl⟩
abbrev main_v248 : Ref sig .tc := ⟨.hbm, 336, rfl⟩
abbrev main_v249 : Ref sig .tc := ⟨.hbm, 337, rfl⟩
abbrev main_v250 : Ref sig .tc := ⟨.hbm, 338, rfl⟩
abbrev main_v251 : Ref sig .tc := ⟨.hbm, 339, rfl⟩
abbrev main_v252 : Ref sig .tc := ⟨.hbm, 340, rfl⟩
abbrev main_v253 : Ref sig .tc := ⟨.hbm, 341, rfl⟩
abbrev main_v254 : Ref sig .tc := ⟨.hbm, 342, rfl⟩
abbrev main_v255 : Ref sig .tc := ⟨.hbm, 343, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S120000_S1320000_d0 : Shape.Concatenates [S1200000, S120000] S1320000 0
  bcast_S_S1320000 : S_.BroadcastsInDim S1320000 (![] : Fin 0 → Fin S1320000.rank)
  bcast_S_S120000 : S_.BroadcastsInDim S120000 (![] : Fin 0 → Fin S120000.rank)
  bcast_S1320000_S1320000x1_0 : S1320000.BroadcastsInDim S1320000x1 (![0] : Fin 1 → Fin S1320000x1.rank)
  bcast_S1320000x1_S1320000x200_0_1 : S1320000x1.BroadcastsInDim S1320000x200 (![0, 1] : Fin 2 → Fin S1320000x200.rank)
  bcast_S_S120000x200 : S_.BroadcastsInDim S120000x200 (![] : Fin 0 → Fin S120000x200.rank)
  bcast_S200_S1x200_1 : S200.BroadcastsInDim S1x200 (![1] : Fin 1 → Fin S1x200.rank)
  bcast_S1x200_S120000x200_0_1 : S1x200.BroadcastsInDim S120000x200 (![0, 1] : Fin 2 → Fin S120000x200.rank)
  bcast_S_S200x200 : S_.BroadcastsInDim S200x200 (![] : Fin 0 → Fin S200x200.rank)
  bcast_S120000_S120000x1_0 : S120000.BroadcastsInDim S120000x1 (![0] : Fin 1 → Fin S120000x1.rank)
  bcast_S_S200 : S_.BroadcastsInDim S200 (![] : Fin 0 → Fin S200.rank)
  bcast_S200_S200x1_0 : S200.BroadcastsInDim S200x1 (![0] : Fin 1 → Fin S200x1.rank)
  bcast_S200x1_S200x200_0_1 : S200x1.BroadcastsInDim S200x200 (![0, 1] : Fin 2 → Fin S200x200.rank)
  bcast_S256_S1x256_1 : S256.BroadcastsInDim S1x256 (![1] : Fin 1 → Fin S1x256.rank)
  bcast_S1x256_S200x256_0_1 : S1x256.BroadcastsInDim S200x256 (![0, 1] : Fin 2 → Fin S200x256.rank)
  slices_S2x256_S1x256_0_0 : S2x256.Slices ![0, 0] S1x256
  shapeCasts_S1x256_S256 : S1x256.ShapeCasts S256
  slices_S2x256_S1x256_1_0 : S2x256.Slices ![1, 0] S1x256
  bcast_S_S256 : S_.BroadcastsInDim S256 (![] : Fin 0 → Fin S256.rank)
  bcast_S256_S256x1_0 : S256.BroadcastsInDim S256x1 (![0] : Fin 1 → Fin S256x1.rank)
  bcast_S_S64x64 : S_.BroadcastsInDim S64x64 (![] : Fin 0 → Fin S64x64.rank)
  bcast_S1x200_S64x200_0_1 : S1x200.BroadcastsInDim S64x200 (![0, 1] : Fin 2 → Fin S64x200.rank)
  bcast_S_S64x200 : S_.BroadcastsInDim S64x200 (![] : Fin 0 → Fin S64x200.rank)
  reducesTo_S64x200_S200_d0 : S64x200.ReducesTo [0] S200
  h_S_ : 0 < S_.numel
  bcast_S_S1x200 : S_.BroadcastsInDim S1x200 (![] : Fin 0 → Fin S1x200.rank)
  bcast_S128_S1x128_1 : S128.BroadcastsInDim S1x128 (![1] : Fin 1 → Fin S1x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S19000_S619000_d0 : Shape.Concatenates [S600000, S19000] S619000 0
  bcast_S_S619000 : S_.BroadcastsInDim S619000 (![] : Fin 0 → Fin S619000.rank)
  bcast_S_S19000 : S_.BroadcastsInDim S19000 (![] : Fin 0 → Fin S19000.rank)
  bcast_S619000_S619000x1_0 : S619000.BroadcastsInDim S619000x1 (![0] : Fin 1 → Fin S619000x1.rank)
  bcast_S619000x1_S619000x200_0_1 : S619000x1.BroadcastsInDim S619000x200 (![0, 1] : Fin 2 → Fin S619000x200.rank)
  bcast_S_S19000x200 : S_.BroadcastsInDim S19000x200 (![] : Fin 0 → Fin S19000x200.rank)
  bcast_S1x200_S19000x200_0_1 : S1x200.BroadcastsInDim S19000x200 (![0, 1] : Fin 2 → Fin S19000x200.rank)
  slices_S19000x200_S1x200_18999_0 : S19000x200.Slices ![18999, 0] S1x200
  shapeCasts_S1x200_S200 : S1x200.ShapeCasts S200
  shapeCasts_S200_S1x200 : S200.ShapeCasts S1x200
  concatenates_S1x128_S1x128_S1x256_d1 : Shape.Concatenates [S1x128, S1x128] S1x256 1
  transposes_S1x256_S256x1_1_0 : S1x256.Transposes [1, 0] S256x1
  bcast_S1_S1x1_1 : S1.BroadcastsInDim S1x1 (![1] : Fin 1 → Fin S1x1.rank)
  bcast_S1x1_S200x1_0_1 : S1x1.BroadcastsInDim S200x1 (![0, 1] : Fin 2 → Fin S200x1.rank)
  dot_S120000x128_S128x200_S120000x200_1_0_0_1_n_n_wf : DotDims.WF S120000x128 S128x200 S120000x200 [1] [0] [0] [1] [] []
  scatter_S120000_S1320000x1_S1320000_n_0_0_1_wf : ScatterDims.WF S120000 S1320000x1 S1320000 [] [0] [0] 1
  gather_S120000_S1320000x1_S1320000_n_0_n_n_0_1_1_wf : GatherDims.WF S120000 S1320000x1 S1320000 [] [0] [] [0] [] 1 ![1]
  gather_S120000x200_S1320000x1_S1320000x200_1_0_n_n_0_1_1200_wf : GatherDims.WF S120000x200 S1320000x1 S1320000x200 [1] [0] [] [0] [] 1 ![1, 200]
  scatter_S120000x200_S1320000x1_S1320000x200_1_0_0_1_wf : ScatterDims.WF S120000x200 S1320000x1 S1320000x200 [1] [0] [0] 1
  dot_S120000x200_S200x200_S120000x200_1_0_0_1_n_n_wf : DotDims.WF S120000x200 S200x200 S120000x200 [1] [0] [0] [1] [] []
  scatter_S200x200_S120000x1_S120000x200_1_0_0_1_wf : ScatterDims.WF S200x200 S120000x1 S120000x200 [1] [0] [0] 1
  scatter_S200_S120000x1_S120000_n_0_0_1_wf : ScatterDims.WF S200 S120000x1 S120000 [] [0] [0] 1
  dot_S200x200_S200x256_S200x256_1_0_0_1_n_n_wf : DotDims.WF S200x200 S200x256 S200x256 [1] [0] [0] [1] [] []
  gather_S64x64_S256x1_S256x64_1_0_n_n_0_1_164_wf : GatherDims.WF S64x64 S256x1 S256x64 [1] [0] [] [0] [] 1 ![1, 64]
  scatter_S64x64_S256x1_S256x64_1_0_0_1_wf : ScatterDims.WF S64x64 S256x1 S256x64 [1] [0] [0] 1
  dot_S64x64_S64x200_S64x200_1_0_0_1_n_n_wf : DotDims.WF S64x64 S64x200 S64x200 [1] [0] [0] [1] [] []
  gather_S64x200_S256x1_S256x200_1_0_n_n_0_1_1200_wf : GatherDims.WF S64x200 S256x1 S256x200 [1] [0] [] [0] [] 1 ![1, 200]
  scatter_S64x200_S256x1_S256x200_1_0_0_1_wf : ScatterDims.WF S64x200 S256x1 S256x200 [1] [0] [0] 1
  dot_S64x200_S200x200_S64x200_1_0_0_1_n_n_wf : DotDims.WF S64x200 S200x200 S64x200 [1] [0] [0] [1] [] []
  dot_S1x200_S200x128_S1x128_1_0_0_1_n_n_wf : DotDims.WF S1x200 S200x128 S1x128 [1] [0] [0] [1] [] []
  dot_S19000x128_S128x200_S19000x200_1_0_0_1_n_n_wf : DotDims.WF S19000x128 S128x200 S19000x200 [1] [0] [0] [1] [] []
  scatter_S19000_S619000x1_S619000_n_0_0_1_wf : ScatterDims.WF S19000 S619000x1 S619000 [] [0] [0] 1
  gather_S19000_S619000x1_S619000_n_0_n_n_0_1_1_wf : GatherDims.WF S19000 S619000x1 S619000 [] [0] [] [0] [] 1 ![1]
  gather_S19000x200_S619000x1_S619000x200_1_0_n_n_0_1_1200_wf : GatherDims.WF S19000x200 S619000x1 S619000x200 [1] [0] [] [0] [] 1 ![1, 200]
  scatter_S19000x200_S619000x1_S619000x200_1_0_0_1_wf : ScatterDims.WF S19000x200 S619000x1 S619000x200 [1] [0] [0] 1
  dot_S19000x200_S200x200_S19000x200_1_0_0_1_n_n_wf : DotDims.WF S19000x200 S200x200 S19000x200 [1] [0] [0] [1] [] []
  dot_S200x256_S256x256_S200x256_1_0_0_1_n_n_wf : DotDims.WF S200x256 S256x256 S200x256 [1] [0] [0] [1] [] []
  dot_S200x256_S256x1_S200x1_1_0_0_1_n_n_wf : DotDims.WF S200x256 S256x1 S200x1 [1] [0] [0] [1] [] []

variable [Facts₀]

def dot_S120000x128_S128x200_S120000x200_1_0_0_1_n_n : DotDims S120000x128 S128x200 S120000x200 where
  lhsContracting := [1]
  rhsContracting := [0]
  lhsNonContracting := [0]
  rhsNonContracting := [1]
  lhsBatch := []
  rhsBatch := []
  wf := dot_S120000x128_S128x200_S120000x200_1_0_0_1_n_n_wf
def scatter_S120000_S1320000x1_S1320000_n_0_0_1 : ScatterDims S120000 S1320000x1 S1320000 where
  updateWindowDims := []
  insertedWindowDims := [0]
  scatterDimsToOperandDims := [0]
  indexVectorDim := 1
  wf := scatter_S120000_S1320000x1_S1320000_n_0_0_1_wf
def gather_S120000_S1320000x1_S1320000_n_0_n_n_0_1_1 : GatherDims S120000 S1320000x1 S1320000 where
  offsetDims := []
  collapsedSliceDims := [0]
  operandBatchingDims := []
  startIndicesBatchingDims := []
  startIndexMap := [0]
  indexVectorDim := 1
  sliceSizes := ![1]
  wf := gather_S120000_S1320000x1_S1320000_n_0_n_n_0_1_1_wf
def gather_S120000x200_S1320000x1_S1320000x200_1_0_n_n_0_1_1200 : GatherDims S120000x200 S1320000x1 S1320000x200 where
  offsetDims := [1]
  collapsedSliceDims := [0]
  operandBatchingDims := []
  startIndicesBatchingDims := []
  startIndexMap := [0]
  indexVectorDim := 1
  sliceSizes := ![1, 200]
  wf := gather_S120000x200_S1320000x1_S1320000x200_1_0_n_n_0_1_1200_wf
def scatter_S120000x200_S1320000x1_S1320000x200_1_0_0_1 : ScatterDims S120000x200 S1320000x1 S1320000x200 where
  updateWindowDims := [1]
  insertedWindowDims := [0]
  scatterDimsToOperandDims := [0]
  indexVectorDim := 1
  wf := scatter_S120000x200_S1320000x1_S1320000x200_1_0_0_1_wf
def dot_S120000x200_S200x200_S120000x200_1_0_0_1_n_n : DotDims S120000x200 S200x200 S120000x200 where
  lhsContracting := [1]
  rhsContracting := [0]
  lhsNonContracting := [0]
  rhsNonContracting := [1]
  lhsBatch := []
  rhsBatch := []
  wf := dot_S120000x200_S200x200_S120000x200_1_0_0_1_n_n_wf
def scatter_S200x200_S120000x1_S120000x200_1_0_0_1 : ScatterDims S200x200 S120000x1 S120000x200 where
  updateWindowDims := [1]
  insertedWindowDims := [0]
  scatterDimsToOperandDims := [0]
  indexVectorDim := 1
  wf := scatter_S200x200_S120000x1_S120000x200_1_0_0_1_wf
def scatter_S200_S120000x1_S120000_n_0_0_1 : ScatterDims S200 S120000x1 S120000 where
  updateWindowDims := []
  insertedWindowDims := [0]
  scatterDimsToOperandDims := [0]
  indexVectorDim := 1
  wf := scatter_S200_S120000x1_S120000_n_0_0_1_wf
def dot_S200x200_S200x256_S200x256_1_0_0_1_n_n : DotDims S200x200 S200x256 S200x256 where
  lhsContracting := [1]
  rhsContracting := [0]
  lhsNonContracting := [0]
  rhsNonContracting := [1]
  lhsBatch := []
  rhsBatch := []
  wf := dot_S200x200_S200x256_S200x256_1_0_0_1_n_n_wf
def gather_S64x64_S256x1_S256x64_1_0_n_n_0_1_164 : GatherDims S64x64 S256x1 S256x64 where
  offsetDims := [1]
  collapsedSliceDims := [0]
  operandBatchingDims := []
  startIndicesBatchingDims := []
  startIndexMap := [0]
  indexVectorDim := 1
  sliceSizes := ![1, 64]
  wf := gather_S64x64_S256x1_S256x64_1_0_n_n_0_1_164_wf
def scatter_S64x64_S256x1_S256x64_1_0_0_1 : ScatterDims S64x64 S256x1 S256x64 where
  updateWindowDims := [1]
  insertedWindowDims := [0]
  scatterDimsToOperandDims := [0]
  indexVectorDim := 1
  wf := scatter_S64x64_S256x1_S256x64_1_0_0_1_wf
def dot_S64x64_S64x200_S64x200_1_0_0_1_n_n : DotDims S64x64 S64x200 S64x200 where
  lhsContracting := [1]
  rhsContracting := [0]
  lhsNonContracting := [0]
  rhsNonContracting := [1]
  lhsBatch := []
  rhsBatch := []
  wf := dot_S64x64_S64x200_S64x200_1_0_0_1_n_n_wf
def gather_S64x200_S256x1_S256x200_1_0_n_n_0_1_1200 : GatherDims S64x200 S256x1 S256x200 where
  offsetDims := [1]
  collapsedSliceDims := [0]
  operandBatchingDims := []
  startIndicesBatchingDims := []
  startIndexMap := [0]
  indexVectorDim := 1
  sliceSizes := ![1, 200]
  wf := gather_S64x200_S256x1_S256x200_1_0_n_n_0_1_1200_wf
def scatter_S64x200_S256x1_S256x200_1_0_0_1 : ScatterDims S64x200 S256x1 S256x200 where
  updateWindowDims := [1]
  insertedWindowDims := [0]
  scatterDimsToOperandDims := [0]
  indexVectorDim := 1
  wf := scatter_S64x200_S256x1_S256x200_1_0_0_1_wf
def dot_S64x200_S200x200_S64x200_1_0_0_1_n_n : DotDims S64x200 S200x200 S64x200 where
  lhsContracting := [1]
  rhsContracting := [0]
  lhsNonContracting := [0]
  rhsNonContracting := [1]
  lhsBatch := []
  rhsBatch := []
  wf := dot_S64x200_S200x200_S64x200_1_0_0_1_n_n_wf
def dot_S1x200_S200x128_S1x128_1_0_0_1_n_n : DotDims S1x200 S200x128 S1x128 where
  lhsContracting := [1]
  rhsContracting := [0]
  lhsNonContracting := [0]
  rhsNonContracting := [1]
  lhsBatch := []
  rhsBatch := []
  wf := dot_S1x200_S200x128_S1x128_1_0_0_1_n_n_wf
def dot_S19000x128_S128x200_S19000x200_1_0_0_1_n_n : DotDims S19000x128 S128x200 S19000x200 where
  lhsContracting := [1]
  rhsContracting := [0]
  lhsNonContracting := [0]
  rhsNonContracting := [1]
  lhsBatch := []
  rhsBatch := []
  wf := dot_S19000x128_S128x200_S19000x200_1_0_0_1_n_n_wf
def scatter_S19000_S619000x1_S619000_n_0_0_1 : ScatterDims S19000 S619000x1 S619000 where
  updateWindowDims := []
  insertedWindowDims := [0]
  scatterDimsToOperandDims := [0]
  indexVectorDim := 1
  wf := scatter_S19000_S619000x1_S619000_n_0_0_1_wf
def gather_S19000_S619000x1_S619000_n_0_n_n_0_1_1 : GatherDims S19000 S619000x1 S619000 where
  offsetDims := []
  collapsedSliceDims := [0]
  operandBatchingDims := []
  startIndicesBatchingDims := []
  startIndexMap := [0]
  indexVectorDim := 1
  sliceSizes := ![1]
  wf := gather_S19000_S619000x1_S619000_n_0_n_n_0_1_1_wf
def gather_S19000x200_S619000x1_S619000x200_1_0_n_n_0_1_1200 : GatherDims S19000x200 S619000x1 S619000x200 where
  offsetDims := [1]
  collapsedSliceDims := [0]
  operandBatchingDims := []
  startIndicesBatchingDims := []
  startIndexMap := [0]
  indexVectorDim := 1
  sliceSizes := ![1, 200]
  wf := gather_S19000x200_S619000x1_S619000x200_1_0_n_n_0_1_1200_wf
def scatter_S19000x200_S619000x1_S619000x200_1_0_0_1 : ScatterDims S19000x200 S619000x1 S619000x200 where
  updateWindowDims := [1]
  insertedWindowDims := [0]
  scatterDimsToOperandDims := [0]
  indexVectorDim := 1
  wf := scatter_S19000x200_S619000x1_S619000x200_1_0_0_1_wf
def dot_S19000x200_S200x200_S19000x200_1_0_0_1_n_n : DotDims S19000x200 S200x200 S19000x200 where
  lhsContracting := [1]
  rhsContracting := [0]
  lhsNonContracting := [0]
  rhsNonContracting := [1]
  lhsBatch := []
  rhsBatch := []
  wf := dot_S19000x200_S200x200_S19000x200_1_0_0_1_n_n_wf
def dot_S200x256_S256x256_S200x256_1_0_0_1_n_n : DotDims S200x256 S256x256 S200x256 where
  lhsContracting := [1]
  rhsContracting := [0]
  lhsNonContracting := [0]
  rhsNonContracting := [1]
  lhsBatch := []
  rhsBatch := []
  wf := dot_S200x256_S256x256_S200x256_1_0_0_1_n_n_wf
def dot_S200x256_S256x1_S200x1_1_0_0_1_n_n : DotDims S200x256 S256x1 S200x1 where
  lhsContracting := [1]
  rhsContracting := [0]
  lhsNonContracting := [0]
  rhsNonContracting := [1]
  lhsBatch := []
  rhsBatch := []
  wf := dot_S200x256_S256x1_S200x1_1_0_0_1_n_n_wf

class Facts : Prop extends Facts₀ where

variable [Facts]
-- ==== Proof.KernelRun.lean ====
/-
  The idealized kernel program's run with its result named: every weakly fair execution terminates, nothing faults,
  the result buffer ends at the contents the last stretch of host operations leaves there (the fold of the program's
  stretches and regions from the launch memory), and the argument arrays end as launched.
-/
import proofs.«178620_j32633161515065_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of the program's thirteen segments (nine stretches of host operations, four regions) from the launch
    memory: the last thread state holds every unscoped buffer at the final fold's contents, read here at the result
    buffer and at each argument. -/
theorem run : θ_run defs (onTc (τ := τ) (main (F := F))) ⟨m, fun _ => 0, ρ⟩ (fun r => ∀ c : Dev nD,
      r.2.mem ((c.tc : Thread nD τ).loc main_v189) = W13 m ρ c (Proc.devRef .tc main_v189)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v189 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c),
       (h c _ (mem_uc main_arg16 (by decide))).trans (W13_main_arg16 m ρ c),
       (h c _ (mem_uc main_arg17 (by decide))).trans (W13_main_arg17 m ρ c),
       (h c _ (mem_uc main_arg18 (by decide))).trans (W13_main_arg18 m ρ c),
       (h c _ (mem_uc main_arg19 (by decide))).trans (W13_main_arg19 m ρ c),
       (h c _ (mem_uc main_arg20 (by decide))).trans (W13_main_arg20 m ρ c),
       (h c _ (mem_uc main_arg21 (by decide))).trans (W13_main_arg21 m ρ c),
       (h c _ (mem_uc main_arg22 (by decide))).trans (W13_main_arg22 m ρ c),
       (h c _ (mem_uc main_arg23 (by decide))).trans (W13_main_arg23 m ρ c),
       (h c _ (mem_uc main_arg24 (by decide))).trans (W13_main_arg24 m ρ c),
       (h c _ (mem_uc main_arg25 (by decide))).trans (W13_main_arg25 m ρ c),
       (h c _ (mem_uc main_arg26 (by decide))).trans (W13_main_arg26 m ρ c),
       (h c _ (mem_uc main_arg27 (by decide))).trans (W13_main_arg27 m ρ c),
       (h c _ (mem_uc main_arg28 (by decide))).trans (W13_main_arg28 m ρ c)⟩)

end Cert.KernelIdeal.RunValue

end
-- ==== Proof.KernelKeep.lean ====
/-
  A buffer that is not one of a region's arrays holds after the region what it held before it: the four regions' facts,
  stated so that a simplifier finds them at any literal buffer.
-/
import proofs.«178620_j32633161515065_1_alg».proof.Proof.Gen.KernelIdeal.Frame

noncomputable section

namespace Cert.KernelIdeal.Stages

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

theorem W2_keep (c : Dev nD) (b : Ref sig .tc) (hb : ∀ w, Pipeline.arrRef spec0 w ≠ b) :
    W2 m ρ c (no_index (Proc.devRef .tc b)) = W1 m ρ c (Proc.devRef .tc b) := W2_of_ne m ρ c b hb
theorem W4_keep (c : Dev nD) (b : Ref sig .tc) (hb : ∀ w, Pipeline.arrRef spec1 w ≠ b) :
    W4 m ρ c (no_index (Proc.devRef .tc b)) = W3 m ρ c (Proc.devRef .tc b) := W4_of_ne m ρ c b hb
theorem W10_keep (c : Dev nD) (b : Ref sig .tc) (hb : ∀ w, Pipeline.arrRef spec2 w ≠ b) :
    W10 m ρ c (no_index (Proc.devRef .tc b)) = W9 m ρ c (Proc.devRef .tc b) := W10_of_ne m ρ c b hb
theorem W12_keep (c : Dev nD) (b : Ref sig .tc) (hb : ∀ w, Pipeline.arrRef spec3 w ≠ b) :
    W12 m ρ c (no_index (Proc.devRef .tc b)) = W11 m ρ c (Proc.devRef .tc b) := W12_of_ne m ρ c b hb

end Cert.KernelIdeal.Stages

end
-- ==== Proof.AggForms.lean ====
/-
  The aggregated input of each graph-convolution layer of the idealized kernel program, as a function of the node
  features and the edge array: rows of the features gathered at the source column, scaled by the edge factor,
  scatter-added into the target rows of a zero array. The index columns and the edge-factor column are the reference's
  own stages (the two programs compute them by the same operations on the edge array).
-/
import proofs.«178620_j32633161515065_1_alg».proof.KernelIdeal
import proofs.«178620_j32633161515065_1_alg».proof.Proof.Gen.KernelIdeal
import proofs.«178620_j32633161515065_1_alg».proof.Proof.RefRead

noncomputable section

namespace Cert.KernelIdeal.Stages

open Cert.KernelIdeal Cert.KernelIdeal.Gen Idealize.ShloMosaic

/-- The first cell-line layer's aggregated input: rows of `x` gathered at the source column, scaled by the edge factor, scatter-added into the target rows of a zero 120000×128 array. -/
def agg1 (x : FVec Ideal S120000x128 .f32) (x3 : IVec S2x1200000 32) : FVec Ideal S120000x128 .f32 :=
  Host.scatterAdd (F := Ideal) scatter_S120000x128_S1320000x1_S1320000x128_1_0_0_1
    (broadcastInDim S120000x128 ![] bcast_S_S120000x128 (constant (F := Ideal) S_ .f32 0x00000000#32))
    (Cert.ReferenceIdeal.ReadP.val_main_v39 (F := Ideal) x3)
    (mulf (F := Ideal) (Host.gather gather_S120000x128_S1320000x1_S1320000x128_1_0_n_n_0_1_1128 x (Cert.ReferenceIdeal.ReadP.val_main_v33 (F := Ideal) x3))
      (broadcastInDim S1320000x128 ![0, 1] bcast_S1320000x1_S1320000x128_0_1 (Cert.ReferenceIdeal.ReadP.val_main_v35 (F := Ideal) x3)))

/-- The second cell-line layer's aggregated input, of the first layer's 120000×200 output `h`. -/
def agg2 (h : FVec Ideal S120000x200 .f32) (x3 : IVec S2x1200000 32) : FVec Ideal S120000x200 .f32 :=
  Host.scatterAdd (F := Ideal) scatter_S120000x200_S1320000x1_S1320000x200_1_0_0_1
    (broadcastInDim S120000x200 ![] bcast_S_S120000x200 (constant (F := Ideal) S_ .f32 0x00000000#32))
    (Cert.ReferenceIdeal.ReadP.val_main_v84 (F := Ideal) x3)
    (mulf (F := Ideal) (Host.gather gather_S120000x200_S1320000x1_S1320000x200_1_0_n_n_0_1_1200 h (Cert.ReferenceIdeal.ReadP.val_main_v78 (F := Ideal) x3))
      (broadcastInDim S1320000x200 ![0, 1] bcast_S1320000x1_S1320000x200_0_1 (Cert.ReferenceIdeal.ReadP.val_main_v80 (F := Ideal) x3)))

/-- The first protein layer's aggregated input: rows of `x` gathered, scaled and scatter-added into a zero 19000×128 array. -/
def agg3 (x : FVec Ideal S19000x128 .f32) (x6 : IVec S2x600000 32) : FVec Ideal S19000x128 .f32 :=
  Host.scatterAdd (F := Ideal) scatter_S19000x128_S619000x1_S619000x128_1_0_0_1
    (broadcastInDim S19000x128 ![] bcast_S_S19000x128 (constant (F := Ideal) S_ .f32 0x00000000#32))
    (Cert.ReferenceIdeal.ReadP.val_main_v192 (F := Ideal) x6)
    (mulf (F := Ideal) (Host.gather gather_S19000x128_S619000x1_S619000x128_1_0_n_n_0_1_1128 x (Cert.ReferenceIdeal.ReadP.val_main_v186 (F := Ideal) x6))
      (broadcastInDim S619000x128 ![0, 1] bcast_S619000x1_S619000x128_0_1 (Cert.ReferenceIdeal.ReadP.val_main_v188 (F := Ideal) x6)))

/-- The second protein layer's aggregated input, of the first layer's 19000×200 output `h`. -/
def agg4 (h : FVec Ideal S19000x200 .f32) (x6 : IVec S2x600000 32) : FVec Ideal S19000x200 .f32 :=
  Host.scatterAdd (F := Ideal) scatter_S19000x200_S619000x1_S619000x200_1_0_0_1
    (broadcastInDim S19000x200 ![] bcast_S_S19000x200 (constant (F := Ideal) S_ .f32 0x00000000#32))
    (Cert.ReferenceIdeal.ReadP.val_main_v237 (F := Ideal) x6)
    (mulf (F := Ideal) (Host.gather gather_S19000x200_S619000x1_S619000x200_1_0_n_n_0_1_1200 h (Cert.ReferenceIdeal.ReadP.val_main_v231 (F := Ideal) x6))
      (broadcastInDim S619000x200 ![0, 1] bcast_S619000x1_S619000x200_0_1 (Cert.ReferenceIdeal.ReadP.val_main_v233 (F := Ideal) x6)))

end Cert.KernelIdeal.Stages

end
-- ==== Proof.Spec.lean ====
/-
  The dense layer both programs compute, as one function of whole arrays at the ideal instance:
  for an M×K array x, a K×N array w and a 1×N row b, entry (p, q) is max(Σ_k x[p,k]·w[k,q] + b[0,q], 0)
  on the extended reals.
-/
import Idealize.ShloMosaic.PureOps.Ideal
import Idealize.ShloMosaic.Lib.ValueIdx

noncomputable section

open scoped BigOperators

namespace Cert.Spec

open Idealize.ShloMosaic Idealize.ShloMosaic.ValueIdx

/-- Entry (p, q) of relu(x·w + b): the row-by-column sum of products, plus the bias of column q, cut below at 0. -/
def denseAt {M K N : Nat} (x : (⟨2, ![M, K]⟩ : Shape).Idx → EReal) (w : (⟨2, ![K, N]⟩ : Shape).Idx → EReal)
    (b : (⟨2, ![1, N]⟩ : Shape).Idx → EReal) (p : Fin M) (q : Fin N) : EReal :=
  max ((∑ k : Fin K, x (ix2 p k) * w (ix2 k q)) + b (ix2 (0 : Fin 1) q)) 0

/-- relu(x·w + b) as a whole array. -/
def dense {M K N : Nat} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun j => denseAt x w b ⟨(j 0).val, idx2_lt0 j⟩ ⟨(j 1).val, idx2_lt1 j⟩

theorem dense_apply {M K N : Nat} (x : (⟨2, ![M, K]⟩ : Shape).Idx → EReal) (w : (⟨2, ![K, N]⟩ : Shape).Idx → EReal)
    (b : (⟨2, ![1, N]⟩ : Shape).Idx → EReal) (p : Fin M) (q : Fin N) :
    dense x w b (ix2 p q) = denseAt x w b p q := rfl

end Cert.Spec

end
-- ==== Proof.RefForms.lean ====
/-
  The reference's last stages as functions of the values the two programs are compared at: the pooled cell-line
  embedding from the second cell-line layer's output, and the score from the second protein layer's output, the
  molecule embedding and the cell-line embedding. Each equation unfolds the reference's own stages and nothing else.
-/
import proofs.«178620_j32633161515065_1_alg».proof.Proof.RefRead

set_option maxRecDepth 16384

noncomputable section

namespace Cert.ReferenceIdeal.Forms

open Cert.ReferenceIdeal Cert.ReferenceIdeal.Gen Cert.ReferenceIdeal.ReadP Idealize.ShloMosaic

/-- Mean pooling of the node features `h` by the graph index `x4` (sums over counts), then the linear map `x11` plus the bias `x12`. -/
def xcForm (h : FVec Ideal S120000x200 .f32) (x4 : IVec S120000 32) (x11 : FVec Ideal S200x256 .f32) (x12 : FVec Ideal S256 .f32) : FVec Ideal S200x256 .f32 :=
  (addf (Host.dotGeneral dot_S200x200_S200x256_S200x256_1_0_0_1_n_n none (Host.divf (Host.scatterAdd scatter_S200x200_S120000x1_S120000x200_1_0_0_1 (val_main_v90 (F := Ideal)) (val_main_v91 (F := Ideal) x4) h) (val_main_v98 (F := Ideal) x4)) (x11)) (val_main_v102 (F := Ideal) x12))

/-- The cell-line embedding stage is the pooling form of the second cell-line layer's output. -/
theorem xc_eq (x0 : FVec Ideal S120000x128 .f32) (x3 : IVec S2x1200000 32) (x4 : IVec S120000 32) (x7 : FVec Ideal S128x200 .f32) (x8 : FVec Ideal S200 .f32) (x9 : FVec Ideal S200x200 .f32) (x10 : FVec Ideal S200 .f32) (x11 : FVec Ideal S200x256 .f32) (x12 : FVec Ideal S256 .f32) :
    val_main_v103 (F := Ideal) x0 x3 x4 x7 x8 x9 x10 x11 x12 = xcForm (val_main_v89 (F := Ideal) x0 x3 x7 x8 x9 x10) x4 x11 x12 := rfl

/-- The score: the last protein node's features through the linear map `x25` plus `x26`, joined to the molecule embedding `xm`,
    against the cell-line embedding `xc` through the bilinear form `x27`, plus the bias `x28`. -/
def tailForm (hb : FVec Ideal S19000x200 .f32) (xm : FVec Ideal S1x128 .f32) (xc : FVec Ideal S200x256 .f32) (x25 : FVec Ideal S200x128 .f32) (x26 : FVec Ideal S128 .f32) (x27 : FVec Ideal S256x256 .f32) (x28 : FVec Ideal S1 .f32) : FVec Ideal S200x1 .f32 :=
  (addf (Host.dotGeneral dot_S200x256_S256x1_S200x1_1_0_0_1_n_n none (Host.dotGeneral dot_S200x256_S256x256_S200x256_1_0_0_1_n_n none xc (x27)) (transpose S256x1 [1, 0] (concatenate S1x256 1 [⟨S1x128, xm⟩, ⟨S1x128, (addf (Host.dotGeneral dot_S1x200_S200x128_S1x128_1_0_0_1_n_n none (shapeCast _ (shapeCast _ (extractStridedSlice S1x200 ![18999, 0] hb slices_S19000x200_S1x200_18999_0) shapeCasts_S1x200_S200) shapeCasts_S200_S1x200) (x25)) (val_main_v247 (F := Ideal) x26))⟩] concatenates_S1x128_S1x128_S1x256_d1) transposes_S1x256_S256x1_1_0)) (val_main_v254 (F := Ideal) x28))

/-- The reference's result stage is the score form of its three intermediate values. -/
theorem result_eq (x0 : FVec Ideal S120000x128 .f32) (x1 : FVec Ideal S64x64 .f32) (x2 : FVec Ideal S19000x128 .f32) (x3 : IVec S2x1200000 32) (x4 : IVec S120000 32) (x5 : IVec S2x256 32) (x6 : IVec S2x600000 32) (x7 : FVec Ideal S128x200 .f32) (x8 : FVec Ideal S200 .f32) (x9 : FVec Ideal S200x200 .f32) (x10 : FVec Ideal S200 .f32) (x11 : FVec Ideal S200x256 .f32) (x12 : FVec Ideal S256 .f32) (x13 : FVec Ideal S64x200 .f32) (x14 : FVec Ideal S200 .f32) (x15 : FVec Ideal S64x200 .f32) (x16 : FVec Ideal S200x200 .f32) (x17 : FVec Ideal S200 .f32) (x18 : FVec Ideal S200x200 .f32) (x19 : FVec Ideal S200x128 .f32) (x20 : FVec Ideal S128 .f32) (x21 : FVec Ideal S128x200 .f32) (x22 : FVec Ideal S200 .f32) (x23 : FVec Ideal S200x200 .f32) (x24 : FVec Ideal S200 .f32) (x25 : FVec Ideal S200x128 .f32) (x26 : FVec Ideal S128 .f32) (x27 : FVec Ideal S256x256 .f32) (x28 : FVec Ideal S1 .f32) :
    val_main_v255 (F := Ideal) x0 x1 x2 x3 x4 x5 x6 x7 x8 x9 x10 x11 x12 x13 x14 x15 x16 x17 x18 x19 x20 x21 x22 x23 x24 x25 x26 x27 x28 = tailForm (val_main_v242 (F := Ideal) x2 x6 x21 x22 x23 x24) (val_main_v152 (F := Ideal) x1 x5 x13 x14 x15 x16 x17 x18 x19 x20) (val_main_v103 (F := Ideal) x0 x3 x4 x7 x8 x9 x10 x11 x12) x25 x26 x27 x28 := rfl

end Cert.ReferenceIdeal.Forms

end
-- ==== Proof.KernelStagesB.lean ====
/-
  The idealized kernel program's pooled cell-line embedding and its molecule embedding, read back when its third
  region is entered: the first as the reference's pooling form of the second region's output, the second as the
  reference's own stage of the argument arrays.
-/
import proofs.«178620_j32633161515065_1_alg».proof.Proof.KernelKeep
import proofs.«178620_j32633161515065_1_alg».proof.Proof.RefForms

set_option maxRecDepth 16384
set_option Elab.async false

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The pooled cell-line embedding, from region 1's output -/

set_option maxHeartbeats 16000000 in
theorem W5_v70 (c : Dev nD) : W5 (F := Ideal) m ρ c (Proc.devRef .tc main_v70)
    = Cert.ReferenceIdeal.Forms.xcForm (W4 (F := Ideal) m ρ c (Proc.devRef .tc main_v56)) (m ((c.tc : Thread nD τ).loc main_arg4)) (m ((c.tc : Thread nD τ).loc main_arg11)) (m ((c.tc : Thread nD τ).loc main_arg12)) := by
  simp (disch := decide) only [W5, hostOps2, W4_keep, W3, hostOps1, W2_keep, W1, W0, hostOps0, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

set_option maxHeartbeats 16000000 in
theorem W9_v70 (c : Dev nD) : W9 (F := Ideal) m ρ c (Proc.devRef .tc main_v70)
    = Cert.ReferenceIdeal.Forms.xcForm (W4 (F := Ideal) m ρ c (Proc.devRef .tc main_v56)) (m ((c.tc : Thread nD τ).loc main_arg4)) (m ((c.tc : Thread nD τ).loc main_arg11)) (m ((c.tc : Thread nD τ).loc main_arg12)) := by
  simp (disch := decide) only [↓W5_v70, W9, hostOps2_4, W8, hostOps2_3, W7, hostOps2_2, W6, hostOps2_1, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

/-! ## The molecule branch, stretch by stretch: both programs compute it by the same operations -/

set_option maxHeartbeats 16000000 in
theorem W5_v90 (c : Dev nD) : W5 (F := Ideal) m ρ c (Proc.devRef .tc main_v90)
    = Cert.ReferenceIdeal.ReadP.val_main_v123 (F := Ideal) (m ((c.tc : Thread nD τ).loc main_arg1)) (m ((c.tc : Thread nD τ).loc main_arg5)) (m ((c.tc : Thread nD τ).loc main_arg13)) (m ((c.tc : Thread nD τ).loc main_arg14)) (m ((c.tc : Thread nD τ).loc main_arg15)) := by
  simp (disch := decide) only [W5, hostOps2, W4_keep, W3, hostOps1, W2_keep, W1, W0, hostOps0, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

set_option maxHeartbeats 16000000 in
theorem W6_v91 (c : Dev nD) : W6 (F := Ideal) m ρ c (Proc.devRef .tc main_v91)
    = Cert.ReferenceIdeal.ReadP.val_main_v124 (F := Ideal) (m ((c.tc : Thread nD τ).loc main_arg1)) (m ((c.tc : Thread nD τ).loc main_arg5)) (m ((c.tc : Thread nD τ).loc main_arg13)) (m ((c.tc : Thread nD τ).loc main_arg14)) (m ((c.tc : Thread nD τ).loc main_arg15)) := by
  simp (disch := decide) only [↓W5_v90, W6, hostOps2_1, W5, hostOps2, W4_keep, W3, hostOps1, W2_keep, W1, W0, hostOps0, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

set_option maxHeartbeats 16000000 in
theorem W7_v111 (c : Dev nD) : W7 (F := Ideal) m ρ c (Proc.devRef .tc main_v111)
    = Cert.ReferenceIdeal.ReadP.val_main_v144 (F := Ideal) (m ((c.tc : Thread nD τ).loc main_arg1)) (m ((c.tc : Thread nD τ).loc main_arg5)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  simp (disch := decide) only [↓W6_v91, W7, hostOps2_2, W6, hostOps2_1, W5, hostOps2, W4_keep, W3, hostOps1, W2_keep, W1, W0, hostOps0, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

set_option maxHeartbeats 16000000 in
theorem W8_v112 (c : Dev nD) : W8 (F := Ideal) m ρ c (Proc.devRef .tc main_v112)
    = Cert.ReferenceIdeal.ReadP.val_main_v145 (F := Ideal) (m ((c.tc : Thread nD τ).loc main_arg1)) (m ((c.tc : Thread nD τ).loc main_arg5)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  simp (disch := decide) only [↓W7_v111, W8, hostOps2_3, W7, hostOps2_2, W6, hostOps2_1, W5, hostOps2, W4_keep, W3, hostOps1, W2_keep, W1, W0, hostOps0, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

set_option maxHeartbeats 16000000 in
theorem W9_v119 (c : Dev nD) : W9 (F := Ideal) m ρ c (Proc.devRef .tc main_v119)
    = Cert.ReferenceIdeal.ReadP.val_main_v152 (F := Ideal) (m ((c.tc : Thread nD τ).loc main_arg1)) (m ((c.tc : Thread nD τ).loc main_arg5)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  simp (disch := decide) only [↓W8_v112, W9, hostOps2_4, W8, hostOps2_3, W7, hostOps2_2, W6, hostOps2_1, W5, hostOps2, W4_keep, W3, hostOps1, W2_keep, W1, W0, hostOps0, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

end Cert.KernelIdeal.Stages

end
-- ==== Proof.RegionValue.lean ====
/-
  Each of the program's four dense layers, read as one whole-array function at the ideal instance.

  A region runs the same body over a one-dimensional grid of row blocks: point t loads rows [t·B, (t+1)·B) of the
  input array x, the whole weight matrix w and the whole bias row b, and stores relu(x_block · w + b) into the same
  rows of the output array. Here the stored block is read entry by entry as the row-by-column sum of products plus
  the bias, cut below at 0; the block that point t writes back is identified with rows [t·B, (t+1)·B) of the
  whole-array function relu(x · w + b) of the arrays as the region finds them; and since row r lies in the block of
  point r / B, the blocks cover the output array, which therefore ends holding that function.
-/
import proofs.«178620_j32633161515065_1_alg».proof.Proof.Spec
import proofs.«178620_j32633161515065_1_alg».proof.Proof.KernelStagesB
import proofs.«178620_j32633161515065_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

/-- The zero offsets of a whole-buffer access. -/
theorem hz : (![0, 0] : Fin 2 → Nat) = fun _ => 0 := funext fun a => by fin_cases a <;> rfl

variable (V : (c : Dev nD) → (b : Ref sig .tc) → Buf (Elt Ideal) ((c : Thread nD τ).loc b))

/-! ## Region 0: rows in blocks of 4000, contraction over 128 -/

/-- The left operand's index at output entry i and contraction position k has i's row. -/
theorem lhs0_row (i : S4000x200.Idx) (k : dot_S4000x128_S128x200_S4000x200_1_0_0_1_n_n.contr.Idx) :
    (dot_S4000x128_S128x200_S4000x200_1_0_0_1_n_n.lhsIdx i k 0).val = (i 0).val := by
  unfold DotDims.lhsIdx
  rw [dif_neg (show ¬(0 : Fin S4000x128.rank) ∈ dot_S4000x128_S128x200_S4000x200_1_0_0_1_n_n.lhsBatch by decide), dif_pos (show (0 : Fin S4000x128.rank) ∈ dot_S4000x128_S128x200_S4000x200_1_0_0_1_n_n.lhsNonContracting by decide)]
  rfl
/-- The right operand's index at output entry i and contraction position k has i's column. -/
theorem rhs0_col (i : S4000x200.Idx) (k : dot_S4000x128_S128x200_S4000x200_1_0_0_1_n_n.contr.Idx) :
    (dot_S4000x128_S128x200_S4000x200_1_0_0_1_n_n.rhsIdx i k 1).val = (i 1).val := by
  unfold DotDims.rhsIdx
  rw [dif_neg (show ¬(1 : Fin S128x200.rank) ∈ dot_S4000x128_S128x200_S4000x200_1_0_0_1_n_n.rhsBatch by decide), dif_pos (show (1 : Fin S128x200.rank) ∈ dot_S4000x128_S128x200_S4000x200_1_0_0_1_n_n.rhsNonContracting by decide)]
  rfl

/-- The matrix product of a 4000×128 block with a 128×200 matrix into the zero accumulator, at entry (p, q): the sum
    over the 128 contraction positions of the products (the contraction's one-axis index set re-indexed by its
    coordinate). -/
theorem mm0_apply (a : FVec Ideal S4000x128 .bf16) (b : FVec Ideal S128x200 .bf16) (p : Fin 4000) (q : Fin 200) :
    (Idealize.ShloMosaic.matmul dot_S4000x128_S128x200_S4000x200_1_0_0_1_n_n none a b (constant S4000x200 .f32 0x00000000#32) : FVec Ideal S4000x200 .f32) (ix2 p q)
      = ∑ k : Fin 128, a (ix2 p k) * b (ix2 k q) := by
  refine (Ideal.matmul_constant_zero_apply dot_S4000x128_S128x200_S4000x200_1_0_0_1_n_n none a b (ix2 p q)).trans ?_
  refine (Equiv.sum_comp (contrEquiv1 dot_S4000x128_S128x200_S4000x200_1_0_0_1_n_n 128 rfl rfl).symm _).symm.trans ?_
  refine Finset.sum_congr rfl fun k _ => ?_
  have hk := contrEquiv1_symm_val dot_S4000x128_S128x200_S4000x200_1_0_0_1_n_n 128 rfl rfl k
  have el : dot_S4000x128_S128x200_S4000x200_1_0_0_1_n_n.lhsIdx (ix2 p q) ((contrEquiv1 dot_S4000x128_S128x200_S4000x200_1_0_0_1_n_n 128 rfl rfl).symm k) = ix2 p k :=
    funext fun ax => Fin.ext (by
      match ax with
      | ⟨0, _⟩ => exact lhs0_row _ _
      | ⟨1, _⟩ => exact (dot_S4000x128_S128x200_S4000x200_1_0_0_1_n_n.lhsIdx_val_of_single rfl _ _).trans hk)
  have er : dot_S4000x128_S128x200_S4000x200_1_0_0_1_n_n.rhsIdx (ix2 p q) ((contrEquiv1 dot_S4000x128_S128x200_S4000x200_1_0_0_1_n_n 128 rfl rfl).symm k) = ix2 k q :=
    funext fun ax => Fin.ext (by
      match ax with
      | ⟨0, _⟩ => exact (dot_S4000x128_S128x200_S4000x200_1_0_0_1_n_n.rhsIdx_val_of_single rfl _ _).trans hk
      | ⟨1, _⟩ => exact rhs0_col _ _)
  rw [el, er]

/-- The body's stored value at entry (p, q) of a block: the row-by-column sum of products of the loaded block and
    matrix, plus the bias row's entry q, cut below at 0 (a change of float format is the identity on the extended
    reals, and the zero word is 0). -/
theorem pay0_apply (v0 : Vec Ideal S4000x128 .f32) (v3 : Vec Ideal S128x200 .f32) (v6 : Vec Ideal S1x200 .f32)
    (p : Fin 4000) (q : Fin 200) :
    k0_pay1 (F := Ideal) v0 v3 v6 (ix2 p q)
      = max ((∑ k : Fin 128, v0 (ix2 p k) * v3 (ix2 k q)) + v6 (ix2 (0 : Fin 1) q)) 0 := by
  unfold k0_pay1
  rw [shapeCast_self, shapeCast_self, maximumf_apply, addf_apply, broadcast_apply, mm0_apply,
    broadcastTo_1b_ab_apply, Ideal.ofBits_def, Ideal.ofBits_zero_f32]
  rfl

/-- The stored block against the whole arrays: if the loaded block x0 holds rows [o, o + 4000) of the array A0 and
    the two other loads hold the arrays A1 and A2 whole, then the stored block's entry j is entry i of
    relu(A0 · A1 + A2) whenever i is j moved down by o rows. -/
theorem blk0_apply (x0 : Vec Ideal S4000x128 .f32) (x1 : Vec Ideal S128x200 .f32) (x2 : Vec Ideal S1x200 .f32)
    (A0 : S120000x128.Idx → EReal) (A1 : S128x200.Idx → EReal) (A2 : S1x200.Idx → EReal) (o : Nat)
    (h0 : ∀ (p : Fin 4000) (k : Fin 128) (P : Fin 120000), P.val = o + p.val → x0 (ix2 p k) = A0 (ix2 P k))
    (h1 : x1 = A1) (h2 : x2 = A2)
    (j : S4000x200.Idx) (i : S120000x200.Idx) (hi0 : (i 0).val = o + (j 0).val) (hi1 : (i 1).val = (j 1).val) :
    k0_pay1 (F := Ideal) x0 x1 x2 j = Cert.Spec.dense A0 A1 A2 i := by
  obtain ⟨p, q, rfl⟩ : ∃ (p : Fin 4000) (q : Fin 200), j = ix2 p q := ⟨j 0, j 1, eq_ix2 j⟩
  obtain ⟨P, Q, rfl⟩ : ∃ (P : Fin 120000) (Q : Fin 200), i = ix2 P Q := ⟨i 0, i 1, eq_ix2 i⟩
  obtain rfl : Q = q := Fin.ext hi1
  rw [pay0_apply, Cert.Spec.dense_apply, h1, h2]
  unfold Cert.Spec.denseAt
  refine congrArg (fun s => max (s + A2 (ix2 (0 : Fin 1) Q)) 0) (Finset.sum_congr rfl fun k _ => ?_)
  rw [h0 p k P hi0]

/-- The index maps over the grid, decided: the input and output row blocks move together with the point, the weight
    matrix and the bias row stay at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT t WRITES BACK is rows [t·4000, (t+1)·4000) of relu(x · w + b) of the arrays as the region finds them. -/
theorem flushed0_eq (c : Dev nD) (t : Fin cfg0.N) :
    (dat0 (F := Ideal) V c).flushed 3 t = ((cfg0.win 3).blk t).view.read (Elt Ideal)
      (Cert.Spec.dense (V c main_v39 : S120000x128.Idx → EReal) (V c main_arg7 : S128x200.Idx → EReal) (V c main_v40 : S1x200.Idx → EReal)) := by
  show (cfg0.win 3).cut (grid0.coords t) ((dat0 (F := Ideal) V c).after 3 t) = _
  rw [after0_3]
  unfold out0_3
  rw [View.canon_unit_zero hz]
  simp only [View.ld_unit_zero (S := S4000x128) hz, View.ld_unit_zero (S := S128x200) hz, View.ld_unit_zero (S := S1x200) hz]
  obtain ⟨e00, e01, e10, e11, e20, e21, e30, e31⟩ := idx_facts0 t
  funext j
  show k0_pay1 (F := Ideal) (iblk0 V c 0 t) (iblk0 V c 1 t) (iblk0 V c 2 t) ((cfg0.win 3).xinj (grid0.coords t) j)
    = Cert.Spec.dense (V c main_v39 : S120000x128.Idx → EReal) (V c main_arg7 : S128x200.Idx → EReal) (V c main_v40 : S1x200.Idx → EReal) (((cfg0.win 3).blk t).view.emb j)
  refine blk0_apply (iblk0 V c 0 t) (iblk0 V c 1 t) (iblk0 V c 2 t) (V c main_v39) (V c main_arg7) (V c main_v40) (t.val * 4000) ?_ ?_ ?_ _ _ ?_ ?_
  · intro p k P hP
    show V c main_v39 (((cfg0.win 0).blk t).view.emb (ix2 p k)) = V c main_v39 (ix2 P k)
    refine congrArg _ (funext fun a => Fin.ext ?_)
    match a with
    | ⟨0, _⟩ => show win0_0.index t (0 : Fin 2) * 4000 + 1 * p.val = P.val; omega
    | ⟨1, _⟩ => show win0_0.index t (1 : Fin 2) * 128 + 1 * k.val = k.val; omega
  · funext y
    show V c main_arg7 (((cfg0.win 1).blk t).view.emb y) = V c main_arg7 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 200 + 1 * (y 1).val = (y 1).val; omega
  · funext y
    show V c main_v40 (((cfg0.win 2).blk t).view.emb y) = V c main_v40 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 200 + 1 * (y 1).val = (y 1).val; omega
  · show win0_3.index t (0 : Fin 2) * 4000 + 1 * (j 0).val = t.val * 4000 + (j 0).val; omega
  · show win0_3.index t (1 : Fin 2) * 200 + 1 * (j 1).val = (j 1).val; omega

/-- An index of the output array is in point t's block iff each coordinate is in the block's range on its axis. -/
theorem mem_blk0 (t : Fin cfg0.N) (i : S120000x200.Idx) :
    i ∈ ((cfg0.win 3).blk t).view.set ↔ ∀ a : Fin 2, win0_3.index t a * S4000x200.size a ≤ (i a).val ∧ (i a).val < win0_3.index t a * S4000x200.size a + S4000x200.size a := by
  show i ∈ ((View.whole main_v41).slice (win0_3.rect t)).set ↔ _
  rw [View.set_slice_whole, Rect.mem_set_unit]
  exact Iff.rfl

/-- Every index of the output array is in some point's block: row r is in the block of point r / 4000. -/
theorem cover0 (i : S120000x200.Idx) :
    ∃ t : Fin cfg0.N, (cfg0.win 3).flush t = true ∧ i ∈ ((cfg0.win 3).blk t).view.set := by
  have hi0 : (i 0).val < 120000 := (i 0).isLt
  have hi1 : (i 1).val < 200 := (i 1).isLt
  have hN : cfg0.N = 30 := N_0
  let t : Fin cfg0.N := ⟨(i 0).val / 4000, by rw [hN]; omega⟩
  obtain ⟨e00, e01, e10, e11, e20, e21, e30, e31⟩ := idx_facts0 t
  have ht : t.val = (i 0).val / 4000 := rfl
  refine ⟨t, flush0_3 t, ?_⟩
  rw [mem_blk0]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 200 ≤ (i 1).val ∧ (i 1).val < win0_3.index t (1 : Fin 2) * 200 + 200; omega

/-- THE OUTPUT ARRAY after region 0 is relu(x · w + b) of the three input arrays as the region finds them. -/
theorem arr0 (c : Dev nD) :
    (dat0 (F := Ideal) V c).arrAt 3 cfg0.N
      = Cert.Spec.dense (V c main_v39 : S120000x128.Idx → EReal) (V c main_arg7 : S128x200.Idx → EReal) (V c main_v40 : S1x200.Idx → EReal) :=
  (dat0 (F := Ideal) V c).arrAt_eq_of_cover 3 _ (fun t _ => flushed0_eq V c t) (cover0)

/-! ## Region 1: rows in blocks of 4000, contraction over 200 -/

/-- The left operand's index at output entry i and contraction position k has i's row. -/
theorem lhs1_row (i : S4000x200.Idx) (k : dot_S4000x200_S200x200_S4000x200_1_0_0_1_n_n.contr.Idx) :
    (dot_S4000x200_S200x200_S4000x200_1_0_0_1_n_n.lhsIdx i k 0).val = (i 0).val := by
  unfold DotDims.lhsIdx
  rw [dif_neg (show ¬(0 : Fin S4000x200.rank) ∈ dot_S4000x200_S200x200_S4000x200_1_0_0_1_n_n.lhsBatch by decide), dif_pos (show (0 : Fin S4000x200.rank) ∈ dot_S4000x200_S200x200_S4000x200_1_0_0_1_n_n.lhsNonContracting by decide)]
  rfl
/-- The right operand's index at output entry i and contraction position k has i's column. -/
theorem rhs1_col (i : S4000x200.Idx) (k : dot_S4000x200_S200x200_S4000x200_1_0_0_1_n_n.contr.Idx) :
    (dot_S4000x200_S200x200_S4000x200_1_0_0_1_n_n.rhsIdx i k 1).val = (i 1).val := by
  unfold DotDims.rhsIdx
  rw [dif_neg (show ¬(1 : Fin S200x200.rank) ∈ dot_S4000x200_S200x200_S4000x200_1_0_0_1_n_n.rhsBatch by decide), dif_pos (show (1 : Fin S200x200.rank) ∈ dot_S4000x200_S200x200_S4000x200_1_0_0_1_n_n.rhsNonContracting by decide)]
  rfl

/-- The matrix product of a 4000×200 block with a 200×200 matrix into the zero accumulator, at entry (p, q): the sum
    over the 200 contraction positions of the products (the contraction's one-axis index set re-indexed by its
    coordinate). -/
theorem mm1_apply (a : FVec Ideal S4000x200 .bf16) (b : FVec Ideal S200x200 .bf16) (p : Fin 4000) (q : Fin 200) :
    (Idealize.ShloMosaic.matmul dot_S4000x200_S200x200_S4000x200_1_0_0_1_n_n none a b (constant S4000x200 .f32 0x00000000#32) : FVec Ideal S4000x200 .f32) (ix2 p q)
      = ∑ k : Fin 200, a (ix2 p k) * b (ix2 k q) := by
  refine (Ideal.matmul_constant_zero_apply dot_S4000x200_S200x200_S4000x200_1_0_0_1_n_n none a b (ix2 p q)).trans ?_
  refine (Equiv.sum_comp (contrEquiv1 dot_S4000x200_S200x200_S4000x200_1_0_0_1_n_n 200 rfl rfl).symm _).symm.trans ?_
  refine Finset.sum_congr rfl fun k _ => ?_
  have hk := contrEquiv1_symm_val dot_S4000x200_S200x200_S4000x200_1_0_0_1_n_n 200 rfl rfl k
  have el : dot_S4000x200_S200x200_S4000x200_1_0_0_1_n_n.lhsIdx (ix2 p q) ((contrEquiv1 dot_S4000x200_S200x200_S4000x200_1_0_0_1_n_n 200 rfl rfl).symm k) = ix2 p k :=
    funext fun ax => Fin.ext (by
      match ax with
      | ⟨0, _⟩ => exact lhs1_row _ _
      | ⟨1, _⟩ => exact (dot_S4000x200_S200x200_S4000x200_1_0_0_1_n_n.lhsIdx_val_of_single rfl _ _).trans hk)
  have er : dot_S4000x200_S200x200_S4000x200_1_0_0_1_n_n.rhsIdx (ix2 p q) ((contrEquiv1 dot_S4000x200_S200x200_S4000x200_1_0_0_1_n_n 200 rfl rfl).symm k) = ix2 k q :=
    funext fun ax => Fin.ext (by
      match ax with
      | ⟨0, _⟩ => exact (dot_S4000x200_S200x200_S4000x200_1_0_0_1_n_n.rhsIdx_val_of_single rfl _ _).trans hk
      | ⟨1, _⟩ => exact rhs1_col _ _)
  rw [el, er]

/-- The body's stored value at entry (p, q) of a block: the row-by-column sum of products of the loaded block and
    matrix, plus the bias row's entry q, cut below at 0 (a change of float format is the identity on the extended
    reals, and the zero word is 0). -/
theorem pay1_apply (v0 : Vec Ideal S4000x200 .f32) (v3 : Vec Ideal S200x200 .f32) (v6 : Vec Ideal S1x200 .f32)
    (p : Fin 4000) (q : Fin 200) :
    k1_pay1 (F := Ideal) v0 v3 v6 (ix2 p q)
      = max ((∑ k : Fin 200, v0 (ix2 p k) * v3 (ix2 k q)) + v6 (ix2 (0 : Fin 1) q)) 0 := by
  unfold k1_pay1
  rw [shapeCast_self, shapeCast_self, maximumf_apply, addf_apply, broadcast_apply, mm1_apply,
    broadcastTo_1b_ab_apply, Ideal.ofBits_def, Ideal.ofBits_zero_f32]
  rfl

/-- The stored block against the whole arrays: if the loaded block x0 holds rows [o, o + 4000) of the array A0 and
    the two other loads hold the arrays A1 and A2 whole, then the stored block's entry j is entry i of
    relu(A0 · A1 + A2) whenever i is j moved down by o rows. -/
theorem blk1_apply (x0 : Vec Ideal S4000x200 .f32) (x1 : Vec Ideal S200x200 .f32) (x2 : Vec Ideal S1x200 .f32)
    (A0 : S120000x200.Idx → EReal) (A1 : S200x200.Idx → EReal) (A2 : S1x200.Idx → EReal) (o : Nat)
    (h0 : ∀ (p : Fin 4000) (k : Fin 200) (P : Fin 120000), P.val = o + p.val → x0 (ix2 p k) = A0 (ix2 P k))
    (h1 : x1 = A1) (h2 : x2 = A2)
    (j : S4000x200.Idx) (i : S120000x200.Idx) (hi0 : (i 0).val = o + (j 0).val) (hi1 : (i 1).val = (j 1).val) :
    k1_pay1 (F := Ideal) x0 x1 x2 j = Cert.Spec.dense A0 A1 A2 i := by
  obtain ⟨p, q, rfl⟩ : ∃ (p : Fin 4000) (q : Fin 200), j = ix2 p q := ⟨j 0, j 1, eq_ix2 j⟩
  obtain ⟨P, Q, rfl⟩ : ∃ (P : Fin 120000) (Q : Fin 200), i = ix2 P Q := ⟨i 0, i 1, eq_ix2 i⟩
  obtain rfl : Q = q := Fin.ext hi1
  rw [pay1_apply, Cert.Spec.dense_apply, h1, h2]
  unfold Cert.Spec.denseAt
  refine congrArg (fun s => max (s + A2 (ix2 (0 : Fin 1) Q)) 0) (Finset.sum_congr rfl fun k _ => ?_)
  rw [h0 p k P hi0]

/-- The index maps over the grid, decided: the input and output row blocks move together with the point, the weight
    matrix and the bias row stay at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT t WRITES BACK is rows [t·4000, (t+1)·4000) of relu(x · w + b) of the arrays as the region finds them. -/
theorem flushed1_eq (c : Dev nD) (t : Fin cfg1.N) :
    (dat1 (F := Ideal) V c).flushed 3 t = ((cfg1.win 3).blk t).view.read (Elt Ideal)
      (Cert.Spec.dense (V c main_v54 : S120000x200.Idx → EReal) (V c main_arg9 : S200x200.Idx → EReal) (V c main_v55 : S1x200.Idx → EReal)) := by
  show (cfg1.win 3).cut (grid1.coords t) ((dat1 (F := Ideal) V c).after 3 t) = _
  rw [after1_3]
  unfold out1_3
  rw [View.canon_unit_zero hz]
  simp only [View.ld_unit_zero (S := S4000x200) hz, View.ld_unit_zero (S := S200x200) hz, View.ld_unit_zero (S := S1x200) hz]
  obtain ⟨e00, e01, e10, e11, e20, e21, e30, e31⟩ := idx_facts1 t
  funext j
  show k1_pay1 (F := Ideal) (iblk1 V c 0 t) (iblk1 V c 1 t) (iblk1 V c 2 t) ((cfg1.win 3).xinj (grid1.coords t) j)
    = Cert.Spec.dense (V c main_v54 : S120000x200.Idx → EReal) (V c main_arg9 : S200x200.Idx → EReal) (V c main_v55 : S1x200.Idx → EReal) (((cfg1.win 3).blk t).view.emb j)
  refine blk1_apply (iblk1 V c 0 t) (iblk1 V c 1 t) (iblk1 V c 2 t) (V c main_v54) (V c main_arg9) (V c main_v55) (t.val * 4000) ?_ ?_ ?_ _ _ ?_ ?_
  · intro p k P hP
    show V c main_v54 (((cfg1.win 0).blk t).view.emb (ix2 p k)) = V c main_v54 (ix2 P k)
    refine congrArg _ (funext fun a => Fin.ext ?_)
    match a with
    | ⟨0, _⟩ => show win1_0.index t (0 : Fin 2) * 4000 + 1 * p.val = P.val; omega
    | ⟨1, _⟩ => show win1_0.index t (1 : Fin 2) * 200 + 1 * k.val = k.val; omega
  · funext y
    show V c main_arg9 (((cfg1.win 1).blk t).view.emb y) = V c main_arg9 y
    refine congrArg _ (funext fun a => Fin.ext ?_)
    match a with
    | ⟨0, _⟩ => show win1_1.index t (0 : Fin 2) * 200 + 1 * (y 0).val = (y 0).val; omega
    | ⟨1, _⟩ => show win1_1.index t (1 : Fin 2) * 200 + 1 * (y 1).val = (y 1).val; omega
  · funext y
    show V c main_v55 (((cfg1.win 2).blk t).view.emb y) = V c main_v55 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 200 + 1 * (y 1).val = (y 1).val; omega
  · show win1_3.index t (0 : Fin 2) * 4000 + 1 * (j 0).val = t.val * 4000 + (j 0).val; omega
  · show win1_3.index t (1 : Fin 2) * 200 + 1 * (j 1).val = (j 1).val; omega

/-- An index of the output array is in point t's block iff each coordinate is in the block's range on its axis. -/
theorem mem_blk1 (t : Fin cfg1.N) (i : S120000x200.Idx) :
    i ∈ ((cfg1.win 3).blk t).view.set ↔ ∀ a : Fin 2, win1_3.index t a * S4000x200.size a ≤ (i a).val ∧ (i a).val < win1_3.index t a * S4000x200.size a + S4000x200.size a := by
  show i ∈ ((View.whole main_v56).slice (win1_3.rect t)).set ↔ _
  rw [View.set_slice_whole, Rect.mem_set_unit]
  exact Iff.rfl

/-- Every index of the output array is in some point's block: row r is in the block of point r / 4000. -/
theorem cover1 (i : S120000x200.Idx) :
    ∃ t : Fin cfg1.N, (cfg1.win 3).flush t = true ∧ i ∈ ((cfg1.win 3).blk t).view.set := by
  have hi0 : (i 0).val < 120000 := (i 0).isLt
  have hi1 : (i 1).val < 200 := (i 1).isLt
  have hN : cfg1.N = 30 := N_1
  let t : Fin cfg1.N := ⟨(i 0).val / 4000, by rw [hN]; omega⟩
  obtain ⟨e00, e01, e10, e11, e20, e21, e30, e31⟩ := idx_facts1 t
  have ht : t.val = (i 0).val / 4000 := rfl
  refine ⟨t, flush1_3 t, ?_⟩
  rw [mem_blk1]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 200 ≤ (i 1).val ∧ (i 1).val < win1_3.index t (1 : Fin 2) * 200 + 200; omega

/-- THE OUTPUT ARRAY after region 1 is relu(x · w + b) of the three input arrays as the region finds them. -/
theorem arr1 (c : Dev nD) :
    (dat1 (F := Ideal) V c).arrAt 3 cfg1.N
      = Cert.Spec.dense (V c main_v54 : S120000x200.Idx → EReal) (V c main_arg9 : S200x200.Idx → EReal) (V c main_v55 : S1x200.Idx → EReal) :=
  (dat1 (F := Ideal) V c).arrAt_eq_of_cover 3 _ (fun t _ => flushed1_eq V c t) (cover1)

/-! ## Region 2: rows in blocks of 1000, contraction over 128 -/

/-- The left operand's index at output entry i and contraction position k has i's row. -/
theorem lhs2_row (i : S1000x200.Idx) (k : dot_S1000x128_S128x200_S1000x200_1_0_0_1_n_n.contr.Idx) :
    (dot_S1000x128_S128x200_S1000x200_1_0_0_1_n_n.lhsIdx i k 0).val = (i 0).val := by
  unfold DotDims.lhsIdx
  rw [dif_neg (show ¬(0 : Fin S1000x128.rank) ∈ dot_S1000x128_S128x200_S1000x200_1_0_0_1_n_n.lhsBatch by decide), dif_pos (show (0 : Fin S1000x128.rank) ∈ dot_S1000x128_S128x200_S1000x200_1_0_0_1_n_n.lhsNonContracting by decide)]
  rfl
/-- The right operand's index at output entry i and contraction position k has i's column. -/
theorem rhs2_col (i : S1000x200.Idx) (k : dot_S1000x128_S128x200_S1000x200_1_0_0_1_n_n.contr.Idx) :
    (dot_S1000x128_S128x200_S1000x200_1_0_0_1_n_n.rhsIdx i k 1).val = (i 1).val := by
  unfold DotDims.rhsIdx
  rw [dif_neg (show ¬(1 : Fin S128x200.rank) ∈ dot_S1000x128_S128x200_S1000x200_1_0_0_1_n_n.rhsBatch by decide), dif_pos (show (1 : Fin S128x200.rank) ∈ dot_S1000x128_S128x200_S1000x200_1_0_0_1_n_n.rhsNonContracting by decide)]
  rfl

/-- The matrix product of a 1000×128 block with a 128×200 matrix into the zero accumulator, at entry (p, q): the sum
    over the 128 contraction positions of the products (the contraction's one-axis index set re-indexed by its
    coordinate). -/
theorem mm2_apply (a : FVec Ideal S1000x128 .bf16) (b : FVec Ideal S128x200 .bf16) (p : Fin 1000) (q : Fin 200) :
    (Idealize.ShloMosaic.matmul dot_S1000x128_S128x200_S1000x200_1_0_0_1_n_n none a b (constant S1000x200 .f32 0x00000000#32) : FVec Ideal S1000x200 .f32) (ix2 p q)
      = ∑ k : Fin 128, a (ix2 p k) * b (ix2 k q) := by
  refine (Ideal.matmul_constant_zero_apply dot_S1000x128_S128x200_S1000x200_1_0_0_1_n_n none a b (ix2 p q)).trans ?_
  refine (Equiv.sum_comp (contrEquiv1 dot_S1000x128_S128x200_S1000x200_1_0_0_1_n_n 128 rfl rfl).symm _).symm.trans ?_
  refine Finset.sum_congr rfl fun k _ => ?_
  have hk := contrEquiv1_symm_val dot_S1000x128_S128x200_S1000x200_1_0_0_1_n_n 128 rfl rfl k
  have el : dot_S1000x128_S128x200_S1000x200_1_0_0_1_n_n.lhsIdx (ix2 p q) ((contrEquiv1 dot_S1000x128_S128x200_S1000x200_1_0_0_1_n_n 128 rfl rfl).symm k) = ix2 p k :=
    funext fun ax => Fin.ext (by
      match ax with
      | ⟨0, _⟩ => exact lhs2_row _ _
      | ⟨1, _⟩ => exact (dot_S1000x128_S128x200_S1000x200_1_0_0_1_n_n.lhsIdx_val_of_single rfl _ _).trans hk)
  have er : dot_S1000x128_S128x200_S1000x200_1_0_0_1_n_n.rhsIdx (ix2 p q) ((contrEquiv1 dot_S1000x128_S128x200_S1000x200_1_0_0_1_n_n 128 rfl rfl).symm k) = ix2 k q :=
    funext fun ax => Fin.ext (by
      match ax with
      | ⟨0, _⟩ => exact (dot_S1000x128_S128x200_S1000x200_1_0_0_1_n_n.rhsIdx_val_of_single rfl _ _).trans hk
      | ⟨1, _⟩ => exact rhs2_col _ _)
  rw [el, er]

/-- The body's stored value at entry (p, q) of a block: the row-by-column sum of products of the loaded block and
    matrix, plus the bias row's entry q, cut below at 0 (a change of float format is the identity on the extended
    reals, and the zero word is 0). -/
theorem pay2_apply (v0 : Vec Ideal S1000x128 .f32) (v3 : Vec Ideal S128x200 .f32) (v6 : Vec Ideal S1x200 .f32)
    (p : Fin 1000) (q : Fin 200) :
    k2_pay1 (F := Ideal) v0 v3 v6 (ix2 p q)
      = max ((∑ k : Fin 128, v0 (ix2 p k) * v3 (ix2 k q)) + v6 (ix2 (0 : Fin 1) q)) 0 := by
  unfold k2_pay1
  rw [shapeCast_self, shapeCast_self, maximumf_apply, addf_apply, broadcast_apply, mm2_apply,
    broadcastTo_1b_ab_apply, Ideal.ofBits_def, Ideal.ofBits_zero_f32]
  rfl

/-- The stored block against the whole arrays: if the loaded block x0 holds rows [o, o + 1000) of the array A0 and
    the two other loads hold the arrays A1 and A2 whole, then the stored block's entry j is entry i of
    relu(A0 · A1 + A2) whenever i is j moved down by o rows. -/
theorem blk2_apply (x0 : Vec Ideal S1000x128 .f32) (x1 : Vec Ideal S128x200 .f32) (x2 : Vec Ideal S1x200 .f32)
    (A0 : S19000x128.Idx → EReal) (A1 : S128x200.Idx → EReal) (A2 : S1x200.Idx → EReal) (o : Nat)
    (h0 : ∀ (p : Fin 1000) (k : Fin 128) (P : Fin 19000), P.val = o + p.val → x0 (ix2 p k) = A0 (ix2 P k))
    (h1 : x1 = A1) (h2 : x2 = A2)
    (j : S1000x200.Idx) (i : S19000x200.Idx) (hi0 : (i 0).val = o + (j 0).val) (hi1 : (i 1).val = (j 1).val) :
    k2_pay1 (F := Ideal) x0 x1 x2 j = Cert.Spec.dense A0 A1 A2 i := by
  obtain ⟨p, q, rfl⟩ : ∃ (p : Fin 1000) (q : Fin 200), j = ix2 p q := ⟨j 0, j 1, eq_ix2 j⟩
  obtain ⟨P, Q, rfl⟩ : ∃ (P : Fin 19000) (Q : Fin 200), i = ix2 P Q := ⟨i 0, i 1, eq_ix2 i⟩
  obtain rfl : Q = q := Fin.ext hi1
  rw [pay2_apply, Cert.Spec.dense_apply, h1, h2]
  unfold Cert.Spec.denseAt
  refine congrArg (fun s => max (s + A2 (ix2 (0 : Fin 1) Q)) 0) (Finset.sum_congr rfl fun k _ => ?_)
  rw [h0 p k P hi0]

/-- The index maps over the grid, decided: the input and output row blocks move together with the point, the weight
    matrix and the bias row stay at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- WHAT POINT t WRITES BACK is rows [t·1000, (t+1)·1000) of relu(x · w + b) of the arrays as the region finds them. -/
theorem flushed2_eq (c : Dev nD) (t : Fin cfg2.N) :
    (dat2 (F := Ideal) V c).flushed 3 t = ((cfg2.win 3).blk t).view.read (Elt Ideal)
      (Cert.Spec.dense (V c main_v159 : S19000x128.Idx → EReal) (V c main_arg21 : S128x200.Idx → EReal) (V c main_v160 : S1x200.Idx → EReal)) := by
  show (cfg2.win 3).cut (grid2.coords t) ((dat2 (F := Ideal) V c).after 3 t) = _
  rw [after2_3]
  unfold out2_3
  rw [View.canon_unit_zero hz]
  simp only [View.ld_unit_zero (S := S1000x128) hz, View.ld_unit_zero (S := S128x200) hz, View.ld_unit_zero (S := S1x200) hz]
  obtain ⟨e00, e01, e10, e11, e20, e21, e30, e31⟩ := idx_facts2 t
  funext j
  show k2_pay1 (F := Ideal) (iblk2 V c 0 t) (iblk2 V c 1 t) (iblk2 V c 2 t) ((cfg2.win 3).xinj (grid2.coords t) j)
    = Cert.Spec.dense (V c main_v159 : S19000x128.Idx → EReal) (V c main_arg21 : S128x200.Idx → EReal) (V c main_v160 : S1x200.Idx → EReal) (((cfg2.win 3).blk t).view.emb j)
  refine blk2_apply (iblk2 V c 0 t) (iblk2 V c 1 t) (iblk2 V c 2 t) (V c main_v159) (V c main_arg21) (V c main_v160) (t.val * 1000) ?_ ?_ ?_ _ _ ?_ ?_
  · intro p k P hP
    show V c main_v159 (((cfg2.win 0).blk t).view.emb (ix2 p k)) = V c main_v159 (ix2 P k)
    refine congrArg _ (funext fun a => Fin.ext ?_)
    match a with
    | ⟨0, _⟩ => show win2_0.index t (0 : Fin 2) * 1000 + 1 * p.val = P.val; omega
    | ⟨1, _⟩ => show win2_0.index t (1 : Fin 2) * 128 + 1 * k.val = k.val; omega
  · funext y
    show V c main_arg21 (((cfg2.win 1).blk t).view.emb y) = V c main_arg21 y
    refine congrArg _ (funext fun a => Fin.ext ?_)
    match a with
    | ⟨0, _⟩ => show win2_1.index t (0 : Fin 2) * 128 + 1 * (y 0).val = (y 0).val; omega
    | ⟨1, _⟩ => show win2_1.index t (1 : Fin 2) * 200 + 1 * (y 1).val = (y 1).val; omega
  · funext y
    show V c main_v160 (((cfg2.win 2).blk t).view.emb y) = V c main_v160 y
    refine congrArg _ (funext fun a => Fin.ext ?_)
    match a with
    | ⟨0, _⟩ => show win2_2.index t (0 : Fin 2) * 1 + 1 * (y 0).val = (y 0).val; omega
    | ⟨1, _⟩ => show win2_2.index t (1 : Fin 2) * 200 + 1 * (y 1).val = (y 1).val; omega
  · show win2_3.index t (0 : Fin 2) * 1000 + 1 * (j 0).val = t.val * 1000 + (j 0).val; omega
  · show win2_3.index t (1 : Fin 2) * 200 + 1 * (j 1).val = (j 1).val; omega

/-- An index of the output array is in point t's block iff each coordinate is in the block's range on its axis. -/
theorem mem_blk2 (t : Fin cfg2.N) (i : S19000x200.Idx) :
    i ∈ ((cfg2.win 3).blk t).view.set ↔ ∀ a : Fin 2, win2_3.index t a * S1000x200.size a ≤ (i a).val ∧ (i a).val < win2_3.index t a * S1000x200.size a + S1000x200.size a := by
  show i ∈ ((View.whole main_v161).slice (win2_3.rect t)).set ↔ _
  rw [View.set_slice_whole, Rect.mem_set_unit]
  exact Iff.rfl

/-- Every index of the output array is in some point's block: row r is in the block of point r / 1000. -/
theorem cover2 (i : S19000x200.Idx) :
    ∃ t : Fin cfg2.N, (cfg2.win 3).flush t = true ∧ i ∈ ((cfg2.win 3).blk t).view.set := by
  have hi0 : (i 0).val < 19000 := (i 0).isLt
  have hi1 : (i 1).val < 200 := (i 1).isLt
  have hN : cfg2.N = 19 := N_2
  let t : Fin cfg2.N := ⟨(i 0).val / 1000, by rw [hN]; omega⟩
  obtain ⟨e00, e01, e10, e11, e20, e21, e30, e31⟩ := idx_facts2 t
  have ht : t.val = (i 0).val / 1000 := rfl
  refine ⟨t, flush2_3 t, ?_⟩
  rw [mem_blk2]
  intro a
  match a with
  | ⟨0, _⟩ => show win2_3.index t (0 : Fin 2) * 1000 ≤ (i 0).val ∧ (i 0).val < win2_3.index t (0 : Fin 2) * 1000 + 1000; omega
  | ⟨1, _⟩ => show win2_3.index t (1 : Fin 2) * 200 ≤ (i 1).val ∧ (i 1).val < win2_3.index t (1 : Fin 2) * 200 + 200; omega

/-- THE OUTPUT ARRAY after region 2 is relu(x · w + b) of the three input arrays as the region finds them. -/
theorem arr2 (c : Dev nD) :
    (dat2 (F := Ideal) V c).arrAt 3 cfg2.N
      = Cert.Spec.dense (V c main_v159 : S19000x128.Idx → EReal) (V c main_arg21 : S128x200.Idx → EReal) (V c main_v160 : S1x200.Idx → EReal) :=
  (dat2 (F := Ideal) V c).arrAt_eq_of_cover 3 _ (fun t _ => flushed2_eq V c t) (cover2)

/-! ## Region 3: rows in blocks of 1000, contraction over 200 -/

/-- The left operand's index at output entry i and contraction position k has i's row. -/
theorem lhs3_row (i : S1000x200.Idx) (k : dot_S1000x200_S200x200_S1000x200_1_0_0_1_n_n.contr.Idx) :
    (dot_S1000x200_S200x200_S1000x200_1_0_0_1_n_n.lhsIdx i k 0).val = (i 0).val := by
  unfold DotDims.lhsIdx
  rw [dif_neg (show ¬(0 : Fin S1000x200.rank) ∈ dot_S1000x200_S200x200_S1000x200_1_0_0_1_n_n.lhsBatch by decide), dif_pos (show (0 : Fin S1000x200.rank) ∈ dot_S1000x200_S200x200_S1000x200_1_0_0_1_n_n.lhsNonContracting by decide)]
  rfl
/-- The right operand's index at output entry i and contraction position k has i's column. -/
theorem rhs3_col (i : S1000x200.Idx) (k : dot_S1000x200_S200x200_S1000x200_1_0_0_1_n_n.contr.Idx) :
    (dot_S1000x200_S200x200_S1000x200_1_0_0_1_n_n.rhsIdx i k 1).val = (i 1).val := by
  unfold DotDims.rhsIdx
  rw [dif_neg (show ¬(1 : Fin S200x200.rank) ∈ dot_S1000x200_S200x200_S1000x200_1_0_0_1_n_n.rhsBatch by decide), dif_pos (show (1 : Fin S200x200.rank) ∈ dot_S1000x200_S200x200_S1000x200_1_0_0_1_n_n.rhsNonContracting by decide)]
  rfl

/-- The matrix product of a 1000×200 block with a 200×200 matrix into the zero accumulator, at entry (p, q): the sum
    over the 200 contraction positions of the products (the contraction's one-axis index set re-indexed by its
    coordinate). -/
theorem mm3_apply (a : FVec Ideal S1000x200 .bf16) (b : FVec Ideal S200x200 .bf16) (p : Fin 1000) (q : Fin 200) :
    (Idealize.ShloMosaic.matmul dot_S1000x200_S200x200_S1000x200_1_0_0_1_n_n none a b (constant S1000x200 .f32 0x00000000#32) : FVec Ideal S1000x200 .f32) (ix2 p q)
      = ∑ k : Fin 200, a (ix2 p k) * b (ix2 k q) := by
  refine (Ideal.matmul_constant_zero_apply dot_S1000x200_S200x200_S1000x200_1_0_0_1_n_n none a b (ix2 p q)).trans ?_
  refine (Equiv.sum_comp (contrEquiv1 dot_S1000x200_S200x200_S1000x200_1_0_0_1_n_n 200 rfl rfl).symm _).symm.trans ?_
  refine Finset.sum_congr rfl fun k _ => ?_
  have hk := contrEquiv1_symm_val dot_S1000x200_S200x200_S1000x200_1_0_0_1_n_n 200 rfl rfl k
  have el : dot_S1000x200_S200x200_S1000x200_1_0_0_1_n_n.lhsIdx (ix2 p q) ((contrEquiv1 dot_S1000x200_S200x200_S1000x200_1_0_0_1_n_n 200 rfl rfl).symm k) = ix2 p k :=
    funext fun ax => Fin.ext (by
      match ax with
      | ⟨0, _⟩ => exact lhs3_row _ _
      | ⟨1, _⟩ => exact (dot_S1000x200_S200x200_S1000x200_1_0_0_1_n_n.lhsIdx_val_of_single rfl _ _).trans hk)
  have er : dot_S1000x200_S200x200_S1000x200_1_0_0_1_n_n.rhsIdx (ix2 p q) ((contrEquiv1 dot_S1000x200_S200x200_S1000x200_1_0_0_1_n_n 200 rfl rfl).symm k) = ix2 k q :=
    funext fun ax => Fin.ext (by
      match ax with
      | ⟨0, _⟩ => exact (dot_S1000x200_S200x200_S1000x200_1_0_0_1_n_n.rhsIdx_val_of_single rfl _ _).trans hk
      | ⟨1, _⟩ => exact rhs3_col _ _)
  rw [el, er]

/-- The body's stored value at entry (p, q) of a block: the row-by-column sum of products of the loaded block and
    matrix, plus the bias row's entry q, cut below at 0 (a change of float format is the identity on the extended
    reals, and the zero word is 0). -/
theorem pay3_apply (v0 : Vec Ideal S1000x200 .f32) (v3 : Vec Ideal S200x200 .f32) (v6 : Vec Ideal S1x200 .f32)
    (p : Fin 1000) (q : Fin 200) :
    k3_pay1 (F := Ideal) v0 v3 v6 (ix2 p q)
      = max ((∑ k : Fin 200, v0 (ix2 p k) * v3 (ix2 k q)) + v6 (ix2 (0 : Fin 1) q)) 0 := by
  unfold k3_pay1
  rw [shapeCast_self, shapeCast_self, maximumf_apply, addf_apply, broadcast_apply, mm3_apply,
    broadcastTo_1b_ab_apply, Ideal.ofBits_def, Ideal.ofBits_zero_f32]
  rfl

/-- The stored block against the whole arrays: if the loaded block x0 holds rows [o, o + 1000) of the array A0 and
    the two other loads hold the arrays A1 and A2 whole, then the stored block's entry j is entry i of
    relu(A0 · A1 + A2) whenever i is j moved down by o rows. -/
theorem blk3_apply (x0 : Vec Ideal S1000x200 .f32) (x1 : Vec Ideal S200x200 .f32) (x2 : Vec Ideal S1x200 .f32)
    (A0 : S19000x200.Idx → EReal) (A1 : S200x200.Idx → EReal) (A2 : S1x200.Idx → EReal) (o : Nat)
    (h0 : ∀ (p : Fin 1000) (k : Fin 200) (P : Fin 19000), P.val = o + p.val → x0 (ix2 p k) = A0 (ix2 P k))
    (h1 : x1 = A1) (h2 : x2 = A2)
    (j : S1000x200.Idx) (i : S19000x200.Idx) (hi0 : (i 0).val = o + (j 0).val) (hi1 : (i 1).val = (j 1).val) :
    k3_pay1 (F := Ideal) x0 x1 x2 j = Cert.Spec.dense A0 A1 A2 i := by
  obtain ⟨p, q, rfl⟩ : ∃ (p : Fin 1000) (q : Fin 200), j = ix2 p q := ⟨j 0, j 1, eq_ix2 j⟩
  obtain ⟨P, Q, rfl⟩ : ∃ (P : Fin 19000) (Q : Fin 200), i = ix2 P Q := ⟨i 0, i 1, eq_ix2 i⟩
  obtain rfl : Q = q := Fin.ext hi1
  rw [pay3_apply, Cert.Spec.dense_apply, h1, h2]
  unfold Cert.Spec.denseAt
  refine congrArg (fun s => max (s + A2 (ix2 (0 : Fin 1) Q)) 0) (Finset.sum_congr rfl fun k _ => ?_)
  rw [h0 p k P hi0]

/-- The index maps over the grid, decided: the input and output row blocks move together with the point, the weight
    matrix and the bias row stay at block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- WHAT POINT t WRITES BACK is rows [t·1000, (t+1)·1000) of relu(x · w + b) of the arrays as the region finds them. -/
theorem flushed3_eq (c : Dev nD) (t : Fin cfg3.N) :
    (dat3 (F := Ideal) V c).flushed 3 t = ((cfg3.win 3).blk t).view.read (Elt Ideal)
      (Cert.Spec.dense (V c main_v174 : S19000x200.Idx → EReal) (V c main_arg23 : S200x200.Idx → EReal) (V c main_v175 : S1x200.Idx → EReal)) := by
  show (cfg3.win 3).cut (grid3.coords t) ((dat3 (F := Ideal) V c).after 3 t) = _
  rw [after3_3]
  unfold out3_3
  rw [View.canon_unit_zero hz]
  simp only [View.ld_unit_zero (S := S1000x200) hz, View.ld_unit_zero (S := S200x200) hz, View.ld_unit_zero (S := S1x200) hz]
  obtain ⟨e00, e01, e10, e11, e20, e21, e30, e31⟩ := idx_facts3 t
  funext j
  show k3_pay1 (F := Ideal) (iblk3 V c 0 t) (iblk3 V c 1 t) (iblk3 V c 2 t) ((cfg3.win 3).xinj (grid3.coords t) j)
    = Cert.Spec.dense (V c main_v174 : S19000x200.Idx → EReal) (V c main_arg23 : S200x200.Idx → EReal) (V c main_v175 : S1x200.Idx → EReal) (((cfg3.win 3).blk t).view.emb j)
  refine blk3_apply (iblk3 V c 0 t) (iblk3 V c 1 t) (iblk3 V c 2 t) (V c main_v174) (V c main_arg23) (V c main_v175) (t.val * 1000) ?_ ?_ ?_ _ _ ?_ ?_
  · intro p k P hP
    show V c main_v174 (((cfg3.win 0).blk t).view.emb (ix2 p k)) = V c main_v174 (ix2 P k)
    refine congrArg _ (funext fun a => Fin.ext ?_)
    match a with
    | ⟨0, _⟩ => show win3_0.index t (0 : Fin 2) * 1000 + 1 * p.val = P.val; omega
    | ⟨1, _⟩ => show win3_0.index t (1 : Fin 2) * 200 + 1 * k.val = k.val; omega
  · funext y
    show V c main_arg23 (((cfg3.win 1).blk t).view.emb y) = V c main_arg23 y
    refine congrArg _ (funext fun a => Fin.ext ?_)
    match a with
    | ⟨0, _⟩ => show win3_1.index t (0 : Fin 2) * 200 + 1 * (y 0).val = (y 0).val; omega
    | ⟨1, _⟩ => show win3_1.index t (1 : Fin 2) * 200 + 1 * (y 1).val = (y 1).val; omega
  · funext y
    show V c main_v175 (((cfg3.win 2).blk t).view.emb y) = V c main_v175 y
    refine congrArg _ (funext fun a => Fin.ext ?_)
    match a with
    | ⟨0, _⟩ => show win3_2.index t (0 : Fin 2) * 1 + 1 * (y 0).val = (y 0).val; omega
    | ⟨1, _⟩ => show win3_2.index t (1 : Fin 2) * 200 + 1 * (y 1).val = (y 1).val; omega
  · show win3_3.index t (0 : Fin 2) * 1000 + 1 * (j 0).val = t.val * 1000 + (j 0).val; omega
  · show win3_3.index t (1 : Fin 2) * 200 + 1 * (j 1).val = (j 1).val; omega

/-- An index of the output array is in point t's block iff each coordinate is in the block's range on its axis. -/
theorem mem_blk3 (t : Fin cfg3.N) (i : S19000x200.Idx) :
    i ∈ ((cfg3.win 3).blk t).view.set ↔ ∀ a : Fin 2, win3_3.index t a * S1000x200.size a ≤ (i a).val ∧ (i a).val < win3_3.index t a * S1000x200.size a + S1000x200.size a := by
  show i ∈ ((View.whole main_v176).slice (win3_3.rect t)).set ↔ _
  rw [View.set_slice_whole, Rect.mem_set_unit]
  exact Iff.rfl

/-- Every index of the output array is in some point's block: row r is in the block of point r / 1000. -/
theorem cover3 (i : S19000x200.Idx) :
    ∃ t : Fin cfg3.N, (cfg3.win 3).flush t = true ∧ i ∈ ((cfg3.win 3).blk t).view.set := by
  have hi0 : (i 0).val < 19000 := (i 0).isLt
  have hi1 : (i 1).val < 200 := (i 1).isLt
  have hN : cfg3.N = 19 := N_3
  let t : Fin cfg3.N := ⟨(i 0).val / 1000, by rw [hN]; omega⟩
  obtain ⟨e00, e01, e10, e11, e20, e21, e30, e31⟩ := idx_facts3 t
  have ht : t.val = (i 0).val / 1000 := rfl
  refine ⟨t, flush3_3 t, ?_⟩
  rw [mem_blk3]
  intro a
  match a with
  | ⟨0, _⟩ => show win3_3.index t (0 : Fin 2) * 1000 ≤ (i 0).val ∧ (i 0).val < win3_3.index t (0 : Fin 2) * 1000 + 1000; omega
  | ⟨1, _⟩ => show win3_3.index t (1 : Fin 2) * 200 ≤ (i 1).val ∧ (i 1).val < win3_3.index t (1 : Fin 2) * 200 + 200; omega

/-- THE OUTPUT ARRAY after region 3 is relu(x · w + b) of the three input arrays as the region finds them. -/
theorem arr3 (c : Dev nD) :
    (dat3 (F := Ideal) V c).arrAt 3 cfg3.N
      = Cert.Spec.dense (V c main_v174 : S19000x200.Idx → EReal) (V c main_arg23 : S200x200.Idx → EReal) (V c main_v175 : S1x200.Idx → EReal) :=
  (dat3 (F := Ideal) V c).arrAt_eq_of_cover 3 _ (fun t _ => flushed3_eq V c t) (cover3)

end Cert.KernelIdeal.RegionValue

end
-- ==== Proof.KernelStagesA.lean ====
/-
  The idealized kernel program's buffers when its first two regions are entered, read back as functions of the
  argument arrays and of the first region's output: the aggregated features, the weight matrix and the bias row.
-/
import proofs.«178620_j32633161515065_1_alg».proof.Proof.KernelKeep
import proofs.«178620_j32633161515065_1_alg».proof.Proof.AggForms
import proofs.«178620_j32633161515065_1_alg».proof.Proof.RegionValue

set_option maxRecDepth 16384
set_option Elab.async false

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first stretch of host operations: region 0's inputs, and the index and edge-factor vectors -/

set_option maxHeartbeats 4000000 in
theorem W1_v39 (c : Dev nD) : W1 (F := Ideal) m ρ c (Proc.devRef .tc main_v39)
    = agg1 (m ((c.tc : Thread nD τ).loc main_arg0)) (m ((c.tc : Thread nD τ).loc main_arg3)) := by
  simp (disch := decide) only [W1, W0, hostOps0, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

set_option maxHeartbeats 4000000 in
theorem W1_v40 (c : Dev nD) : W1 (F := Ideal) m ρ c (Proc.devRef .tc main_v40)
    = shapeCast S1x200 (m ((c.tc : Thread nD τ).loc main_arg8)) shapeCasts_S200_S1x200 := by
  simp (disch := decide) only [W1, W0, hostOps0, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

set_option maxHeartbeats 4000000 in
theorem W1_arg7 (c : Dev nD) : W1 (F := Ideal) m ρ c (Proc.devRef .tc main_arg7)
    = (m ((c.tc : Thread nD τ).loc main_arg7)) := by
  simp (disch := decide) only [W1, W0, hostOps0, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

set_option maxHeartbeats 4000000 in
theorem W1_v5 (c : Dev nD) : W1 (F := Ideal) m ρ c (Proc.devRef .tc main_v5)
    = Cert.ReferenceIdeal.ReadP.val_main_v6 (F := Ideal) (m ((c.tc : Thread nD τ).loc main_arg3)) := by
  simp (disch := decide) only [W1, W0, hostOps0, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

set_option maxHeartbeats 4000000 in
theorem W1_v6 (c : Dev nD) : W1 (F := Ideal) m ρ c (Proc.devRef .tc main_v6)
    = Cert.ReferenceIdeal.ReadP.val_main_v7 (F := Ideal) (m ((c.tc : Thread nD τ).loc main_arg3)) := by
  simp (disch := decide) only [W1, W0, hostOps0, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

set_option maxHeartbeats 4000000 in
theorem W1_v26 (c : Dev nD) : W1 (F := Ideal) m ρ c (Proc.devRef .tc main_v26)
    = Cert.ReferenceIdeal.ReadP.val_main_v27 (F := Ideal) (m ((c.tc : Thread nD τ).loc main_arg3)) := by
  simp (disch := decide) only [W1, W0, hostOps0, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

/-! ## Region 1's inputs -/

set_option maxHeartbeats 8000000 in
theorem W3_v54 (c : Dev nD) : W3 (F := Ideal) m ρ c (Proc.devRef .tc main_v54)
    = agg2 (W2 (F := Ideal) m ρ c (Proc.devRef .tc main_v41)) (m ((c.tc : Thread nD τ).loc main_arg3)) := by
  simp (disch := decide) only [↓W1_v5, ↓W1_v6, ↓W1_v26, W3, hostOps1, W2_keep, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

set_option maxHeartbeats 8000000 in
theorem W3_v55 (c : Dev nD) : W3 (F := Ideal) m ρ c (Proc.devRef .tc main_v55)
    = shapeCast S1x200 (m ((c.tc : Thread nD τ).loc main_arg10)) shapeCasts_S200_S1x200 := by
  simp (disch := decide) only [W3, hostOps1, W2_keep, W1, W0, hostOps0, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

set_option maxHeartbeats 8000000 in
theorem W3_arg9 (c : Dev nD) : W3 (F := Ideal) m ρ c (Proc.devRef .tc main_arg9)
    = (m ((c.tc : Thread nD τ).loc main_arg9)) := by
  simp (disch := decide) only [W3, hostOps1, W2_keep, W1, W0, hostOps0, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

end Cert.KernelIdeal.Stages

end
-- ==== Proof.KernelStagesC1.lean ====
/-
  The idealized kernel program's buffers when its third region is entered: the protein graph's index and
  edge-factor vectors, which both programs compute by the same operations on the edge array.
-/
import proofs.«178620_j32633161515065_1_alg».proof.Proof.KernelKeep
import proofs.«178620_j32633161515065_1_alg».proof.Proof.AggForms
import proofs.«178620_j32633161515065_1_alg».proof.Proof.KernelStagesA

set_option maxRecDepth 16384
set_option Elab.async false

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 16000000 in
theorem W9_v125 (c : Dev nD) : W9 (F := Ideal) m ρ c (Proc.devRef .tc main_v125)
    = Cert.ReferenceIdeal.ReadP.val_main_v159 (F := Ideal) (m ((c.tc : Thread nD τ).loc main_arg6)) := by
  simp (disch := decide) only [W9, hostOps2_4, W8, hostOps2_3, W7, hostOps2_2, W6, hostOps2_1, W5, hostOps2, W4_keep, W3, hostOps1, W2_keep, W1, W0, hostOps0, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

set_option maxHeartbeats 16000000 in
theorem W9_v126 (c : Dev nD) : W9 (F := Ideal) m ρ c (Proc.devRef .tc main_v126)
    = Cert.ReferenceIdeal.ReadP.val_main_v160 (F := Ideal) (m ((c.tc : Thread nD τ).loc main_arg6)) := by
  simp (disch := decide) only [W9, hostOps2_4, W8, hostOps2_3, W7, hostOps2_2, W6, hostOps2_1, W5, hostOps2, W4_keep, W3, hostOps1, W2_keep, W1, W0, hostOps0, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

set_option maxHeartbeats 16000000 in
theorem W9_v146 (c : Dev nD) : W9 (F := Ideal) m ρ c (Proc.devRef .tc main_v146)
    = Cert.ReferenceIdeal.ReadP.val_main_v180 (F := Ideal) (m ((c.tc : Thread nD τ).loc main_arg6)) := by
  simp (disch := decide) only [W9, hostOps2_4, W8, hostOps2_3, W7, hostOps2_2, W6, hostOps2_1, W5, hostOps2, W4_keep, W3, hostOps1, W2_keep, W1, W0, hostOps0, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

end Cert.KernelIdeal.Stages

end
-- ==== Proof.KernelStagesC2.lean ====
/-
  The idealized kernel program's third region's inputs: the aggregated protein features, the weight matrix and
  the bias row.
-/
import proofs.«178620_j32633161515065_1_alg».proof.Proof.KernelKeep
import proofs.«178620_j32633161515065_1_alg».proof.Proof.AggForms
import proofs.«178620_j32633161515065_1_alg».proof.Proof.KernelStagesC1

set_option maxRecDepth 16384
set_option Elab.async false

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 16000000 in
theorem W9_v159 (c : Dev nD) : W9 (F := Ideal) m ρ c (Proc.devRef .tc main_v159)
    = agg3 (m ((c.tc : Thread nD τ).loc main_arg2)) (m ((c.tc : Thread nD τ).loc main_arg6)) := by
  simp (disch := decide) only [W9, hostOps2_4, W8, hostOps2_3, W7, hostOps2_2, W6, hostOps2_1, W5, hostOps2, W4_keep, W3, hostOps1, W2_keep, W1, W0, hostOps0, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

set_option maxHeartbeats 16000000 in
theorem W9_v160 (c : Dev nD) : W9 (F := Ideal) m ρ c (Proc.devRef .tc main_v160)
    = shapeCast S1x200 (m ((c.tc : Thread nD τ).loc main_arg22)) shapeCasts_S200_S1x200 := by
  simp (disch := decide) only [W9, hostOps2_4, W8, hostOps2_3, W7, hostOps2_2, W6, hostOps2_1, W5, hostOps2, W4_keep, W3, hostOps1, W2_keep, W1, W0, hostOps0, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

set_option maxHeartbeats 16000000 in
theorem W9_arg21 (c : Dev nD) : W9 (F := Ideal) m ρ c (Proc.devRef .tc main_arg21)
    = (m ((c.tc : Thread nD τ).loc main_arg21)) := by
  simp (disch := decide) only [W9, hostOps2_4, W8, hostOps2_3, W7, hostOps2_2, W6, hostOps2_1, W5, hostOps2, W4_keep, W3, hostOps1, W2_keep, W1, W0, hostOps0, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

end Cert.KernelIdeal.Stages

end
-- ==== Proof.KernelStagesC3.lean ====
/-
  Arguments the last stretches of the idealized kernel program read are, when its third region is entered, as
  launched: no operation before it writes one.
-/
import proofs.«178620_j32633161515065_1_alg».proof.Proof.KernelKeep
import proofs.«178620_j32633161515065_1_alg».proof.Proof.AggForms
import proofs.«178620_j32633161515065_1_alg».proof.Proof.KernelStagesC2

set_option maxRecDepth 16384
set_option Elab.async false

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 16000000 in
theorem W9_arg24 (c : Dev nD) : W9 (F := Ideal) m ρ c (Proc.devRef .tc main_arg24)
    = (m ((c.tc : Thread nD τ).loc main_arg24)) := by
  simp (disch := decide) only [W9, hostOps2_4, W8, hostOps2_3, W7, hostOps2_2, W6, hostOps2_1, W5, hostOps2, W4_keep, W3, hostOps1, W2_keep, W1, W0, hostOps0, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

set_option maxHeartbeats 16000000 in
theorem W9_arg25 (c : Dev nD) : W9 (F := Ideal) m ρ c (Proc.devRef .tc main_arg25)
    = (m ((c.tc : Thread nD τ).loc main_arg25)) := by
  simp (disch := decide) only [W9, hostOps2_4, W8, hostOps2_3, W7, hostOps2_2, W6, hostOps2_1, W5, hostOps2, W4_keep, W3, hostOps1, W2_keep, W1, W0, hostOps0, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

set_option maxHeartbeats 16000000 in
theorem W9_arg26 (c : Dev nD) : W9 (F := Ideal) m ρ c (Proc.devRef .tc main_arg26)
    = (m ((c.tc : Thread nD τ).loc main_arg26)) := by
  simp (disch := decide) only [W9, hostOps2_4, W8, hostOps2_3, W7, hostOps2_2, W6, hostOps2_1, W5, hostOps2, W4_keep, W3, hostOps1, W2_keep, W1, W0, hostOps0, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

end Cert.KernelIdeal.Stages

end
-- ==== Proof.KernelStagesC4.lean ====
/-
  Two more arguments the last stretch of the idealized kernel program reads are, when its third region is entered,
  as launched.
-/
import proofs.«178620_j32633161515065_1_alg».proof.Proof.KernelKeep
import proofs.«178620_j32633161515065_1_alg».proof.Proof.AggForms
import proofs.«178620_j32633161515065_1_alg».proof.Proof.KernelStagesC3

set_option maxRecDepth 16384
set_option Elab.async false

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 16000000 in
theorem W9_arg27 (c : Dev nD) : W9 (F := Ideal) m ρ c (Proc.devRef .tc main_arg27)
    = (m ((c.tc : Thread nD τ).loc main_arg27)) := by
  simp (disch := decide) only [W9, hostOps2_4, W8, hostOps2_3, W7, hostOps2_2, W6, hostOps2_1, W5, hostOps2, W4_keep, W3, hostOps1, W2_keep, W1, W0, hostOps0, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

set_option maxHeartbeats 16000000 in
theorem W9_arg28 (c : Dev nD) : W9 (F := Ideal) m ρ c (Proc.devRef .tc main_arg28)
    = (m ((c.tc : Thread nD τ).loc main_arg28)) := by
  simp (disch := decide) only [W9, hostOps2_4, W8, hostOps2_3, W7, hostOps2_2, W6, hostOps2_1, W5, hostOps2, W4_keep, W3, hostOps1, W2_keep, W1, W0, hostOps0, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

end Cert.KernelIdeal.Stages

end
-- ==== Proof.KernelStagesD.lean ====
/-
  The idealized kernel program's buffers when its fourth region is entered, and its result buffer after the last
  stretch of host operations: the score form of the fourth region's output, the molecule embedding and the pooled
  cell-line embedding.
-/
import proofs.«178620_j32633161515065_1_alg».proof.Proof.KernelStagesB
import proofs.«178620_j32633161515065_1_alg».proof.Proof.KernelStagesC1
import proofs.«178620_j32633161515065_1_alg».proof.Proof.KernelStagesC2
import proofs.«178620_j32633161515065_1_alg».proof.Proof.KernelStagesC3
import proofs.«178620_j32633161515065_1_alg».proof.Proof.KernelStagesC4

set_option maxRecDepth 16384
set_option Elab.async false

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Region 3's inputs -/

set_option maxHeartbeats 16000000 in
theorem W11_v174 (c : Dev nD) : W11 (F := Ideal) m ρ c (Proc.devRef .tc main_v174)
    = agg4 (W10 (F := Ideal) m ρ c (Proc.devRef .tc main_v161)) (m ((c.tc : Thread nD τ).loc main_arg6)) := by
  simp (disch := decide) only [↓W9_v125, ↓W9_v126, ↓W9_v146, W11, hostOps3, W10_keep, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

set_option maxHeartbeats 16000000 in
theorem W11_v175 (c : Dev nD) : W11 (F := Ideal) m ρ c (Proc.devRef .tc main_v175)
    = shapeCast S1x200 (m ((c.tc : Thread nD τ).loc main_arg24)) shapeCasts_S200_S1x200 := by
  simp (disch := decide) only [↓W9_arg24, W11, hostOps3, W10_keep, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

set_option maxHeartbeats 32000000 in
theorem W11_arg23 (c : Dev nD) : W11 (F := Ideal) m ρ c (Proc.devRef .tc main_arg23)
    = (m ((c.tc : Thread nD τ).loc main_arg23)) := by
  simp (disch := decide) only [W11, hostOps3, W10_keep, W9, hostOps2_4, W8, hostOps2_3, W7, hostOps2_2, W6, hostOps2_1, W5, hostOps2, W4_keep, W3, hostOps1, W2_keep, W1, W0, hostOps0, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] <;> rfl

/-! ## What the last stretch reads, after region 3: no operation between region 2's entry and the last stretch writes these buffers -/

theorem W12_v119 (c : Dev nD) : W12 (F := Ideal) m ρ c (Proc.devRef .tc main_v119)
    = Cert.ReferenceIdeal.ReadP.val_main_v152 (F := Ideal) (m ((c.tc : Thread nD τ).loc main_arg1)) (m ((c.tc : Thread nD τ).loc main_arg5)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) :=
  (W12_of_ne (F := Ideal) m ρ c main_v119 (by decide)).trans
    ((by simp (disch := decide) only [W11, hostOps3, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] :
        W11 (F := Ideal) m ρ c (Proc.devRef .tc main_v119) = W10 (F := Ideal) m ρ c (Proc.devRef .tc main_v119)).trans
      ((W10_of_ne (F := Ideal) m ρ c main_v119 (by decide)).trans (W9_v119 m ρ c)))

theorem W12_v70 (c : Dev nD) : W12 (F := Ideal) m ρ c (Proc.devRef .tc main_v70)
    = Cert.ReferenceIdeal.Forms.xcForm (W4 (F := Ideal) m ρ c (Proc.devRef .tc main_v56)) (m ((c.tc : Thread nD τ).loc main_arg4)) (m ((c.tc : Thread nD τ).loc main_arg11)) (m ((c.tc : Thread nD τ).loc main_arg12)) :=
  (W12_of_ne (F := Ideal) m ρ c main_v70 (by decide)).trans
    ((by simp (disch := decide) only [W11, hostOps3, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] :
        W11 (F := Ideal) m ρ c (Proc.devRef .tc main_v70) = W10 (F := Ideal) m ρ c (Proc.devRef .tc main_v70)).trans
      ((W10_of_ne (F := Ideal) m ρ c main_v70 (by decide)).trans (W9_v70 m ρ c)))

theorem W12_arg25 (c : Dev nD) : W12 (F := Ideal) m ρ c (Proc.devRef .tc main_arg25)
    = (m ((c.tc : Thread nD τ).loc main_arg25)) :=
  (W12_of_ne (F := Ideal) m ρ c main_arg25 (by decide)).trans
    ((by simp (disch := decide) only [W11, hostOps3, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] :
        W11 (F := Ideal) m ρ c (Proc.devRef .tc main_arg25) = W10 (F := Ideal) m ρ c (Proc.devRef .tc main_arg25)).trans
      ((W10_of_ne (F := Ideal) m ρ c main_arg25 (by decide)).trans (W9_arg25 m ρ c)))

theorem W12_arg26 (c : Dev nD) : W12 (F := Ideal) m ρ c (Proc.devRef .tc main_arg26)
    = (m ((c.tc : Thread nD τ).loc main_arg26)) :=
  (W12_of_ne (F := Ideal) m ρ c main_arg26 (by decide)).trans
    ((by simp (disch := decide) only [W11, hostOps3, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] :
        W11 (F := Ideal) m ρ c (Proc.devRef .tc main_arg26) = W10 (F := Ideal) m ρ c (Proc.devRef .tc main_arg26)).trans
      ((W10_of_ne (F := Ideal) m ρ c main_arg26 (by decide)).trans (W9_arg26 m ρ c)))

theorem W12_arg27 (c : Dev nD) : W12 (F := Ideal) m ρ c (Proc.devRef .tc main_arg27)
    = (m ((c.tc : Thread nD τ).loc main_arg27)) :=
  (W12_of_ne (F := Ideal) m ρ c main_arg27 (by decide)).trans
    ((by simp (disch := decide) only [W11, hostOps3, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] :
        W11 (F := Ideal) m ρ c (Proc.devRef .tc main_arg27) = W10 (F := Ideal) m ρ c (Proc.devRef .tc main_arg27)).trans
      ((W10_of_ne (F := Ideal) m ρ c main_arg27 (by decide)).trans (W9_arg27 m ρ c)))

theorem W12_arg28 (c : Dev nD) : W12 (F := Ideal) m ρ c (Proc.devRef .tc main_arg28)
    = (m ((c.tc : Thread nD τ).loc main_arg28)) :=
  (W12_of_ne (F := Ideal) m ρ c main_arg28 (by decide)).trans
    ((by simp (disch := decide) only [W11, hostOps3, StableHlo.after_cons, StableHlo.after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] :
        W11 (F := Ideal) m ρ c (Proc.devRef .tc main_arg28) = W10 (F := Ideal) m ρ c (Proc.devRef .tc main_arg28)).trans
      ((W10_of_ne (F := Ideal) m ρ c main_arg28 (by decide)).trans (W9_arg28 m ρ c)))

/-! ## The result: after the last stretch -/

set_option maxHeartbeats 32000000 in
theorem W13_v189 (c : Dev nD) : W13 (F := Ideal) m ρ c (Proc.devRef .tc main_v189)
    = Cert.ReferenceIdeal.Forms.tailForm (W12 (F := Ideal) m ρ c (Proc.devRef .tc main_v176))
        (Cert.ReferenceIdeal.ReadP.val_main_v152 (F := Ideal) (m ((c.tc : Thread nD τ).loc main_arg1)) (m ((c.tc : Thread nD τ).loc main_arg5)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)))
        (Cert.ReferenceIdeal.Forms.xcForm (W4 (F := Ideal) m ρ c (Proc.devRef .tc main_v56)) (m ((c.tc : Thread nD τ).loc main_arg4)) (m ((c.tc : Thread nD τ).loc main_arg11)) (m ((c.tc : Thread nD τ).loc main_arg12)))
        (m ((c.tc : Thread nD τ).loc main_arg25)) (m ((c.tc : Thread nD τ).loc main_arg26)) (m ((c.tc : Thread nD τ).loc main_arg27)) (m ((c.tc : Thread nD τ).loc main_arg28)) := by
  show StableHlo.after hostOps4 (W12 (F := Ideal) m ρ c) (Proc.devRef .tc main_v189) = _
  simp only [hostOps4]
  after_results
  rw [W12_v119, W12_v70, W12_arg25, W12_arg26, W12_arg27, W12_arg28]
  rfl

end Cert.KernelIdeal.Stages

end
-- ==== Proof.LibRows.lean ====
/-
  Rows of a two-dimensional array read through an index column, and one law of finite sums.

  Three things, all over arbitrary extents. (1) A gather of whole rows: for x of shape [N, K] and a column s of
  shape [E, 1] of start indices, element (e, k) of the gathered array is x at row s[e, 0] (read as a signed integer
  and clamped into [0, N − 1]) and column k; and the same for a vector x of shape [N]. (2) A scatter that adds whole
  rows, on the extended reals: for a column d of shape [E, 1] of target rows, element (r, c) of the result is the
  operand's element plus the sum, over the edges e whose target d[e, 0] (read signed, not clamped) is r, of update
  element (e, c); and the same for a vector. (3) Distributivity: summing scaled rows and then multiplying by a matrix
  equals multiplying the rows by the matrix and then summing the scaled products, when all the data are real numbers
  carried into the extended reals.
-/
import Idealize.ShloMosaic.PureOps.Ideal
import Idealize.ShloMosaic.Lib.ValueIdx

noncomputable section

open scoped BigOperators

namespace Cert.LibRows

open Idealize.ShloMosaic Idealize.ShloMosaic.ValueIdx

/-! ## Finite sums of real numbers inside the extended reals -/

/-- The inclusion of the reals in the extended reals carries a finite sum to the sum of the inclusions. -/
theorem coe_sum {ι : Type} (S : Finset ι) (f : ι → ℝ) : ((∑ i ∈ S, f i : ℝ) : EReal) = ∑ i ∈ S, ((f i : ℝ) : EReal) := by
  classical
  induction S using Finset.induction_on with
  | empty => simp
  | insert a s ha ih => rw [Finset.sum_insert ha, Finset.sum_insert ha, EReal.coe_add, ih]

/-- The common real value of the two sides of the law below: Σ_k Σ_{e ∈ S} x[g e, k] · nrm e · W[k, c]. -/
def aggVal {N E K H : Nat} (x : Fin N → Fin K → ℝ) (W : Fin K → Fin H → ℝ) (nrm : Fin E → ℝ) (g : Fin E → Fin N)
    (S : Finset (Fin E)) (c : Fin H) : ℝ :=
  ∑ k : Fin K, (∑ e ∈ S, x (g e) k * nrm e) * W k c

/-- AGGREGATE, THEN MULTIPLY: the sum over k of (0 + Σ_{e ∈ S} x[g e, k] · nrm e) · W[k, c], taken in the extended
    reals over real data, is the real number `aggVal`. -/
theorem agg_then_mul_eq_coe {N E K H : Nat} (x : Fin N → Fin K → ℝ) (W : Fin K → Fin H → ℝ) (nrm : Fin E → ℝ)
    (g : Fin E → Fin N) (S : Finset (Fin E)) (c : Fin H) :
    (∑ k : Fin K, ((0 : EReal) + ∑ e ∈ S, ((x (g e) k : ℝ) : EReal) * ((nrm e : ℝ) : EReal)) * ((W k c : ℝ) : EReal))
      = ((aggVal x W nrm g S c : ℝ) : EReal) := by
  unfold aggVal
  rw [coe_sum]
  refine Finset.sum_congr rfl fun k _ => ?_
  rw [zero_add, EReal.coe_mul, coe_sum]
  refine congrArg (· * ((W k c : ℝ) : EReal)) (Finset.sum_congr rfl fun e _ => ?_)
  rw [EReal.coe_mul]

/-- MULTIPLY, THEN AGGREGATE: 0 + Σ_{e ∈ S} (Σ_k x[g e, k] · W[k, c]) · nrm e, taken in the extended reals over real
    data, is the same real number `aggVal` (exchange the two sums and reorder each product). -/
theorem mul_then_agg_eq_coe {N E K H : Nat} (x : Fin N → Fin K → ℝ) (W : Fin K → Fin H → ℝ) (nrm : Fin E → ℝ)
    (g : Fin E → Fin N) (S : Finset (Fin E)) (c : Fin H) :
    ((0 : EReal) + ∑ e ∈ S, (∑ k : Fin K, ((x (g e) k : ℝ) : EReal) * ((W k c : ℝ) : EReal)) * ((nrm e : ℝ) : EReal))
      = ((aggVal x W nrm g S c : ℝ) : EReal) := by
  have hreal : aggVal x W nrm g S c = ∑ e ∈ S, (∑ k : Fin K, x (g e) k * W k c) * nrm e := by
    unfold aggVal
    simp only [Finset.sum_mul]
    rw [Finset.sum_comm]
    refine Finset.sum_congr rfl fun e _ => Finset.sum_congr rfl fun k _ => ?_
    ring
  rw [hreal, zero_add, coe_sum]
  refine Finset.sum_congr rfl fun e _ => ?_
  rw [EReal.coe_mul, coe_sum]
  refine congrArg (· * ((nrm e : ℝ) : EReal)) (Finset.sum_congr rfl fun k _ => ?_)
  rw [EReal.coe_mul]

/-- THE LAW: aggregating the scaled rows and then multiplying by the matrix W equals multiplying each row by W and
    then aggregating the scaled products — distributivity, valid in the extended reals because every datum is a real
    number. -/
theorem agg_then_mul_eq_mul_then_agg {N E K H : Nat} (x : Fin N → Fin K → ℝ) (W : Fin K → Fin H → ℝ) (nrm : Fin E → ℝ)
    (g : Fin E → Fin N) (S : Finset (Fin E)) (c : Fin H) :
    (∑ k : Fin K, ((0 : EReal) + ∑ e ∈ S, ((x (g e) k : ℝ) : EReal) * ((nrm e : ℝ) : EReal)) * ((W k c : ℝ) : EReal))
      = (0 : EReal) + ∑ e ∈ S, (∑ k : Fin K, ((x (g e) k : ℝ) : EReal) * ((W k c : ℝ) : EReal)) * ((nrm e : ℝ) : EReal) := by
  rw [agg_then_mul_eq_coe, mul_then_agg_eq_coe]

/-- Both sides of the law are (the same) real number carried into the extended reals. -/
theorem agg_then_mul_is_real {N E K H : Nat} (x : Fin N → Fin K → ℝ) (W : Fin K → Fin H → ℝ) (nrm : Fin E → ℝ)
    (g : Fin E → Fin N) (S : Finset (Fin E)) (c : Fin H) :
    ∃ y : ℝ, (∑ k : Fin K, ((0 : EReal) + ∑ e ∈ S, ((x (g e) k : ℝ) : EReal) * ((nrm e : ℝ) : EReal)) * ((W k c : ℝ) : EReal))
      = ((y : ℝ) : EReal) :=
  ⟨aggVal x W nrm g S c, agg_then_mul_eq_coe x W nrm g S c⟩

/-! ## A gather of whole rows, read at an index -/

section Gather
variable {α : Type}

/-- The dimension numbers of a row gather: operand `[N, K]`, start indices a column `[E, 1]`, result `[E, K]`; the
    operand's axis 0 is indexed and collapsed, its axis 1 is copied whole (a slice `1 × K`) to the result's axis 1. Their
    conditions `wf` are decided on a program's literal shapes. -/
abbrev rowGatherDims (N E K : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- The row that edge `e` reads: the start index `idx[e, 0]` read as a signed integer and clamped into `[0, N − 1]`. -/
def rowOf {N E w : Nat} (hN : 0 < N) (idx : IVec ⟨2, ![E, 1]⟩ w) (e : Fin E) : Fin N :=
  ⟨min (idx (ix2 e (0 : Fin 1))).toInt.toNat (N - 1), by omega⟩

/-- THE ROW GATHER READ AT `(e, k)`: the operand at row `rowOf idx e` and column `k`. On axis 0 the operand index is
    the clamped start index (no batching, collapsed so no offset); on axis 1 it is the result's own coordinate `k`
    (not in the start index map, so the start is 0). -/
theorem gather_rows_apply {N E K w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (k : Fin K) :
    Host.gather (rowGatherDims N E K wf) x idx (ix2 e k) = x (ix2 (rowOf hN idx e) k) := by
  unfold Host.gather
  refine congrArg x ?_
  funext a
  refine Fin.ext ?_
  match a with
  | ⟨0, _⟩ =>
    show (rowGatherDims N E K wf).start (ix2 e k) idx 0 + (rowGatherDims N E K wf).batchCoord (ix2 e k) 0
      + (rowGatherDims N E K wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E K wf).startIndexMap from List.mem_singleton.mpr rfl)]
    have hsi : (rowGatherDims N E K wf).siIdx (ix2 e k) ⟨List.idxOf (0 : Fin 2) (rowGatherDims N E K wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E K wf).start (ix2 e k) idx 1 + (rowGatherDims N E K wf).batchCoord (ix2 e k) 1
      + (rowGatherDims N E K wf).offCoord (ix2 e k) 1 = _
    rw [GatherDims.batchCoord_eq_zero _ _ _ List.not_mem_nil]
    have hst : (rowGatherDims N E K wf).start (ix2 e k) idx 1 = 0 := by
      unfold GatherDims.start
      rw [dif_neg (show (1 : Fin 2) ∉ (rowGatherDims N E K wf).startIndexMap from (by decide : (1 : Fin 2) ∉ ([0] : List (Fin 2))))]
    have hoff : (rowGatherDims N E K wf).offCoord (ix2 e k) 1 = k.val := by
      unfold GatherDims.offCoord
      rw [dif_pos ((GatherDims.mem_sKept _ _).mpr ⟨(by decide : (1 : Fin 2) ∉ ([0] : List (Fin 2))), List.not_mem_nil⟩)]
      rfl
    rw [hst, hoff]
    simp

/-- The dimension numbers of the same gather from a vector: operand `[N]`, start indices a column `[E, 1]`, result
    `[E]`; the operand's one axis is indexed and collapsed. Their conditions `wf` are decided on a program's literal
    shapes. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at position `rowOf idx e`, the start index `idx[e, 0]` read signed and
    clamped into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (rowOf hN idx e)) := by
  unfold Host.gather
  refine congrArg x ?_
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## A scatter that adds whole rows, read at an index (on the extended reals) -/

section Scatter

/-- The dimension numbers of a row scatter: operand `[N, K]`, scatter indices a column `[E, 1]`, updates `[E, K]`; the
    scatter index names the operand's axis 0 (an inserted window axis), the updates' axis 1 is the window and goes to the
    operand's axis 1. Their conditions `wf` are decided on a program's literal shapes. -/
abbrev rowScatterDims (N E K : Nat) (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

/-- The edges whose target row is `r`: those `e` whose scatter index `idx[e, 0]`, read as a signed integer and not
    clamped, is `r`. -/
def hits {N E w : Nat} (idx : IVec ⟨2, ![E, 1]⟩ w) (r : Fin N) : Finset (Fin E) :=
  Finset.univ.filter fun e => (idx (ix2 e (0 : Fin 1))).toInt = (r.val : Int)

/-- Where update element `(e, k)` of a row scatter lands: at `(r, c)` exactly when the scatter index `idx[e, 0]`, read
    signed, is `r`, and `k = c`. (On axis 0 the result index is the start index, the window coordinate being 0 on an
    inserted axis; on axis 1 the start is 0 and the window coordinate is `k`.) -/
theorem resultIdx?_rows_eq_some_iff {N E K w : Nat} (wf : ScatterDims.WF ⟨2, ![N, K]⟩ ⟨2, ![E, 1]⟩ ⟨2, ![E, K]⟩ [1] [0] [0] 1)
    (idx : IVec ⟨2, ![E, 1]⟩ w) (e : Fin E) (k : Fin K) (r : Fin N) (c : Fin K) :
    (rowScatterDims N E K wf).resultIdx? (ix2 e k) idx = some (ix2 r c)
      ↔ (idx (ix2 e (0 : Fin 1))).toInt = (r.val : Int) ∧ k = c := by
  have hs0 : (rowScatterDims N E K wf).start (ix2 e k) idx 0 = (idx (ix2 e (0 : Fin 1))).toInt := by
    unfold ScatterDims.start
    rw [dif_pos (show (0 : Fin 2) ∈ (rowScatterDims N E K wf).scatterDimsToOperandDims from List.mem_singleton.mpr rfl)]
    have hsi : (rowScatterDims N E K wf).siIdx (ix2 e k) ⟨List.idxOf (0 : Fin 2) (rowScatterDims N E K wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatterDims N E K wf).start (ix2 e k) idx 1 = 0 := by
    unfold ScatterDims.start
    rw [dif_neg (show (1 : Fin 2) ∉ (rowScatterDims N E K wf).scatterDimsToOperandDims from
      (by decide : (1 : Fin 2) ∉ ([0] : List (Fin 2))))]
  have hw0 : (rowScatterDims N E K wf).window (ix2 e k) 0 = 0 := by
    unfold ScatterDims.window
    rw [dif_neg (show (0 : Fin 2) ∉ (rowScatterDims N E K wf).sKept from
      (by decide : (0 : Fin 2) ∉ (List.finRange 2).filter (· ∉ ([0] : List (Fin 2)))))]
  have hw1 : (rowScatterDims N E K wf).window (ix2 e k) 1 = k.val := by
    unfold ScatterDims.window
    rw [dif_pos (show (1 : Fin 2) ∈ (rowScatterDims N E K wf).sKept from
      (by decide : (1 : Fin 2) ∈ (List.finRange 2).filter (· ∉ ([0] : List (Fin 2)))))]
    rfl
  unfold ScatterDims.resultIdx?
  constructor
  · intro h
    split at h
    · rename_i hall
      have hf := Option.some.inj h
      have h0 : ((rowScatterDims N E K wf).start (ix2 e k) idx 0 + ((rowScatterDims N E K wf).window (ix2 e k) 0 : Int)).toNat = r.val :=
        congrArg (fun f => (f 0).val) hf
      have h1 : ((rowScatterDims N E K wf).start (ix2 e k) idx 1 + ((rowScatterDims N E K wf).window (ix2 e k) 1 : Int)).toNat = c.val :=
        congrArg (fun f => (f 1).val) hf
      have hp := (hall 0).1
      rw [hs0, hw0] at h0 hp
      rw [hs1, hw1] at h1
      exact ⟨by omega, Fin.ext (by omega)⟩
    · exact absurd h (by simp)
  · rintro ⟨ht, rfl⟩
    have hall : ∀ a : Fin 2, 0 ≤ (rowScatterDims N E K wf).start (ix2 e k) idx a + ((rowScatterDims N E K wf).window (ix2 e k) a : Int) ∧
        (rowScatterDims N E K wf).start (ix2 e k) idx a + ((rowScatterDims N E K wf).window (ix2 e k) a : Int)
          < (((⟨2, ![N, K]⟩ : Shape).size a : Nat) : Int) := by
      intro a
      match a with
      | ⟨0, _⟩ =>
        show 0 ≤ (rowScatterDims N E K wf).start (ix2 e k) idx 0 + ((rowScatterDims N E K wf).window (ix2 e k) 0 : Int) ∧
          (rowScatterDims N E K wf).start (ix2 e k) idx 0 + ((rowScatterDims N E K wf).window (ix2 e k) 0 : Int) < ((N : Nat) : Int)
        rw [hs0, hw0, ht]
        have := r.isLt
        omega
      | ⟨1, _⟩ =>
        show 0 ≤ (rowScatterDims N E K wf).start (ix2 e k) idx 1 + ((rowScatterDims N E K wf).window (ix2 e k) 1 : Int) ∧
          (rowScatterDims N E K wf).start (ix2 e k) idx 1 + ((rowScatterDims N E K wf).window (ix2 e k) 1 : Int) < ((K : Nat) : Int)
        rw [hs1, hw1]
        have := k.isLt
        omega
    rw [dif_pos hall]
    refine congrArg some ?_
    funext a
    refine Fin.ext ?_
    match a with
    | ⟨0, _⟩ =>
      show ((rowScatterDims N E K wf).start (ix2 e k) idx 0 + ((rowScatterDims N E K wf).window (ix2 e k) 0 : Int)).toNat = r.val
      rw [hs0, hw0, ht]
      omega
    | ⟨1, _⟩ =>
      show ((rowScatterDims N E K wf).start (ix2 e k) idx 1 + ((rowScatterDims N E K wf).window (ix2 e k) 1 : Int)).toNat = k.val
      rw [hs1, hw1]
      omega

/-- THE ROW SCATTER-ADD READ AT `(r, c)`: the operand's element plus the sum, over the edges whose target row is `r`, of
    the updates' element in column `c`. (Update element `(e, k)` lands at `(r, c)` exactly when edge `e` targets row `r` and
    `k = c`; an edge whose index is outside `[0, N − 1]` lands nowhere.) -/
theorem scatterAdd_rows_apply {N E K w : Nat} {φ : FTy} (wf : ScatterDims.WF ⟨2, ![N, K]⟩ ⟨2, ![E, 1]⟩ ⟨2, ![E, K]⟩ [1] [0] [0] 1)
    (x : (⟨2, ![N, K]⟩ : Shape).Idx → EReal) (idx : IVec ⟨2, ![E, 1]⟩ w) (upd : (⟨2, ![E, K]⟩ : Shape).Idx → EReal)
    (r : Fin N) (c : Fin K) :
    Host.scatterAdd (F := Ideal) (φ := φ) (rowScatterDims N E K wf) x idx upd (ix2 r c)
      = x (ix2 r c) + ∑ e ∈ hits idx r, upd (ix2 e c) := by
  unfold Host.scatterAdd
  rw [Ideal.hostScatterAdd_def]
  unfold Ideal.hostScatterAdd
  refine congrArg (x (ix2 r c) + ·) ?_
  rw [Finset.sum_filter, sum_idx2]
  simp only [resultIdx?_rows_eq_some_iff]
  unfold hits
  rw [Finset.sum_filter]
  refine Finset.sum_congr rfl fun a _ => ?_
  by_cases h : (idx (ix2 a (0 : Fin 1))).toInt = (r.val : Int)
  · simp [h]
  · simp [h]

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of the same scatter into a vector: operand `[N]`, scatter indices a column `[E, 1]`, updates
    `[E]`; the scatter index names the operand's one axis and there is no window. Their conditions `wf` are decided on a
    program's literal shapes. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Where update element `e` of a vector scatter lands: at `r` exactly when the scatter index `idx[e, 0]`, read signed, is
    `r`. -/
theorem resultIdx?_vec_eq_some_iff {N E w : Nat} (wf : ScatterDims.WF ⟨1, ![N]⟩ ⟨2, ![E, 1]⟩ ⟨1, ![E]⟩ [] [0] [0] 1)
    (idx : IVec ⟨2, ![E, 1]⟩ w) (e : Fin E) (r : Fin N) :
    (vecScatterDims N E wf).resultIdx? (ix1 e) idx = some (ix1 r) ↔ (idx (ix2 e (0 : Fin 1))).toInt = (r.val : Int) := by
  have hs0 : (vecScatterDims N E wf).start (ix1 e) idx 0 = (idx (ix2 e (0 : Fin 1))).toInt := by
    unfold ScatterDims.start
    rw [dif_pos (show (0 : Fin 1) ∈ (vecScatterDims N E wf).scatterDimsToOperandDims from List.mem_singleton.mpr rfl)]
    have hsi : (vecScatterDims N E wf).siIdx (ix1 e) ⟨List.idxOf (0 : Fin 1) (vecScatterDims N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (vecScatterDims N E wf).window (ix1 e) 0 = 0 := by
    unfold ScatterDims.window
    rw [dif_neg (show (0 : Fin 1) ∉ (vecScatterDims N E wf).sKept from
      (by decide : (0 : Fin 1) ∉ (List.finRange 1).filter (· ∉ ([0] : List (Fin 1)))))]
  unfold ScatterDims.resultIdx?
  constructor
  · intro h
    split at h
    · rename_i hall
      have hf := Option.some.inj h
      have h0 : ((vecScatterDims N E wf).start (ix1 e) idx 0 + ((vecScatterDims N E wf).window (ix1 e) 0 : Int)).toNat = r.val :=
        congrArg (fun f => (f 0).val) hf
      have hp := (hall 0).1
      rw [hs0, hw0] at h0 hp
      omega
    · exact absurd h (by simp)
  · intro ht
    have hall : ∀ a : Fin 1, 0 ≤ (vecScatterDims N E wf).start (ix1 e) idx a + ((vecScatterDims N E wf).window (ix1 e) a : Int) ∧
        (vecScatterDims N E wf).start (ix1 e) idx a + ((vecScatterDims N E wf).window (ix1 e) a : Int)
          < (((⟨1, ![N]⟩ : Shape).size a : Nat) : Int) := by
      intro a
      obtain rfl : a = 0 := Subsingleton.elim _ _
      show 0 ≤ (vecScatterDims N E wf).start (ix1 e) idx 0 + ((vecScatterDims N E wf).window (ix1 e) 0 : Int) ∧
        (vecScatterDims N E wf).start (ix1 e) idx 0 + ((vecScatterDims N E wf).window (ix1 e) 0 : Int) < ((N : Nat) : Int)
      rw [hs0, hw0, ht]
      have := r.isLt
      omega
    rw [dif_pos hall]
    refine congrArg some ?_
    funext a
    obtain rfl : a = 0 := Subsingleton.elim _ _
    refine Fin.ext ?_
    show ((vecScatterDims N E wf).start (ix1 e) idx 0 + ((vecScatterDims N E wf).window (ix1 e) 0 : Int)).toNat = r.val
    rw [hs0, hw0, ht]
    omega

/-- THE VECTOR SCATTER-ADD READ AT `r`: the operand's element plus the sum of the updates of the edges whose target is
    `r`. -/
theorem scatterAdd_vec_apply {N E w : Nat} {φ : FTy} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (r : Fin N) :
    Host.scatterAdd (F := Ideal) (φ := φ) (vecScatterDims N E wf) x idx upd (ix1 r)
      = x (ix1 r) + ∑ e ∈ hits idx r, upd (ix1 e) := by
  unfold Host.scatterAdd
  rw [Ideal.hostScatterAdd_def]
  unfold Ideal.hostScatterAdd
  refine congrArg (x (ix1 r) + ·) ?_
  rw [Finset.sum_filter, sum_idx1]
  simp only [resultIdx?_vec_eq_some_iff]
  unfold hits
  rw [Finset.sum_filter]

end Scatter

/-! ## The layer: aggregate-then-multiply against multiply-then-aggregate, on scatters of gathered rows -/

section Layer

/-- The inclusion of the reals carries a maximum to the maximum of the inclusions. -/
theorem coe_max (a b : ℝ) : ((max a b : ℝ) : EReal) = max ((a : ℝ) : EReal) ((b : ℝ) : EReal) :=
  EReal.coe_strictMono.monotone.map_max

/-- The inner sums of the two layers agree: Σ_k (row r, column k of the scatter of the scaled gathered rows) · W[k, c] is
    row r, column c of the scatter of the scaled gathered rows already multiplied by W — for real x, W and edge factors,
    zero initial arrays, and updates given pointwise. -/
theorem agg_mul_eq {N E K H w : Nat} {φ : FTy} (hN : 0 < N)
    (wfsK : ScatterDims.WF ⟨2, ![N, K]⟩ ⟨2, ![E, 1]⟩ ⟨2, ![E, K]⟩ [1] [0] [0] 1)
    (wfsH : ScatterDims.WF ⟨2, ![N, H]⟩ ⟨2, ![E, 1]⟩ ⟨2, ![E, H]⟩ [1] [0] [0] 1)
    (x : (⟨2, ![N, K]⟩ : Shape).Idx → EReal) (W : (⟨2, ![K, H]⟩ : Shape).Idx → EReal)
    (scol dcol : IVec ⟨2, ![E, 1]⟩ w) (ncol : Fin E → EReal)
    (zK : (⟨2, ![N, K]⟩ : Shape).Idx → EReal) (zH : (⟨2, ![N, H]⟩ : Shape).Idx → EReal)
    (uK : (⟨2, ![E, K]⟩ : Shape).Idx → EReal) (uH : (⟨2, ![E, H]⟩ : Shape).Idx → EReal)
    (hzK : ∀ i, zK i = 0) (hzH : ∀ i, zH i = 0)
    (huK : ∀ e k, uK (ix2 e k) = x (ix2 (rowOf hN scol e) k) * ncol e)
    (huH : ∀ e c, uH (ix2 e c) = (∑ k : Fin K, x (ix2 (rowOf hN scol e) k) * W (ix2 k c)) * ncol e)
    (hx : ∀ i, ∃ r : ℝ, x i = (r : EReal)) (hW : ∀ i, ∃ r : ℝ, W i = (r : EReal)) (hn : ∀ e, ∃ r : ℝ, ncol e = (r : EReal))
    (r : Fin N) (c : Fin H) :
    (∑ k : Fin K, Host.scatterAdd (F := Ideal) (φ := φ) (rowScatterDims N E K wfsK) zK dcol uK (ix2 r k) * W (ix2 k c))
      = Host.scatterAdd (F := Ideal) (φ := φ) (rowScatterDims N E H wfsH) zH dcol uH (ix2 r c) := by
  choose xr hxr using hx
  choose Wr hWr using hW
  choose nr hnr using hn
  simp only [scatterAdd_rows_apply, hzK, hzH, huK, huH, hxr, hWr, hnr]
  exact agg_then_mul_eq_mul_then_agg (fun n k => xr (ix2 n k)) (fun k c => Wr (ix2 k c)) nr (rowOf hN scol)
    (hits dcol r) c

/-- THE LAYER LAW: relu(aggregate(x) · W + b) at (r, c) equals relu(aggregate(x · W) + b) at (r, c), where
    aggregate scatter-adds, into a zero array at the target rows `dcol`, the rows gathered at `scol` and scaled by the edge
    factors `ncol`; x, W and the edge factors real. (The bias b is arbitrary.) -/
theorem dense_agg_eq {N E K H w : Nat} {φ : FTy} (hN : 0 < N)
    (wfsK : ScatterDims.WF ⟨2, ![N, K]⟩ ⟨2, ![E, 1]⟩ ⟨2, ![E, K]⟩ [1] [0] [0] 1)
    (wfsH : ScatterDims.WF ⟨2, ![N, H]⟩ ⟨2, ![E, 1]⟩ ⟨2, ![E, H]⟩ [1] [0] [0] 1)
    (x : (⟨2, ![N, K]⟩ : Shape).Idx → EReal) (W : (⟨2, ![K, H]⟩ : Shape).Idx → EReal)
    (b : (⟨2, ![1, H]⟩ : Shape).Idx → EReal) (scol dcol : IVec ⟨2, ![E, 1]⟩ w) (ncol : Fin E → EReal)
    (zK : (⟨2, ![N, K]⟩ : Shape).Idx → EReal) (zH : (⟨2, ![N, H]⟩ : Shape).Idx → EReal)
    (uK : (⟨2, ![E, K]⟩ : Shape).Idx → EReal) (uH : (⟨2, ![E, H]⟩ : Shape).Idx → EReal)
    (hzK : ∀ i, zK i = 0) (hzH : ∀ i, zH i = 0)
    (huK : ∀ e k, uK (ix2 e k) = x (ix2 (rowOf hN scol e) k) * ncol e)
    (huH : ∀ e c, uH (ix2 e c) = (∑ k : Fin K, x (ix2 (rowOf hN scol e) k) * W (ix2 k c)) * ncol e)
    (hx : ∀ i, ∃ r : ℝ, x i = (r : EReal)) (hW : ∀ i, ∃ r : ℝ, W i = (r : EReal)) (hn : ∀ e, ∃ r : ℝ, ncol e = (r : EReal))
    (r : Fin N) (c : Fin H) :
    max ((∑ k : Fin K, Host.scatterAdd (F := Ideal) (φ := φ) (rowScatterDims N E K wfsK) zK dcol uK (ix2 r k) * W (ix2 k c))
        + b (ix2 (0 : Fin 1) c)) 0
      = max (Host.scatterAdd (F := Ideal) (φ := φ) (rowScatterDims N E H wfsH) zH dcol uH (ix2 r c) + b (ix2 (0 : Fin 1) c)) 0 := by
  rw [agg_mul_eq hN wfsK wfsH x W scol dcol ncol zK zH uK uH hzK hzH huK huH hx hW hn r c]

/-- The aggregate-then-multiply inner sum is a real number. -/
theorem agg_mul_real {N E K H w : Nat} {φ : FTy} (hN : 0 < N)
    (wfsK : ScatterDims.WF ⟨2, ![N, K]⟩ ⟨2, ![E, 1]⟩ ⟨2, ![E, K]⟩ [1] [0] [0] 1)
    (x : (⟨2, ![N, K]⟩ : Shape).Idx → EReal) (W : (⟨2, ![K, H]⟩ : Shape).Idx → EReal)
    (scol dcol : IVec ⟨2, ![E, 1]⟩ w) (ncol : Fin E → EReal)
    (zK : (⟨2, ![N, K]⟩ : Shape).Idx → EReal) (uK : (⟨2, ![E, K]⟩ : Shape).Idx → EReal)
    (hzK : ∀ i, zK i = 0)
    (huK : ∀ e k, uK (ix2 e k) = x (ix2 (rowOf hN scol e) k) * ncol e)
    (hx : ∀ i, ∃ r : ℝ, x i = (r : EReal)) (hW : ∀ i, ∃ r : ℝ, W i = (r : EReal)) (hn : ∀ e, ∃ r : ℝ, ncol e = (r : EReal))
    (r : Fin N) (c : Fin H) :
    ∃ y : ℝ, (∑ k : Fin K, Host.scatterAdd (F := Ideal) (φ := φ) (rowScatterDims N E K wfsK) zK dcol uK (ix2 r k) * W (ix2 k c))
      = (y : EReal) := by
  choose xr hxr using hx
  choose Wr hWr using hW
  choose nr hnr using hn
  simp only [scatterAdd_rows_apply, hzK, huK, hxr, hWr, hnr]
  exact agg_then_mul_is_real (fun n k => xr (ix2 n k)) (fun k c => Wr (ix2 k c)) nr (rowOf hN scol) (hits dcol r) c

/-- The layer's value is a real number when the bias is real too. -/
theorem dense_agg_real {N E K H w : Nat} {φ : FTy} (hN : 0 < N)
    (wfsK : ScatterDims.WF ⟨2, ![N, K]⟩ ⟨2, ![E, 1]⟩ ⟨2, ![E, K]⟩ [1] [0] [0] 1)
    (x : (⟨2, ![N, K]⟩ : Shape).Idx → EReal) (W : (⟨2, ![K, H]⟩ : Shape).Idx → EReal)
    (b : (⟨2, ![1, H]⟩ : Shape).Idx → EReal) (scol dcol : IVec ⟨2, ![E, 1]⟩ w) (ncol : Fin E → EReal)
    (zK : (⟨2, ![N, K]⟩ : Shape).Idx → EReal) (uK : (⟨2, ![E, K]⟩ : Shape).Idx → EReal)
    (hzK : ∀ i, zK i = 0)
    (huK : ∀ e k, uK (ix2 e k) = x (ix2 (rowOf hN scol e) k) * ncol e)
    (hx : ∀ i, ∃ r : ℝ, x i = (r : EReal)) (hW : ∀ i, ∃ r : ℝ, W i = (r : EReal)) (hn : ∀ e, ∃ r : ℝ, ncol e = (r : EReal))
    (hb : ∀ i, ∃ r : ℝ, b i = (r : EReal)) (r : Fin N) (c : Fin H) :
    ∃ y : ℝ, max ((∑ k : Fin K, Host.scatterAdd (F := Ideal) (φ := φ) (rowScatterDims N E K wfsK) zK dcol uK (ix2 r k) * W (ix2 k c))
        + b (ix2 (0 : Fin 1) c)) 0 = (y : EReal) := by
  obtain ⟨a, ha⟩ := agg_mul_real (φ := φ) hN wfsK x W scol dcol ncol zK uK hzK huK hx hW hn r c
  obtain ⟨β, hβ⟩ := hb (ix2 (0 : Fin 1) c)
  refine ⟨max (a + β) 0, ?_⟩
  rw [ha, hβ, coe_max, EReal.coe_add, EReal.coe_zero]

end Layer

/-! ## The degree vector, its inverse square root, and the edge factor -/

section Degree

/-- The degree of node `r`: a scatter-add of ones into a zero vector at the target column counts the edges whose target
    is `r`. -/
theorem deg_eq_card {N E w : Nat} {φ : FTy} (wfs : ScatterDims.WF ⟨1, ![N]⟩ ⟨2, ![E, 1]⟩ ⟨1, ![E]⟩ [] [0] [0] 1)
    (z : (⟨1, ![N]⟩ : Shape).Idx → EReal) (ones : (⟨1, ![E]⟩ : Shape).Idx → EReal) (dcol : IVec ⟨2, ![E, 1]⟩ w)
    (hz : ∀ i, z i = 0) (hone : ∀ e, ones e = 1) (r : Fin N) :
    Host.scatterAdd (F := Ideal) (φ := φ) (vecScatterDims N E wfs) z dcol ones (ix1 r)
      = ((((hits dcol r).card : ℕ) : ℝ) : EReal) := by
  rw [scatterAdd_vec_apply, hz, zero_add]
  simp only [hone]
  rw [← EReal.coe_one, ← coe_sum]
  simp

/-- The inverse square root of a positive count is a real number. -/
theorem rsqrt_natCast_real {n : ℕ} (hn : 0 < n) : ∃ y : ℝ, Ideal.rsqrt (((n : ℝ)) : EReal) = (y : EReal) := by
  have hpos : (0 : ℝ) < (n : ℝ) := Nat.cast_pos.mpr hn
  refine ⟨(Real.sqrt (n : ℝ))⁻¹, ?_⟩
  rw [Ideal.rsqrt_coe, if_neg (not_lt.mpr hpos.le), if_neg hpos.ne']

/-- THE INVERSE SQUARE ROOT OF THE DEGREE IS A REAL NUMBER at every node that is the target of at least one edge (a
    positive count has a real inverse square root). -/
theorem deg_rsqrt_real {N E w : Nat} {φ : FTy} (wfs : ScatterDims.WF ⟨1, ![N]⟩ ⟨2, ![E, 1]⟩ ⟨1, ![E]⟩ [] [0] [0] 1)
    (z : (⟨1, ![N]⟩ : Shape).Idx → EReal) (ones : (⟨1, ![E]⟩ : Shape).Idx → EReal) (dcol : IVec ⟨2, ![E, 1]⟩ w)
    (hz : ∀ i, z i = 0) (hone : ∀ e, ones e = 1)
    (hself : ∀ r : Fin N, ∃ e : Fin E, (dcol (ix2 e (0 : Fin 1))).toInt = (r.val : Int)) (r : Fin N) :
    ∃ y : ℝ, Ideal.rsqrt (Host.scatterAdd (F := Ideal) (φ := φ) (vecScatterDims N E wfs) z dcol ones (ix1 r)) = (y : EReal) := by
  rw [deg_eq_card wfs z ones dcol hz hone r]
  obtain ⟨e, he⟩ := hself r
  exact rsqrt_natCast_real (Finset.card_pos.mpr ⟨e, Finset.mem_filter.mpr ⟨Finset.mem_univ e, he⟩⟩)

/-- The same over the host's elementwise inverse square root of the whole degree vector. -/
theorem deg_hostRsqrt_real {N E w : Nat} {φ : FTy} (wfs : ScatterDims.WF ⟨1, ![N]⟩ ⟨2, ![E, 1]⟩ ⟨1, ![E]⟩ [] [0] [0] 1)
    (z : (⟨1, ![N]⟩ : Shape).Idx → EReal) (ones : (⟨1, ![E]⟩ : Shape).Idx → EReal) (dcol : IVec ⟨2, ![E, 1]⟩ w)
    (hz : ∀ i, z i = 0) (hone : ∀ e, ones e = 1)
    (hself : ∀ r : Fin N, ∃ e : Fin E, (dcol (ix2 e (0 : Fin 1))).toInt = (r.val : Int)) (r : Fin N) :
    ∃ y : ℝ, (Host.rsqrt (F := Ideal) (φ := φ) (Host.scatterAdd (F := Ideal) (φ := φ) (vecScatterDims N E wfs) z dcol ones)
      : (⟨1, ![N]⟩ : Shape).Idx → EReal) (ix1 r) = (y : EReal) :=
  deg_rsqrt_real (φ := φ) wfs z ones dcol hz hone hself r

/-- A vector of real numbers gathered at two index columns and multiplied elementwise gives real numbers. -/
theorem gather_mul_real {N E w : Nat} (hN : 0 < N)
    (wfg : GatherDims.WF ⟨1, ![N]⟩ ⟨2, ![E, 1]⟩ ⟨1, ![E]⟩ [] [0] [] [0] [] 1 ![1])
    (v : (⟨1, ![N]⟩ : Shape).Idx → EReal) (hv : ∀ r : Fin N, ∃ y : ℝ, v (ix1 r) = (y : EReal))
    (s1 s2 : IVec ⟨2, ![E, 1]⟩ w) (e : Fin E) :
    ∃ y : ℝ, Host.gather (vecGatherDims N E wfg) v s1 (ix1 e) * Host.gather (vecGatherDims N E wfg) v s2 (ix1 e) = (y : EReal) := by
  rw [gather_vec_apply hN, gather_vec_apply hN]
  obtain ⟨y1, h1⟩ := hv (rowOf hN s1 e)
  obtain ⟨y2, h2⟩ := hv (rowOf hN s2 e)
  exact ⟨y1 * y2, by rw [h1, h2, EReal.coe_mul]⟩

/-- THE EDGE FACTOR IS A REAL NUMBER: the inverse square root of the degree vector, gathered at two index columns and
    multiplied, when every node is the target of at least one edge. -/
theorem norm_real {N E w : Nat} {φ : FTy} (hN : 0 < N)
    (wfs : ScatterDims.WF ⟨1, ![N]⟩ ⟨2, ![E, 1]⟩ ⟨1, ![E]⟩ [] [0] [0] 1)
    (wfg : GatherDims.WF ⟨1, ![N]⟩ ⟨2, ![E, 1]⟩ ⟨1, ![E]⟩ [] [0] [] [0] [] 1 ![1])
    (z : (⟨1, ![N]⟩ : Shape).Idx → EReal) (ones : (⟨1, ![E]⟩ : Shape).Idx → EReal) (dcol : IVec ⟨2, ![E, 1]⟩ w)
    (hz : ∀ i, z i = 0) (hone : ∀ e, ones e = 1)
    (hself : ∀ r : Fin N, ∃ e : Fin E, (dcol (ix2 e (0 : Fin 1))).toInt = (r.val : Int))
    (s1 s2 : IVec ⟨2, ![E, 1]⟩ w) (e : Fin E) :
    ∃ y : ℝ,
      Host.gather (vecGatherDims N E wfg)
          (Host.rsqrt (F := Ideal) (φ := φ) (Host.scatterAdd (F := Ideal) (φ := φ) (vecScatterDims N E wfs) z dcol ones)) s1 (ix1 e)
        * Host.gather (vecGatherDims N E wfg)
          (Host.rsqrt (F := Ideal) (φ := φ) (Host.scatterAdd (F := Ideal) (φ := φ) (vecScatterDims N E wfs) z dcol ones)) s2 (ix1 e)
        = (y : EReal) :=
  gather_mul_real hN wfg _ (deg_hostRsqrt_real (φ := φ) wfs z ones dcol hz hone hself) s1 s2 e

end Degree

end Cert.LibRows

end
-- ==== Proof.LayerLaw.lean ====
/-
  The four graph-convolution layers: the idealized kernel aggregates the gathered, scaled rows and then applies the dense
  layer; the reference applies the matrix first, then gathers, scales, aggregates, adds the bias and cuts at 0. For real
  features, weights and edge factors the two agree entry by entry, and the common value is a real number when the bias is.
-/
import proofs.«178620_j32633161515065_1_alg».proof.Proof.LibRows
import proofs.«178620_j32633161515065_1_alg».proof.Proof.Spec
import proofs.«178620_j32633161515065_1_alg».proof.Proof.AggForms
import proofs.«178620_j32633161515065_1_alg».proof.Proof.RefRead

noncomputable section

open scoped BigOperators

namespace Cert.LayerLaw

open Cert.KernelIdeal Cert.KernelIdeal.Gen Idealize.ShloMosaic Idealize.ShloMosaic.ValueIdx Cert.LibRows
open Cert.ReferenceIdeal.ReadP

/-! ## The layer law over arbitrary extents, on the operations as the two programs write them -/

/-- A column `[E, 1]` broadcast along a second axis reads, at `(e, k)`, the column's entry `e`. -/
theorem bcastCol_apply {α : Type} {E K : Nat} (hb : (⟨2, ![E, 1]⟩ : Shape).BroadcastsInDim ⟨2, ![E, K]⟩ ![0, 1])
    (v : (⟨2, ![E, 1]⟩ : Shape).Idx → α) (e : Fin E) (k : Fin K) :
    broadcastInDim ⟨2, ![E, K]⟩ ![0, 1] hb v (ix2 e k) = v (ix2 e (0 : Fin 1)) :=
  broadcastInDim_apply _ hb v (ix2 e k) (ix2 e (0 : Fin 1)) (fun a => match a with
    | ⟨0, _⟩ => by
      show e.val = if E = 1 then 0 else e.val
      split
      · have := e.isLt; omega
      · rfl
    | ⟨1, _⟩ => by show 0 = if (1 : Nat) = 1 then 0 else k.val; rw [if_pos rfl])

/-- THE LAYER LAW ON THE PROGRAMS' OPERATIONS: relu(aggregate(x) · W + b) — the dense layer of the scatter-add, at the
    target rows, of the gathered rows of x scaled by the broadcast edge-factor column — equals the elementwise
    max(aggregate(xw) + bb, zz), where xw is x · W entry by entry, bb repeats the bias row b on every row and zz is zero;
    x, W and the edge factors real, the two initial arrays zero. -/
theorem layer_general {N E K H w : Nat} {φ : FTy} (hN : 0 < N)
    (wfsK : ScatterDims.WF ⟨2, ![N, K]⟩ ⟨2, ![E, 1]⟩ ⟨2, ![E, K]⟩ [1] [0] [0] 1)
    (wfsH : ScatterDims.WF ⟨2, ![N, H]⟩ ⟨2, ![E, 1]⟩ ⟨2, ![E, H]⟩ [1] [0] [0] 1)
    (wfgK : GatherDims.WF ⟨2, ![N, K]⟩ ⟨2, ![E, 1]⟩ ⟨2, ![E, K]⟩ [1] [0] [] [0] [] 1 ![1, K])
    (wfgH : GatherDims.WF ⟨2, ![N, H]⟩ ⟨2, ![E, 1]⟩ ⟨2, ![E, H]⟩ [1] [0] [] [0] [] 1 ![1, H])
    (hbK : (⟨2, ![E, 1]⟩ : Shape).BroadcastsInDim ⟨2, ![E, K]⟩ ![0, 1])
    (hbH : (⟨2, ![E, 1]⟩ : Shape).BroadcastsInDim ⟨2, ![E, H]⟩ ![0, 1])
    (x : FVec Ideal ⟨2, ![N, K]⟩ φ) (W : FVec Ideal ⟨2, ![K, H]⟩ φ) (xw : FVec Ideal ⟨2, ![N, H]⟩ φ)
    (b : FVec Ideal ⟨2, ![1, H]⟩ φ) (bb zz : FVec Ideal ⟨2, ![N, H]⟩ φ)
    (scol dcol : IVec ⟨2, ![E, 1]⟩ w) (ncolv : FVec Ideal ⟨2, ![E, 1]⟩ φ)
    (zK : FVec Ideal ⟨2, ![N, K]⟩ φ) (zH : FVec Ideal ⟨2, ![N, H]⟩ φ)
    (hzK : ∀ i, zK i = 0) (hzH : ∀ i, zH i = 0) (hzz : ∀ i, zz i = 0)
    (hbb : ∀ (r : Fin N) (c : Fin H), bb (ix2 r c) = b (ix2 (0 : Fin 1) c))
    (hxw : ∀ (n : Fin N) (c : Fin H), xw (ix2 n c) = ∑ k : Fin K, x (ix2 n k) * W (ix2 k c))
    (hx : ∀ i, ∃ r : ℝ, x i = (r : EReal)) (hW : ∀ i, ∃ r : ℝ, W i = (r : EReal))
    (hn : ∀ i, ∃ r : ℝ, ncolv i = (r : EReal)) :
    Cert.Spec.dense
        (Host.scatterAdd (F := Ideal) (φ := φ) (rowScatterDims N E K wfsK) zK dcol
          (mulf (F := Ideal) (Host.gather (rowGatherDims N E K wfgK) x scol) (broadcastInDim ⟨2, ![E, K]⟩ ![0, 1] hbK ncolv)))
        W b
      = maximumf (F := Ideal) (addf (F := Ideal)
          (Host.scatterAdd (F := Ideal) (φ := φ) (rowScatterDims N E H wfsH) zH dcol
            (mulf (F := Ideal) (Host.gather (rowGatherDims N E H wfgH) xw scol) (broadcastInDim ⟨2, ![E, H]⟩ ![0, 1] hbH ncolv)))
          bb) zz := by
  funext j
  obtain ⟨r, c, rfl⟩ : ∃ (r : Fin N) (c : Fin H), j = ix2 r c := ⟨j 0, j 1, eq_ix2 j⟩
  rw [Cert.Spec.dense_apply, maximumf_apply, addf_apply, hbb, hzz]
  exact dense_agg_eq (φ := φ) hN wfsK wfsH x W b scol dcol (fun e => ncolv (ix2 e (0 : Fin 1))) zK zH _ _ hzK hzH
    (fun e k => by rw [mulf_apply, gather_rows_apply hN, bcastCol_apply])
    (fun e c => by rw [mulf_apply, gather_rows_apply hN, bcastCol_apply, hxw])
    hx hW (fun e => hn _) r c

/-- The left side of the layer law is a real number at every index when the bias is real too. -/
theorem layer_general_real {N E K H w : Nat} {φ : FTy} (hN : 0 < N)
    (wfsK : ScatterDims.WF ⟨2, ![N, K]⟩ ⟨2, ![E, 1]⟩ ⟨2, ![E, K]⟩ [1] [0] [0] 1)
    (wfgK : GatherDims.WF ⟨2, ![N, K]⟩ ⟨2, ![E, 1]⟩ ⟨2, ![E, K]⟩ [1] [0] [] [0] [] 1 ![1, K])
    (hbK : (⟨2, ![E, 1]⟩ : Shape).BroadcastsInDim ⟨2, ![E, K]⟩ ![0, 1])
    (x : FVec Ideal ⟨2, ![N, K]⟩ φ) (W : FVec Ideal ⟨2, ![K, H]⟩ φ) (b : FVec Ideal ⟨2, ![1, H]⟩ φ)
    (scol dcol : IVec ⟨2, ![E, 1]⟩ w) (ncolv : FVec Ideal ⟨2, ![E, 1]⟩ φ) (zK : FVec Ideal ⟨2, ![N, K]⟩ φ)
    (hzK : ∀ i, zK i = 0)
    (hx : ∀ i, ∃ r : ℝ, x i = (r : EReal)) (hW : ∀ i, ∃ r : ℝ, W i = (r : EReal))
    (hn : ∀ i, ∃ r : ℝ, ncolv i = (r : EReal)) (hb : ∀ i, ∃ r : ℝ, b i = (r : EReal))
    (j : (⟨2, ![N, H]⟩ : Shape).Idx) :
    ∃ y : ℝ, Cert.Spec.dense
        (Host.scatterAdd (F := Ideal) (φ := φ) (rowScatterDims N E K wfsK) zK dcol
          (mulf (F := Ideal) (Host.gather (rowGatherDims N E K wfgK) x scol) (broadcastInDim ⟨2, ![E, K]⟩ ![0, 1] hbK ncolv)))
        W b j = (y : EReal) := by
  obtain ⟨r, c, rfl⟩ : ∃ (r : Fin N) (c : Fin H), j = ix2 r c := ⟨j 0, j 1, eq_ix2 j⟩
  rw [Cert.Spec.dense_apply]
  exact dense_agg_real (φ := φ) hN wfsK x W b scol dcol (fun e => ncolv (ix2 e (0 : Fin 1))) zK _ hzK
    (fun e k => by rw [mulf_apply, gather_rows_apply hN, bcastCol_apply])
    hx hW (fun e => hn _) hb r c

/-! ## Readings shared by the four layers -/

/-- A scalar zero broadcast to any shape is zero everywhere. -/
theorem zeros_apply {t : Shape} (hb : (⟨0, ![]⟩ : Shape).BroadcastsInDim t (![] : Fin 0 → Fin t.rank)) (i : t.Idx) :
    broadcastInDim t ![] hb (constant (F := Ideal) ⟨0, ![]⟩ .f32 0x00000000#32) i = 0 :=
  (broadcastInDim_apply _ hb _ i (fun a => a.elim0) (fun a => a.elim0)).trans Ideal.ofBits_zero_f32

/-- A bias vector of length `n` reshaped to a row `[1, n]` reads, at `(0, c)`, the bias at `c`. -/
theorem biasRow_apply {α : Type} {n : Nat} (h : (⟨1, ![n]⟩ : Shape).ShapeCasts ⟨2, ![1, n]⟩) (v : (⟨1, ![n]⟩ : Shape).Idx → α)
    (c : Fin n) : shapeCast ⟨2, ![1, n]⟩ v h (ix2 (0 : Fin 1) c) = v (ix1 c) :=
  shapeCast_apply v h (ix2 (0 : Fin 1) c) (ix1 c)
    (by rw [Shape.rowMajor_val_one, Shape.rowMajor_val_two]; show c.val = 0 * n + c.val; omega)

/-- The reshaped bias row of a real bias vector is real at every index. -/
theorem biasRow_real {n : Nat} (h : (⟨1, ![n]⟩ : Shape).ShapeCasts ⟨2, ![1, n]⟩) (v : (⟨1, ![n]⟩ : Shape).Idx → EReal)
    (hv : ∀ i, ∃ r : ℝ, v i = (r : EReal)) (i : (⟨2, ![1, n]⟩ : Shape).Idx) :
    ∃ r : ℝ, shapeCast ⟨2, ![1, n]⟩ v h i = (r : EReal) := by
  obtain ⟨a, c, rfl⟩ : ∃ (a : Fin 1) (c : Fin n), i = ix2 a c := ⟨i 0, i 1, eq_ix2 i⟩
  obtain rfl : a = 0 := Subsingleton.elim _ _
  rw [biasRow_apply]
  exact hv _

/-! ## The four layers -/

/-- The first cell-line layer: the dense layer of the kernel's aggregated input is the reference's layer output. -/
theorem layer_cll1 (x0 : FVec Ideal S120000x128 .f32) (x3 : IVec S2x1200000 32) (x7 : FVec Ideal S128x200 .f32)
    (x8 : FVec Ideal S200 .f32)
    (hx0 : ∀ i, ∃ r : ℝ, x0 i = (r : EReal)) (hx7 : ∀ i, ∃ r : ℝ, x7 i = (r : EReal))
    (hn : ∀ i, ∃ r : ℝ, val_main_v35 (F := Ideal) x3 i = (r : EReal)) :
    Cert.Spec.dense (Cert.KernelIdeal.Stages.agg1 x0 x3) x7 (shapeCast S1x200 x8 shapeCasts_S200_S1x200)
      = val_main_v44 (F := Ideal) x0 x3 x7 x8 := by
  unfold Cert.KernelIdeal.Stages.agg1 val_main_v44 val_main_v43 val_main_v40 val_main_v37 val_main_v34 val_main_v36
  exact layer_general (φ := .f32) (N := 120000) (E := 1320000) (K := 128) (H := 200) (by decide)
    scatter_S120000x128_S1320000x1_S1320000x128_1_0_0_1_wf
    Cert.ReferenceIdeal.Gen.scatter_S120000x200_S1320000x1_S1320000x200_1_0_0_1_wf
    gather_S120000x128_S1320000x1_S1320000x128_1_0_n_n_0_1_1128_wf
    Cert.ReferenceIdeal.Gen.gather_S120000x200_S1320000x1_S1320000x200_1_0_n_n_0_1_1200_wf
    bcast_S1320000x1_S1320000x128_0_1
    Cert.ReferenceIdeal.Gen.bcast_S1320000x1_S1320000x200_0_1
    x0 x7 (val_main_v4 (F := Ideal) x0 x7) (shapeCast S1x200 x8 shapeCasts_S200_S1x200)
    (val_main_v42 (F := Ideal) x8) (val_main_call0_v0 (F := Ideal))
    (val_main_v33 (F := Ideal) x3) (val_main_v39 (F := Ideal) x3) (val_main_v35 (F := Ideal) x3)
    _ (val_main_v38 (F := Ideal))
    (fun i => zeros_apply bcast_S_S120000x128 i)
    (fun i => by unfold val_main_v38 val_main_cst_6; exact zeros_apply _ i)
    (fun i => by unfold val_main_call0_v0 val_main_call0_cst; exact zeros_apply _ i)
    (fun r c => by
      rw [val_main_v42_apply, val_main_v41_apply, biasRow_apply]
      exact congrArg x8 (funext fun a => match a with | ⟨0, _⟩ => rfl))
    (fun n c => by
      rw [val_main_v4_apply]
      refine Finset.sum_congr rfl fun k _ => ?_
      have hl : lidx_main_v4 (ix2 n c) k = ix2 n k := funext fun a => match a with | ⟨0, _⟩ => rfl | ⟨1, _⟩ => rfl
      have hr : ridx_main_v4 (ix2 n c) k = ix2 k c := funext fun a => match a with | ⟨0, _⟩ => rfl | ⟨1, _⟩ => rfl
      rw [hl, hr])
    hx0 hx7 hn

/-- The first cell-line layer: its output is a real number at every index when the bias is real too. -/
theorem layer_cll1_real (x0 : FVec Ideal S120000x128 .f32) (x3 : IVec S2x1200000 32) (x7 : FVec Ideal S128x200 .f32)
    (x8 : FVec Ideal S200 .f32)
    (hx0 : ∀ i, ∃ r : ℝ, x0 i = (r : EReal)) (hx7 : ∀ i, ∃ r : ℝ, x7 i = (r : EReal))
    (hn : ∀ i, ∃ r : ℝ, val_main_v35 (F := Ideal) x3 i = (r : EReal)) (hx8 : ∀ i, ∃ r : ℝ, x8 i = (r : EReal)) :
    ∀ i, ∃ r : ℝ, val_main_v44 (F := Ideal) x0 x3 x7 x8 i = (r : EReal) := by
  intro i
  rw [← layer_cll1 x0 x3 x7 x8 hx0 hx7 hn]
  unfold Cert.KernelIdeal.Stages.agg1
  exact layer_general_real (φ := .f32) (N := 120000) (E := 1320000) (K := 128) (H := 200) (by decide)
    scatter_S120000x128_S1320000x1_S1320000x128_1_0_0_1_wf
    gather_S120000x128_S1320000x1_S1320000x128_1_0_n_n_0_1_1128_wf
    bcast_S1320000x1_S1320000x128_0_1
    x0 x7 (shapeCast S1x200 x8 shapeCasts_S200_S1x200)
    (val_main_v33 (F := Ideal) x3) (val_main_v39 (F := Ideal) x3) (val_main_v35 (F := Ideal) x3) _
    (fun i => zeros_apply bcast_S_S120000x128 i)
    hx0 hx7 hn (biasRow_real shapeCasts_S200_S1x200 x8 hx8) i

/-- The second cell-line layer: the dense layer of the kernel's aggregated input is the reference's layer output. -/
theorem layer_cll2 (x0 : FVec Ideal S120000x128 .f32) (x3 : IVec S2x1200000 32) (x7 : FVec Ideal S128x200 .f32)
    (x8 : FVec Ideal S200 .f32) (x9 : FVec Ideal S200x200 .f32) (x10 : FVec Ideal S200 .f32)
    (hh : ∀ i, ∃ r : ℝ, val_main_v44 (F := Ideal) x0 x3 x7 x8 i = (r : EReal)) (hx9 : ∀ i, ∃ r : ℝ, x9 i = (r : EReal))
    (hn : ∀ i, ∃ r : ℝ, val_main_v80 (F := Ideal) x3 i = (r : EReal)) :
    Cert.Spec.dense (Cert.KernelIdeal.Stages.agg2 (val_main_v44 (F := Ideal) x0 x3 x7 x8) x3) x9 (shapeCast S1x200 x10 shapeCasts_S200_S1x200)
      = val_main_v89 (F := Ideal) x0 x3 x7 x8 x9 x10 := by
  unfold Cert.KernelIdeal.Stages.agg2 val_main_v89 val_main_v88 val_main_v85 val_main_v82 val_main_v79 val_main_v81
  exact layer_general (φ := .f32) (N := 120000) (E := 1320000) (K := 200) (H := 200) (by decide)
    scatter_S120000x200_S1320000x1_S1320000x200_1_0_0_1_wf
    Cert.ReferenceIdeal.Gen.scatter_S120000x200_S1320000x1_S1320000x200_1_0_0_1_wf
    gather_S120000x200_S1320000x1_S1320000x200_1_0_n_n_0_1_1200_wf
    Cert.ReferenceIdeal.Gen.gather_S120000x200_S1320000x1_S1320000x200_1_0_n_n_0_1_1200_wf
    bcast_S1320000x1_S1320000x200_0_1
    Cert.ReferenceIdeal.Gen.bcast_S1320000x1_S1320000x200_0_1
    (val_main_v44 (F := Ideal) x0 x3 x7 x8) x9 (val_main_v49 (F := Ideal) x0 x3 x7 x8 x9) (shapeCast S1x200 x10 shapeCasts_S200_S1x200)
    (val_main_v87 (F := Ideal) x10) (val_main_call1_v0 (F := Ideal))
    (val_main_v78 (F := Ideal) x3) (val_main_v84 (F := Ideal) x3) (val_main_v80 (F := Ideal) x3)
    _ (val_main_v83 (F := Ideal))
    (fun i => zeros_apply bcast_S_S120000x200 i)
    (fun i => by unfold val_main_v83 val_main_cst_15; exact zeros_apply _ i)
    (fun i => by unfold val_main_call1_v0 val_main_call1_cst; exact zeros_apply _ i)
    (fun r c => by
      rw [val_main_v87_apply, val_main_v86_apply, biasRow_apply]
      exact congrArg x10 (funext fun a => match a with | ⟨0, _⟩ => rfl))
    (fun n c => by
      rw [val_main_v49_apply]
      refine Finset.sum_congr rfl fun k _ => ?_
      have hl : lidx_main_v49 (ix2 n c) k = ix2 n k := funext fun a => match a with | ⟨0, _⟩ => rfl | ⟨1, _⟩ => rfl
      have hr : ridx_main_v49 (ix2 n c) k = ix2 k c := funext fun a => match a with | ⟨0, _⟩ => rfl | ⟨1, _⟩ => rfl
      rw [hl, hr])
    hh hx9 hn

/-- The second cell-line layer: its output is a real number at every index when the bias is real too. -/
theorem layer_cll2_real (x0 : FVec Ideal S120000x128 .f32) (x3 : IVec S2x1200000 32) (x7 : FVec Ideal S128x200 .f32)
    (x8 : FVec Ideal S200 .f32) (x9 : FVec Ideal S200x200 .f32) (x10 : FVec Ideal S200 .f32)
    (hh : ∀ i, ∃ r : ℝ, val_main_v44 (F := Ideal) x0 x3 x7 x8 i = (r : EReal)) (hx9 : ∀ i, ∃ r : ℝ, x9 i = (r : EReal))
    (hn : ∀ i, ∃ r : ℝ, val_main_v80 (F := Ideal) x3 i = (r : EReal)) (hx10 : ∀ i, ∃ r : ℝ, x10 i = (r : EReal)) :
    ∀ i, ∃ r : ℝ, val_main_v89 (F := Ideal) x0 x3 x7 x8 x9 x10 i = (r : EReal) := by
  intro i
  rw [← layer_cll2 x0 x3 x7 x8 x9 x10 hh hx9 hn]
  unfold Cert.KernelIdeal.Stages.agg2
  exact layer_general_real (φ := .f32) (N := 120000) (E := 1320000) (K := 200) (H := 200) (by decide)
    scatter_S120000x200_S1320000x1_S1320000x200_1_0_0_1_wf
    gather_S120000x200_S1320000x1_S1320000x200_1_0_n_n_0_1_1200_wf
    bcast_S1320000x1_S1320000x200_0_1
    (val_main_v44 (F := Ideal) x0 x3 x7 x8) x9 (shapeCast S1x200 x10 shapeCasts_S200_S1x200)
    (val_main_v78 (F := Ideal) x3) (val_main_v84 (F := Ideal) x3) (val_main_v80 (F := Ideal) x3) _
    (fun i => zeros_apply bcast_S_S120000x200 i)
    hh hx9 hn (biasRow_real shapeCasts_S200_S1x200 x10 hx10) i

/-- The first protein layer: the dense layer of the kernel's aggregated input is the reference's layer output. -/
theorem layer_bio1 (x2 : FVec Ideal S19000x128 .f32) (x6 : IVec S2x600000 32) (x21 : FVec Ideal S128x200 .f32)
    (x22 : FVec Ideal S200 .f32)
    (hx2 : ∀ i, ∃ r : ℝ, x2 i = (r : EReal)) (hx21 : ∀ i, ∃ r : ℝ, x21 i = (r : EReal))
    (hn : ∀ i, ∃ r : ℝ, val_main_v188 (F := Ideal) x6 i = (r : EReal)) :
    Cert.Spec.dense (Cert.KernelIdeal.Stages.agg3 x2 x6) x21 (shapeCast S1x200 x22 shapeCasts_S200_S1x200)
      = val_main_v197 (F := Ideal) x2 x6 x21 x22 := by
  unfold Cert.KernelIdeal.Stages.agg3 val_main_v197 val_main_v196 val_main_v193 val_main_v190 val_main_v187 val_main_v189
  exact layer_general (φ := .f32) (N := 19000) (E := 619000) (K := 128) (H := 200) (by decide)
    scatter_S19000x128_S619000x1_S619000x128_1_0_0_1_wf
    Cert.ReferenceIdeal.Gen.scatter_S19000x200_S619000x1_S619000x200_1_0_0_1_wf
    gather_S19000x128_S619000x1_S619000x128_1_0_n_n_0_1_1128_wf
    Cert.ReferenceIdeal.Gen.gather_S19000x200_S619000x1_S619000x200_1_0_n_n_0_1_1200_wf
    bcast_S619000x1_S619000x128_0_1
    Cert.ReferenceIdeal.Gen.bcast_S619000x1_S619000x200_0_1
    x2 x21 (val_main_v157 (F := Ideal) x2 x21) (shapeCast S1x200 x22 shapeCasts_S200_S1x200)
    (val_main_v195 (F := Ideal) x22) (val_main_call4_v0 (F := Ideal))
    (val_main_v186 (F := Ideal) x6) (val_main_v192 (F := Ideal) x6) (val_main_v188 (F := Ideal) x6)
    _ (val_main_v191 (F := Ideal))
    (fun i => zeros_apply bcast_S_S19000x128 i)
    (fun i => by unfold val_main_v191 val_main_cst_35; exact zeros_apply _ i)
    (fun i => by unfold val_main_call4_v0 val_main_call4_cst; exact zeros_apply _ i)
    (fun r c => by
      rw [val_main_v195_apply, val_main_v194_apply, biasRow_apply]
      exact congrArg x22 (funext fun a => match a with | ⟨0, _⟩ => rfl))
    (fun n c => by
      rw [val_main_v157_apply]
      refine Finset.sum_congr rfl fun k _ => ?_
      have hl : lidx_main_v157 (ix2 n c) k = ix2 n k := funext fun a => match a with | ⟨0, _⟩ => rfl | ⟨1, _⟩ => rfl
      have hr : ridx_main_v157 (ix2 n c) k = ix2 k c := funext fun a => match a with | ⟨0, _⟩ => rfl | ⟨1, _⟩ => rfl
      rw [hl, hr])
    hx2 hx21 hn

/-- The first protein layer: its output is a real number at every index when the bias is real too. -/
theorem layer_bio1_real (x2 : FVec Ideal S19000x128 .f32) (x6 : IVec S2x600000 32) (x21 : FVec Ideal S128x200 .f32)
    (x22 : FVec Ideal S200 .f32)
    (hx2 : ∀ i, ∃ r : ℝ, x2 i = (r : EReal)) (hx21 : ∀ i, ∃ r : ℝ, x21 i = (r : EReal))
    (hn : ∀ i, ∃ r : ℝ, val_main_v188 (F := Ideal) x6 i = (r : EReal)) (hx22 : ∀ i, ∃ r : ℝ, x22 i = (r : EReal)) :
    ∀ i, ∃ r : ℝ, val_main_v197 (F := Ideal) x2 x6 x21 x22 i = (r : EReal) := by
  intro i
  rw [← layer_bio1 x2 x6 x21 x22 hx2 hx21 hn]
  unfold Cert.KernelIdeal.Stages.agg3
  exact layer_general_real (φ := .f32) (N := 19000) (E := 619000) (K := 128) (H := 200) (by decide)
    scatter_S19000x128_S619000x1_S619000x128_1_0_0_1_wf
    gather_S19000x128_S619000x1_S619000x128_1_0_n_n_0_1_1128_wf
    bcast_S619000x1_S619000x128_0_1
    x2 x21 (shapeCast S1x200 x22 shapeCasts_S200_S1x200)
    (val_main_v186 (F := Ideal) x6) (val_main_v192 (F := Ideal) x6) (val_main_v188 (F := Ideal) x6) _
    (fun i => zeros_apply bcast_S_S19000x128 i)
    hx2 hx21 hn (biasRow_real shapeCasts_S200_S1x200 x22 hx22) i

/-- The second protein layer: the dense layer of the kernel's aggregated input is the reference's layer output. -/
theorem layer_bio2 (x2 : FVec Ideal S19000x128 .f32) (x6 : IVec S2x600000 32) (x21 : FVec Ideal S128x200 .f32)
    (x22 : FVec Ideal S200 .f32) (x23 : FVec Ideal S200x200 .f32) (x24 : FVec Ideal S200 .f32)
    (hh : ∀ i, ∃ r : ℝ, val_main_v197 (F := Ideal) x2 x6 x21 x22 i = (r : EReal)) (hx23 : ∀ i, ∃ r : ℝ, x23 i = (r : EReal))
    (hn : ∀ i, ∃ r : ℝ, val_main_v233 (F := Ideal) x6 i = (r : EReal)) :
    Cert.Spec.dense (Cert.KernelIdeal.Stages.agg4 (val_main_v197 (F := Ideal) x2 x6 x21 x22) x6) x23 (shapeCast S1x200 x24 shapeCasts_S200_S1x200)
      = val_main_v242 (F := Ideal) x2 x6 x21 x22 x23 x24 := by
  unfold Cert.KernelIdeal.Stages.agg4 val_main_v242 val_main_v241 val_main_v238 val_main_v235 val_main_v232 val_main_v234
  exact layer_general (φ := .f32) (N := 19000) (E := 619000) (K := 200) (H := 200) (by decide)
    scatter_S19000x200_S619000x1_S619000x200_1_0_0_1_wf
    Cert.ReferenceIdeal.Gen.scatter_S19000x200_S619000x1_S619000x200_1_0_0_1_wf
    gather_S19000x200_S619000x1_S619000x200_1_0_n_n_0_1_1200_wf
    Cert.ReferenceIdeal.Gen.gather_S19000x200_S619000x1_S619000x200_1_0_n_n_0_1_1200_wf
    bcast_S619000x1_S619000x200_0_1
    Cert.ReferenceIdeal.Gen.bcast_S619000x1_S619000x200_0_1
    (val_main_v197 (F := Ideal) x2 x6 x21 x22) x23 (val_main_v202 (F := Ideal) x2 x6 x21 x22 x23) (shapeCast S1x200 x24 shapeCasts_S200_S1x200)
    (val_main_v240 (F := Ideal) x24) (val_main_call5_v0 (F := Ideal))
    (val_main_v231 (F := Ideal) x6) (val_main_v237 (F := Ideal) x6) (val_main_v233 (F := Ideal) x6)
    _ (val_main_v236 (F := Ideal))
    (fun i => zeros_apply bcast_S_S19000x200 i)
    (fun i => by unfold val_main_v236 val_main_cst_44; exact zeros_apply _ i)
    (fun i => by unfold val_main_call5_v0 val_main_call5_cst; exact zeros_apply _ i)
    (fun r c => by
      rw [val_main_v240_apply, val_main_v239_apply, biasRow_apply]
      exact congrArg x24 (funext fun a => match a with | ⟨0, _⟩ => rfl))
    (fun n c => by
      rw [val_main_v202_apply]
      refine Finset.sum_congr rfl fun k _ => ?_
      have hl : lidx_main_v202 (ix2 n c) k = ix2 n k := funext fun a => match a with | ⟨0, _⟩ => rfl | ⟨1, _⟩ => rfl
      have hr : ridx_main_v202 (ix2 n c) k = ix2 k c := funext fun a => match a with | ⟨0, _⟩ => rfl | ⟨1, _⟩ => rfl
      rw [hl, hr])
    hh hx23 hn

/-- The second protein layer: its output is a real number at every index when the bias is real too. -/
theorem layer_bio2_real (x2 : FVec Ideal S19000x128 .f32) (x6 : IVec S2x600000 32) (x21 : FVec Ideal S128x200 .f32)
    (x22 : FVec Ideal S200 .f32) (x23 : FVec Ideal S200x200 .f32) (x24 : FVec Ideal S200 .f32)
    (hh : ∀ i, ∃ r : ℝ, val_main_v197 (F := Ideal) x2 x6 x21 x22 i = (r : EReal)) (hx23 : ∀ i, ∃ r : ℝ, x23 i = (r : EReal))
    (hn : ∀ i, ∃ r : ℝ, val_main_v233 (F := Ideal) x6 i = (r : EReal)) (hx24 : ∀ i, ∃ r : ℝ, x24 i = (r : EReal)) :
    ∀ i, ∃ r : ℝ, val_main_v242 (F := Ideal) x2 x6 x21 x22 x23 x24 i = (r : EReal) := by
  intro i
  rw [← layer_bio2 x2 x6 x21 x22 x23 x24 hh hx23 hn]
  unfold Cert.KernelIdeal.Stages.agg4
  exact layer_general_real (φ := .f32) (N := 19000) (E := 619000) (K := 200) (H := 200) (by decide)
    scatter_S19000x200_S619000x1_S619000x200_1_0_0_1_wf
    gather_S19000x200_S619000x1_S619000x200_1_0_n_n_0_1_1200_wf
    bcast_S619000x1_S619000x200_0_1
    (val_main_v197 (F := Ideal) x2 x6 x21 x22) x23 (shapeCast S1x200 x24 shapeCasts_S200_S1x200)
    (val_main_v231 (F := Ideal) x6) (val_main_v237 (F := Ideal) x6) (val_main_v233 (F := Ideal) x6) _
    (fun i => zeros_apply bcast_S_S19000x200 i)
    hh hx23 hn (biasRow_real shapeCasts_S200_S1x200 x24 hx24) i

end Cert.LayerLaw

end
-- ==== Proof.NormReal.lean ====
/-
  The per-edge normalisation factor of the reference program is a real number.

  Each graph's edge list is followed by one self loop per node: edge number (number of listed edges) + r has target r,
  because the target vector is the listed targets followed by 0, 1, 2, …. So every node is the target of at least one
  edge, its degree (a sum of ones over the edges that target it, added to zero) is a positive whole number, and the
  inverse square root of the degree is the real number (√deg)⁻¹ rather than +∞. The factor of an edge is the product
  of two entries of that vector of inverse square roots, hence a real number too. The program computes the factor
  four times (two graphs, two layers each); the four computations have the same shape and so have the four proofs.
-/
import proofs.«178620_j32633161515065_1_alg».proof.Proof.RefRead
import proofs.«178620_j32633161515065_1_alg».proof.Proof.LibRows
import Idealize.ShloMosaic.Lib.IdealHost

noncomputable section

namespace Cert.NormReal

open Cert.ReferenceIdeal Cert.ReferenceIdeal.ReadP Idealize.ShloMosaic Idealize.ShloMosaic.ValueIdx

/-! ## Words and constants -/

/-- A 32-bit word made from a natural number below 2³¹ reads back, as a signed integer, as that number. -/
theorem toInt_ofNat_small (n : Nat) (h : n < 2147483648) : (BitVec.ofNat 32 n).toInt = (n : Int) := by
  rw [BitVec.toInt_eq_toNat_cond, BitVec.toNat_ofNat]
  split <;> omega

/-! ## The self loops -/

/-- CELL-LINE GRAPH, FIRST LAYER: node `r` is the target of edge number `1200000 + r`, its self loop. The target
    column at that edge is the target vector there; the target vector is the 1200000 listed targets followed by
    0, 1, 2, …, so at position `1200000 + r` it reads the second piece at position `r`, the word of `r`. -/
theorem selfloop_cll (x3 : (⟨S2x1200000, .i32⟩ : BufTy).Contents (Elt Ideal)) (r : Fin 120000) :
    ∃ e : Fin 1320000, (val_main_v10 (F := Ideal) x3 (ix2 e (0 : Fin 1))).toInt = (r.val : Int) := by
  have hr := r.isLt
  refine ⟨⟨1200000 + r.val, by omega⟩, ?_⟩
  rw [val_main_v10_apply]
  unfold val_main_v7
  rw [concatenate_pair_apply_right (0 : Fin S1320000.rank) (val_main_v3 (F := Ideal) x3) (val_main_v5 (F := Ideal))
    _ _ rfl rfl (ix1 r) (fun b hb => absurd (Subsingleton.elim _ _) hb)
    (by show r.val + 1200000 = 1200000 + r.val; omega)]
  rw [val_main_v5_apply]
  exact toInt_ofNat_small r.val (by omega)

/-- CELL-LINE GRAPH, SECOND LAYER: node `r` is the target of edge number `1200000 + r`, its self loop. The target
    column at that edge is the target vector there; the target vector is the 1200000 listed targets followed by
    0, 1, 2, …, so at position `1200000 + r` it reads the second piece at position `r`, the word of `r`. -/
theorem selfloop_cll2 (x3 : (⟨S2x1200000, .i32⟩ : BufTy).Contents (Elt Ideal)) (r : Fin 120000) :
    ∃ e : Fin 1320000, (val_main_v55 (F := Ideal) x3 (ix2 e (0 : Fin 1))).toInt = (r.val : Int) := by
  have hr := r.isLt
  refine ⟨⟨1200000 + r.val, by omega⟩, ?_⟩
  rw [val_main_v55_apply]
  unfold val_main_v52
  rw [concatenate_pair_apply_right (0 : Fin S1320000.rank) (val_main_v48 (F := Ideal) x3) (val_main_v50 (F := Ideal))
    _ _ rfl rfl (ix1 r) (fun b hb => absurd (Subsingleton.elim _ _) hb)
    (by show r.val + 1200000 = 1200000 + r.val; omega)]
  rw [val_main_v50_apply]
  exact toInt_ofNat_small r.val (by omega)

/-- PROTEIN GRAPH, FIRST LAYER: node `r` is the target of edge number `600000 + r`, its self loop. The target
    column at that edge is the target vector there; the target vector is the 600000 listed targets followed by
    0, 1, 2, …, so at position `600000 + r` it reads the second piece at position `r`, the word of `r`. -/
theorem selfloop_bio (x6 : (⟨S2x600000, .i32⟩ : BufTy).Contents (Elt Ideal)) (r : Fin 19000) :
    ∃ e : Fin 619000, (val_main_v163 (F := Ideal) x6 (ix2 e (0 : Fin 1))).toInt = (r.val : Int) := by
  have hr := r.isLt
  refine ⟨⟨600000 + r.val, by omega⟩, ?_⟩
  rw [val_main_v163_apply]
  unfold val_main_v160
  rw [concatenate_pair_apply_right (0 : Fin S619000.rank) (val_main_v156 (F := Ideal) x6) (val_main_v158 (F := Ideal))
    _ _ rfl rfl (ix1 r) (fun b hb => absurd (Subsingleton.elim _ _) hb)
    (by show r.val + 600000 = 600000 + r.val; omega)]
  rw [val_main_v158_apply]
  exact toInt_ofNat_small r.val (by omega)

/-- PROTEIN GRAPH, SECOND LAYER: node `r` is the target of edge number `600000 + r`, its self loop. The target
    column at that edge is the target vector there; the target vector is the 600000 listed targets followed by
    0, 1, 2, …, so at position `600000 + r` it reads the second piece at position `r`, the word of `r`. -/
theorem selfloop_bio2 (x6 : (⟨S2x600000, .i32⟩ : BufTy).Contents (Elt Ideal)) (r : Fin 19000) :
    ∃ e : Fin 619000, (val_main_v208 (F := Ideal) x6 (ix2 e (0 : Fin 1))).toInt = (r.val : Int) := by
  have hr := r.isLt
  refine ⟨⟨600000 + r.val, by omega⟩, ?_⟩
  rw [val_main_v208_apply]
  unfold val_main_v205
  rw [concatenate_pair_apply_right (0 : Fin S619000.rank) (val_main_v201 (F := Ideal) x6) (val_main_v203 (F := Ideal))
    _ _ rfl rfl (ix1 r) (fun b hb => absurd (Subsingleton.elim _ _) hb)
    (by show r.val + 600000 = 600000 + r.val; omega)]
  rw [val_main_v203_apply]
  exact toInt_ofNat_small r.val (by omega)

/-! ## The constants of the degree scatter -/

/-- CELL-LINE GRAPH, FIRST LAYER: the updates of the degree scatter are the constant one (the word `0x3F800000` is
    the real 1) … -/
theorem ones_cll (e : S1320000.Idx) : (val_main_v8 (F := Ideal) e : EReal) = 1 := by
  rw [val_main_v8_apply, val_main_cst_apply, Ideal.ofBits_def, Ideal.ofBits_one_f32]
/-- … and its initial vector is the constant zero. -/
theorem zeros_cll (i : S120000.Idx) : (val_main_v9 (F := Ideal) i : EReal) = 0 := by
  rw [val_main_v9_apply, val_main_cst_0_apply, Ideal.ofBits_def, Ideal.ofBits_zero_f32]

/-- CELL-LINE GRAPH, SECOND LAYER: the updates of the degree scatter are the constant one (the word `0x3F800000` is
    the real 1) … -/
theorem ones_cll2 (e : S1320000.Idx) : (val_main_v53 (F := Ideal) e : EReal) = 1 := by
  rw [val_main_v53_apply, val_main_cst_7_apply, Ideal.ofBits_def, Ideal.ofBits_one_f32]
/-- … and its initial vector is the constant zero. -/
theorem zeros_cll2 (i : S120000.Idx) : (val_main_v54 (F := Ideal) i : EReal) = 0 := by
  rw [val_main_v54_apply, val_main_cst_8_apply, Ideal.ofBits_def, Ideal.ofBits_zero_f32]

/-- PROTEIN GRAPH, FIRST LAYER: the updates of the degree scatter are the constant one (the word `0x3F800000` is
    the real 1) … -/
theorem ones_bio (e : S619000.Idx) : (val_main_v161 (F := Ideal) e : EReal) = 1 := by
  rw [val_main_v161_apply, val_main_cst_27_apply, Ideal.ofBits_def, Ideal.ofBits_one_f32]
/-- … and its initial vector is the constant zero. -/
theorem zeros_bio (i : S19000.Idx) : (val_main_v162 (F := Ideal) i : EReal) = 0 := by
  rw [val_main_v162_apply, val_main_cst_28_apply, Ideal.ofBits_def, Ideal.ofBits_zero_f32]

/-- PROTEIN GRAPH, SECOND LAYER: the updates of the degree scatter are the constant one (the word `0x3F800000` is
    the real 1) … -/
theorem ones_bio2 (e : S619000.Idx) : (val_main_v206 (F := Ideal) e : EReal) = 1 := by
  rw [val_main_v206_apply, val_main_cst_36_apply, Ideal.ofBits_def, Ideal.ofBits_one_f32]
/-- … and its initial vector is the constant zero. -/
theorem zeros_bio2 (i : S19000.Idx) : (val_main_v207 (F := Ideal) i : EReal) = 0 := by
  rw [val_main_v207_apply, val_main_cst_37_apply, Ideal.ofBits_def, Ideal.ofBits_zero_f32]

/-! ## The factor -/

/-- CELL-LINE GRAPH, FIRST LAYER: the factor of edge `e` — the product of the inverse square roots of the degrees
    gathered at the edge's two index columns — is a real number. -/
theorem factor_vec_real_cll (x3 : (⟨S2x1200000, .i32⟩ : BufTy).Contents (Elt Ideal)) (e : Fin 1320000) :
    ∃ y : ℝ, val_main_v27 (F := Ideal) x3 (ix1 e) = (y : EReal) := by
  rw [val_main_v27_apply, Ideal.mulf_def]
  unfold val_main_v19 val_main_v26 val_main_v12 val_main_v11
  exact Cert.LibRows.norm_real (φ := .f32) (N := 120000) (E := 1320000) (by decide)
    Gen.scatter_S120000_S1320000x1_S1320000_n_0_0_1_wf Gen.gather_S120000_S1320000x1_S1320000_n_0_n_n_0_1_1_wf
    (val_main_v9 (F := Ideal)) (val_main_v8 (F := Ideal)) (val_main_v10 (F := Ideal) x3)
    zeros_cll ones_cll (selfloop_cll x3)
    (val_main_v18 (F := Ideal) x3) (val_main_v25 (F := Ideal) x3) e

/-- CELL-LINE GRAPH, FIRST LAYER: the factor as a column `[1320000, 1]` is a real number at every index. -/
theorem factor_real_cll (x3 : (⟨S2x1200000, .i32⟩ : BufTy).Contents (Elt Ideal)) (i : S1320000x1.Idx) :
    ∃ y : ℝ, val_main_v35 (F := Ideal) x3 i = (y : EReal) := by
  obtain ⟨e, k, rfl⟩ : ∃ (e : Fin 1320000) (k : Fin 1), i = ix2 e k := ⟨i 0, i 1, eq_ix2 i⟩
  rw [val_main_v35_apply]
  have hj : idx_main_v35 (ix2 e k) = ix1 e := funext fun a => match a with | ⟨0, _⟩ => rfl
  rw [hj]
  exact factor_vec_real_cll x3 e

/-- CELL-LINE GRAPH, SECOND LAYER: the factor of edge `e` — the product of the inverse square roots of the degrees
    gathered at the edge's two index columns — is a real number. -/
theorem factor_vec_real_cll2 (x3 : (⟨S2x1200000, .i32⟩ : BufTy).Contents (Elt Ideal)) (e : Fin 1320000) :
    ∃ y : ℝ, val_main_v72 (F := Ideal) x3 (ix1 e) = (y : EReal) := by
  rw [val_main_v72_apply, Ideal.mulf_def]
  unfold val_main_v64 val_main_v71 val_main_v57 val_main_v56
  exact Cert.LibRows.norm_real (φ := .f32) (N := 120000) (E := 1320000) (by decide)
    Gen.scatter_S120000_S1320000x1_S1320000_n_0_0_1_wf Gen.gather_S120000_S1320000x1_S1320000_n_0_n_n_0_1_1_wf
    (val_main_v54 (F := Ideal)) (val_main_v53 (F := Ideal)) (val_main_v55 (F := Ideal) x3)
    zeros_cll2 ones_cll2 (selfloop_cll2 x3)
    (val_main_v63 (F := Ideal) x3) (val_main_v70 (F := Ideal) x3) e

/-- CELL-LINE GRAPH, SECOND LAYER: the factor as a column `[1320000, 1]` is a real number at every index. -/
theorem factor_real_cll2 (x3 : (⟨S2x1200000, .i32⟩ : BufTy).Contents (Elt Ideal)) (i : S1320000x1.Idx) :
    ∃ y : ℝ, val_main_v80 (F := Ideal) x3 i = (y : EReal) := by
  obtain ⟨e, k, rfl⟩ : ∃ (e : Fin 1320000) (k : Fin 1), i = ix2 e k := ⟨i 0, i 1, eq_ix2 i⟩
  rw [val_main_v80_apply]
  have hj : idx_main_v80 (ix2 e k) = ix1 e := funext fun a => match a with | ⟨0, _⟩ => rfl
  rw [hj]
  exact factor_vec_real_cll2 x3 e

/-- PROTEIN GRAPH, FIRST LAYER: the factor of edge `e` — the product of the inverse square roots of the degrees
    gathered at the edge's two index columns — is a real number. -/
theorem factor_vec_real_bio (x6 : (⟨S2x600000, .i32⟩ : BufTy).Contents (Elt Ideal)) (e : Fin 619000) :
    ∃ y : ℝ, val_main_v180 (F := Ideal) x6 (ix1 e) = (y : EReal) := by
  rw [val_main_v180_apply, Ideal.mulf_def]
  unfold val_main_v172 val_main_v179 val_main_v165 val_main_v164
  exact Cert.LibRows.norm_real (φ := .f32) (N := 19000) (E := 619000) (by decide)
    Gen.scatter_S19000_S619000x1_S619000_n_0_0_1_wf Gen.gather_S19000_S619000x1_S619000_n_0_n_n_0_1_1_wf
    (val_main_v162 (F := Ideal)) (val_main_v161 (F := Ideal)) (val_main_v163 (F := Ideal) x6)
    zeros_bio ones_bio (selfloop_bio x6)
    (val_main_v171 (F := Ideal) x6) (val_main_v178 (F := Ideal) x6) e

/-- PROTEIN GRAPH, FIRST LAYER: the factor as a column `[619000, 1]` is a real number at every index. -/
theorem factor_real_bio (x6 : (⟨S2x600000, .i32⟩ : BufTy).Contents (Elt Ideal)) (i : S619000x1.Idx) :
    ∃ y : ℝ, val_main_v188 (F := Ideal) x6 i = (y : EReal) := by
  obtain ⟨e, k, rfl⟩ : ∃ (e : Fin 619000) (k : Fin 1), i = ix2 e k := ⟨i 0, i 1, eq_ix2 i⟩
  rw [val_main_v188_apply]
  have hj : idx_main_v188 (ix2 e k) = ix1 e := funext fun a => match a with | ⟨0, _⟩ => rfl
  rw [hj]
  exact factor_vec_real_bio x6 e

/-- PROTEIN GRAPH, SECOND LAYER: the factor of edge `e` — the product of the inverse square roots of the degrees
    gathered at the edge's two index columns — is a real number. -/
theorem factor_vec_real_bio2 (x6 : (⟨S2x600000, .i32⟩ : BufTy).Contents (Elt Ideal)) (e : Fin 619000) :
    ∃ y : ℝ, val_main_v225 (F := Ideal) x6 (ix1 e) = (y : EReal) := by
  rw [val_main_v225_apply, Ideal.mulf_def]
  unfold val_main_v217 val_main_v224 val_main_v210 val_main_v209
  exact Cert.LibRows.norm_real (φ := .f32) (N := 19000) (E := 619000) (by decide)
    Gen.scatter_S19000_S619000x1_S619000_n_0_0_1_wf Gen.gather_S19000_S619000x1_S619000_n_0_n_n_0_1_1_wf
    (val_main_v207 (F := Ideal)) (val_main_v206 (F := Ideal)) (val_main_v208 (F := Ideal) x6)
    zeros_bio2 ones_bio2 (selfloop_bio2 x6)
    (val_main_v216 (F := Ideal) x6) (val_main_v223 (F := Ideal) x6) e

/-- PROTEIN GRAPH, SECOND LAYER: the factor as a column `[619000, 1]` is a real number at every index. -/
theorem factor_real_bio2 (x6 : (⟨S2x600000, .i32⟩ : BufTy).Contents (Elt Ideal)) (i : S619000x1.Idx) :
    ∃ y : ℝ, val_main_v233 (F := Ideal) x6 i = (y : EReal) := by
  obtain ⟨e, k, rfl⟩ : ∃ (e : Fin 619000) (k : Fin 1), i = ix2 e k := ⟨i 0, i 1, eq_ix2 i⟩
  rw [val_main_v233_apply]
  have hj : idx_main_v233 (ix2 e k) = ix1 e := funext fun a => match a with | ⟨0, _⟩ => rfl
  rw [hj]
  exact factor_vec_real_bio2 x6 e

end Cert.NormReal

end
-- ==== Proof.FiniteInputs.lean ====
/-
  The precondition "every float input is finite", decoded at the ideal instance (floats are extended reals):
  the printed predicate compares `|a| < +∞` elementwise, reduces each comparison by `and` over all axes and
  conjoins the results; if the whole is 1, every entry of every float argument array is a real number.
-/
import proofs.«178620_j32633161515065_1_alg».proof.Defs
import Idealize.ShloMosaic.Lib.ReduceAll
import Idealize.ShloMosaic.Lib.IdealHost

noncomputable section

namespace Cert.FiniteInputs

open Idealize.ShloMosaic Idealize.ShloMosaic.ValueIdx Idealize.SL.Sem

/-- The rank-0 shape has exactly one index. -/
instance subsingleton_scalar_idx : Subsingleton (⟨0, ![]⟩ : Shape).Idx := ⟨fun a b => funext fun d => d.elim0⟩

/-- The f32 word `0x7F800000` denotes `+∞`. -/
theorem ofBits_inf : Ideal.ofBits .f32 0x7F800000#32 = (⊤ : EReal) := by
  simp [Ideal.ofBits, Ideal.ieee]

/-- An extended real whose absolute value `max x (-x)` is strictly below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- A one-bit word made from a Boolean is 1 exactly when the Boolean is true. -/
theorem ofBool_eq_one {b : Bool} : BitVec.ofBool b = 1#1 ↔ b = true := by cases b <;> decide

/-- The element fact: the comparison `|x| < +∞` printing 1 says `x` is a real number. -/
theorem real_of_cmp (x : Ideal .f32)
    (h : FloatOps.cmpf .olt (FloatOps.hostAbsf x) (Ideal.ofBits .f32 0x7F800000#32) = 1#1) : ∃ r : ℝ, x = (r : EReal) := by
  rw [ofBits_inf] at h
  change Ideal.cmp .olt (max x (-x)) ⊤ = 1#1 at h
  apply real_of_abs_lt_top
  simpa [Ideal.cmp, ofBool_eq_one] using h

/-- A vector `and` at an index is the `and` of the elements. -/
theorem andi_apply {s : Shape} {w : Nat} (x y : IVec s w) (i : s.Idx) : andi x y i = IntOp.andi (x i) (y i) := rfl

/-- `jnp.all (|a| < +∞)` printing 1 says every entry of `a` is a real number. -/
theorem real_of_all_lt_inf {S T u : Shape} {axes : List (Fin S.rank)} [Subsingleton T.Idx]
    (hb : (⟨0, ![]⟩ : Shape).BroadcastsInDim S ![]) (hr : S.ReducesTo axes T) (hu : 0 < u.numel)
    (init : IVec u 1) (a : FVec Ideal S .f32) (j : T.Idx)
    (h : Host.reduce IntOp.andi
      (cmpf .olt (Host.absf a) (broadcastInDim S ![] hb (constant (F := Ideal) ⟨0, ![]⟩ .f32 0x7F800000#32)))
      init hr hu j = 1#1)
    (i : S.Idx) : ∃ r : ℝ, a i = (r : EReal) := by
  have e := Host.reduce_andi_all _ init hr hu j h i
  rw [cmpf_apply, broadcastInDim_scalar_apply, constant_apply] at e
  exact real_of_cmp (a i) e

open Cert.Pre_finite_inputs in
/-- The precondition read back: if the printed `finite_inputs` is all ones, every entry of every float argument
    is a real number. -/
theorem reals_all [Cert.Pre_finite_inputs.Facts] (a0 : FVec Ideal Cert.Pre_finite_inputs.S120000x128 .f32) (a1 : FVec Ideal Cert.Pre_finite_inputs.S64x64 .f32) (a2 : FVec Ideal Cert.Pre_finite_inputs.S19000x128 .f32) (a3 : IVec Cert.Pre_finite_inputs.S2x1200000 32) (a4 : IVec Cert.Pre_finite_inputs.S120000 32) (a5 : IVec Cert.Pre_finite_inputs.S2x256 32) (a6 : IVec Cert.Pre_finite_inputs.S2x600000 32) (a7 : FVec Ideal Cert.Pre_finite_inputs.S128x200 .f32) (a8 : FVec Ideal Cert.Pre_finite_inputs.S200 .f32) (a9 : FVec Ideal Cert.Pre_finite_inputs.S200x200 .f32) (a10 : FVec Ideal Cert.Pre_finite_inputs.S200 .f32) (a11 : FVec Ideal Cert.Pre_finite_inputs.S200x256 .f32) (a12 : FVec Ideal Cert.Pre_finite_inputs.S256 .f32) (a13 : FVec Ideal Cert.Pre_finite_inputs.S64x200 .f32) (a14 : FVec Ideal Cert.Pre_finite_inputs.S200 .f32) (a15 : FVec Ideal Cert.Pre_finite_inputs.S64x200 .f32) (a16 : FVec Ideal Cert.Pre_finite_inputs.S200x200 .f32) (a17 : FVec Ideal Cert.Pre_finite_inputs.S200 .f32) (a18 : FVec Ideal Cert.Pre_finite_inputs.S200x200 .f32) (a19 : FVec Ideal Cert.Pre_finite_inputs.S200x128 .f32) (a20 : FVec Ideal Cert.Pre_finite_inputs.S128 .f32) (a21 : FVec Ideal Cert.Pre_finite_inputs.S128x200 .f32) (a22 : FVec Ideal Cert.Pre_finite_inputs.S200 .f32) (a23 : FVec Ideal Cert.Pre_finite_inputs.S200x200 .f32) (a24 : FVec Ideal Cert.Pre_finite_inputs.S200 .f32) (a25 : FVec Ideal Cert.Pre_finite_inputs.S200x128 .f32) (a26 : FVec Ideal Cert.Pre_finite_inputs.S128 .f32) (a27 : FVec Ideal Cert.Pre_finite_inputs.S256x256 .f32) (a28 : FVec Ideal Cert.Pre_finite_inputs.S1 .f32)
    (h : Cert.Pre_finite_inputs.fn (F := Ideal) a0 a1 a2 a3 a4 a5 a6 a7 a8 a9 a10 a11 a12 a13 a14 a15 a16 a17 a18 a19 a20 a21 a22 a23 a24 a25 a26 a27 a28 = (fun _ => 1#1)) :
    (∀ i, ∃ r : ℝ, a0 i = (r : EReal)) ∧ (∀ i, ∃ r : ℝ, a1 i = (r : EReal)) ∧ (∀ i, ∃ r : ℝ, a2 i = (r : EReal)) ∧ (∀ i, ∃ r : ℝ, a7 i = (r : EReal)) ∧ (∀ i, ∃ r : ℝ, a8 i = (r : EReal)) ∧ (∀ i, ∃ r : ℝ, a9 i = (r : EReal)) ∧ (∀ i, ∃ r : ℝ, a10 i = (r : EReal)) ∧ (∀ i, ∃ r : ℝ, a11 i = (r : EReal)) ∧ (∀ i, ∃ r : ℝ, a12 i = (r : EReal)) ∧ (∀ i, ∃ r : ℝ, a13 i = (r : EReal)) ∧ (∀ i, ∃ r : ℝ, a14 i = (r : EReal)) ∧ (∀ i, ∃ r : ℝ, a15 i = (r : EReal)) ∧ (∀ i, ∃ r : ℝ, a16 i = (r : EReal)) ∧ (∀ i, ∃ r : ℝ, a17 i = (r : EReal)) ∧ (∀ i, ∃ r : ℝ, a18 i = (r : EReal)) ∧ (∀ i, ∃ r : ℝ, a19 i = (r : EReal)) ∧ (∀ i, ∃ r : ℝ, a20 i = (r : EReal)) ∧ (∀ i, ∃ r : ℝ, a21 i = (r : EReal)) ∧ (∀ i, ∃ r : ℝ, a22 i = (r : EReal)) ∧ (∀ i, ∃ r : ℝ, a23 i = (r : EReal)) ∧ (∀ i, ∃ r : ℝ, a24 i = (r : EReal)) ∧ (∀ i, ∃ r : ℝ, a25 i = (r : EReal)) ∧ (∀ i, ∃ r : ℝ, a26 i = (r : EReal)) ∧ (∀ i, ∃ r : ℝ, a27 i = (r : EReal)) ∧ (∀ i, ∃ r : ℝ, a28 i = (r : EReal)) := by
  have h0 := congrFun h ix0
  dsimp only [fn, fn_part1, fn_part2, fn_part3, fn_part4, fn_part5, fn_part6, fn_part7] at h0
  simp only [andi_apply, IntOp.andi_eq_one] at h0
  obtain ⟨⟨⟨⟨⟨⟨⟨⟨⟨⟨⟨⟨⟨⟨⟨⟨⟨⟨⟨⟨⟨⟨⟨⟨h0, h1⟩, h2⟩, h7⟩, h8⟩, h9⟩, h10⟩, h11⟩, h12⟩, h13⟩, h14⟩, h15⟩, h16⟩, h17⟩, h18⟩, h19⟩, h20⟩, h21⟩, h22⟩, h23⟩, h24⟩, h25⟩, h26⟩, h27⟩, h28⟩ := h0
  exact ⟨real_of_all_lt_inf _ _ _ _ a0 _ h0, real_of_all_lt_inf _ _ _ _ a1 _ h1, real_of_all_lt_inf _ _ _ _ a2 _ h2, real_of_all_lt_inf _ _ _ _ a7 _ h7, real_of_all_lt_inf _ _ _ _ a8 _ h8, real_of_all_lt_inf _ _ _ _ a9 _ h9, real_of_all_lt_inf _ _ _ _ a10 _ h10, real_of_all_lt_inf _ _ _ _ a11 _ h11, real_of_all_lt_inf _ _ _ _ a12 _ h12, real_of_all_lt_inf _ _ _ _ a13 _ h13, real_of_all_lt_inf _ _ _ _ a14 _ h14, real_of_all_lt_inf _ _ _ _ a15 _ h15, real_of_all_lt_inf _ _ _ _ a16 _ h16, real_of_all_lt_inf _ _ _ _ a17 _ h17, real_of_all_lt_inf _ _ _ _ a18 _ h18, real_of_all_lt_inf _ _ _ _ a19 _ h19, real_of_all_lt_inf _ _ _ _ a20 _ h20, real_of_all_lt_inf _ _ _ _ a21 _ h21, real_of_all_lt_inf _ _ _ _ a22 _ h22, real_of_all_lt_inf _ _ _ _ a23 _ h23, real_of_all_lt_inf _ _ _ _ a24 _ h24, real_of_all_lt_inf _ _ _ _ a25 _ h25, real_of_all_lt_inf _ _ _ _ a26 _ h26, real_of_all_lt_inf _ _ _ _ a27 _ h27, real_of_all_lt_inf _ _ _ _ a28 _ h28⟩

/-- The same, for the arguments the kernel's law uses. -/
theorem reals [Cert.Pre_finite_inputs.Facts] (a0 : FVec Ideal Cert.Pre_finite_inputs.S120000x128 .f32) (a1 : FVec Ideal Cert.Pre_finite_inputs.S64x64 .f32) (a2 : FVec Ideal Cert.Pre_finite_inputs.S19000x128 .f32) (a3 : IVec Cert.Pre_finite_inputs.S2x1200000 32) (a4 : IVec Cert.Pre_finite_inputs.S120000 32) (a5 : IVec Cert.Pre_finite_inputs.S2x256 32) (a6 : IVec Cert.Pre_finite_inputs.S2x600000 32) (a7 : FVec Ideal Cert.Pre_finite_inputs.S128x200 .f32) (a8 : FVec Ideal Cert.Pre_finite_inputs.S200 .f32) (a9 : FVec Ideal Cert.Pre_finite_inputs.S200x200 .f32) (a10 : FVec Ideal Cert.Pre_finite_inputs.S200 .f32) (a11 : FVec Ideal Cert.Pre_finite_inputs.S200x256 .f32) (a12 : FVec Ideal Cert.Pre_finite_inputs.S256 .f32) (a13 : FVec Ideal Cert.Pre_finite_inputs.S64x200 .f32) (a14 : FVec Ideal Cert.Pre_finite_inputs.S200 .f32) (a15 : FVec Ideal Cert.Pre_finite_inputs.S64x200 .f32) (a16 : FVec Ideal Cert.Pre_finite_inputs.S200x200 .f32) (a17 : FVec Ideal Cert.Pre_finite_inputs.S200 .f32) (a18 : FVec Ideal Cert.Pre_finite_inputs.S200x200 .f32) (a19 : FVec Ideal Cert.Pre_finite_inputs.S200x128 .f32) (a20 : FVec Ideal Cert.Pre_finite_inputs.S128 .f32) (a21 : FVec Ideal Cert.Pre_finite_inputs.S128x200 .f32) (a22 : FVec Ideal Cert.Pre_finite_inputs.S200 .f32) (a23 : FVec Ideal Cert.Pre_finite_inputs.S200x200 .f32) (a24 : FVec Ideal Cert.Pre_finite_inputs.S200 .f32) (a25 : FVec Ideal Cert.Pre_finite_inputs.S200x128 .f32) (a26 : FVec Ideal Cert.Pre_finite_inputs.S128 .f32) (a27 : FVec Ideal Cert.Pre_finite_inputs.S256x256 .f32) (a28 : FVec Ideal Cert.Pre_finite_inputs.S1 .f32)
    (h : Cert.Pre_finite_inputs.fn (F := Ideal) a0 a1 a2 a3 a4 a5 a6 a7 a8 a9 a10 a11 a12 a13 a14 a15 a16 a17 a18 a19 a20 a21 a22 a23 a24 a25 a26 a27 a28 = (fun _ => 1#1)) :
    (∀ i, ∃ r : ℝ, a0 i = (r : EReal)) ∧ (∀ i, ∃ r : ℝ, a2 i = (r : EReal)) ∧ (∀ i, ∃ r : ℝ, a7 i = (r : EReal)) ∧ (∀ i, ∃ r : ℝ, a8 i = (r : EReal)) ∧ (∀ i, ∃ r : ℝ, a9 i = (r : EReal)) ∧ (∀ i, ∃ r : ℝ, a10 i = (r : EReal)) ∧ (∀ i, ∃ r : ℝ, a21 i = (r : EReal)) ∧ (∀ i, ∃ r : ℝ, a22 i = (r : EReal)) ∧ (∀ i, ∃ r : ℝ, a23 i = (r : EReal)) ∧ (∀ i, ∃ r : ℝ, a24 i = (r : EReal)) := by
  obtain ⟨h0, h1, h2, h7, h8, h9, h10, h11, h12, h13, h14, h15, h16, h17, h18, h19, h20, h21, h22, h23, h24, h25, h26, h27, h28⟩ := reals_all a0 a1 a2 a3 a4 a5 a6 a7 a8 a9 a10 a11 a12 a13 a14 a15 a16 a17 a18 a19 a20 a21 a22 a23 a24 a25 a26 a27 a28 h
  exact ⟨h0, h2, h7, h8, h9, h10, h21, h22, h23, h24⟩

/-- The certificate's precondition, read back at the idealized kernel's argument arrays: on every device the
    arrays the kernel's law uses hold real numbers only. -/
theorem of_pre [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, (m ((c.tc : Thread Cert.KernelIdeal.nD Cert.KernelIdeal.τ).loc Cert.KernelIdeal.main_arg0)) i = (r : EReal))
      ∧ (∀ i, ∃ r : ℝ, (m ((c.tc : Thread Cert.KernelIdeal.nD Cert.KernelIdeal.τ).loc Cert.KernelIdeal.main_arg2)) i = (r : EReal))
      ∧ (∀ i, ∃ r : ℝ, (m ((c.tc : Thread Cert.KernelIdeal.nD Cert.KernelIdeal.τ).loc Cert.KernelIdeal.main_arg7)) i = (r : EReal))
      ∧ (∀ i, ∃ r : ℝ, (m ((c.tc : Thread Cert.KernelIdeal.nD Cert.KernelIdeal.τ).loc Cert.KernelIdeal.main_arg8)) i = (r : EReal))
      ∧ (∀ i, ∃ r : ℝ, (m ((c.tc : Thread Cert.KernelIdeal.nD Cert.KernelIdeal.τ).loc Cert.KernelIdeal.main_arg9)) i = (r : EReal))
      ∧ (∀ i, ∃ r : ℝ, (m ((c.tc : Thread Cert.KernelIdeal.nD Cert.KernelIdeal.τ).loc Cert.KernelIdeal.main_arg10)) i = (r : EReal))
      ∧ (∀ i, ∃ r : ℝ, (m ((c.tc : Thread Cert.KernelIdeal.nD Cert.KernelIdeal.τ).loc Cert.KernelIdeal.main_arg21)) i = (r : EReal))
      ∧ (∀ i, ∃ r : ℝ, (m ((c.tc : Thread Cert.KernelIdeal.nD Cert.KernelIdeal.τ).loc Cert.KernelIdeal.main_arg22)) i = (r : EReal))
      ∧ (∀ i, ∃ r : ℝ, (m ((c.tc : Thread Cert.KernelIdeal.nD Cert.KernelIdeal.τ).loc Cert.KernelIdeal.main_arg23)) i = (r : EReal))
      ∧ (∀ i, ∃ r : ℝ, (m ((c.tc : Thread Cert.KernelIdeal.nD Cert.KernelIdeal.τ).loc Cert.KernelIdeal.main_arg24)) i = (r : EReal)) :=
  reals _ _ _ _ _ _ _ _ _ _ _ _ _ _ _ _ _ _ _ _ _ _ _ _ _ _ _ _ _ (hpre c)

/-- The same for every float argument array. -/
theorem of_pre_all [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, (m ((c.tc : Thread Cert.KernelIdeal.nD Cert.KernelIdeal.τ).loc Cert.KernelIdeal.main_arg0)) i = (r : EReal))
      ∧ (∀ i, ∃ r : ℝ, (m ((c.tc : Thread Cert.KernelIdeal.nD Cert.KernelIdeal.τ).loc Cert.KernelIdeal.main_arg1)) i = (r : EReal))
      ∧ (∀ i, ∃ r : ℝ, (m ((c.tc : Thread Cert.KernelIdeal.nD Cert.KernelIdeal.τ).loc Cert.KernelIdeal.main_arg2)) i = (r : EReal))
      ∧ (∀ i, ∃ r : ℝ, (m ((c.tc : Thread Cert.KernelIdeal.nD Cert.KernelIdeal.τ).loc Cert.KernelIdeal.main_arg7)) i = (r : EReal))
      ∧ (∀ i, ∃ r : ℝ, (m ((c.tc : Thread Cert.KernelIdeal.nD Cert.KernelIdeal.τ).loc Cert.KernelIdeal.main_arg8)) i = (r : EReal))
      ∧ (∀ i, ∃ r : ℝ, (m ((c.tc : Thread Cert.KernelIdeal.nD Cert.KernelIdeal.τ).loc Cert.KernelIdeal.main_arg9)) i = (r : EReal))
      ∧ (∀ i, ∃ r : ℝ, (m ((c.tc : Thread Cert.KernelIdeal.nD Cert.KernelIdeal.τ).loc Cert.KernelIdeal.main_arg10)) i = (r : EReal))
      ∧ (∀ i, ∃ r : ℝ, (m ((c.tc : Thread Cert.KernelIdeal.nD Cert.KernelIdeal.τ).loc Cert.KernelIdeal.main_arg11)) i = (r : EReal))
      ∧ (∀ i, ∃ r : ℝ, (m ((c.tc : Thread Cert.KernelIdeal.nD Cert.KernelIdeal.τ).loc Cert.KernelIdeal.main_arg12)) i = (r : EReal))
      ∧ (∀ i, ∃ r : ℝ, (m ((c.tc : Thread Cert.KernelIdeal.nD Cert.KernelIdeal.τ).loc Cert.KernelIdeal.main_arg13)) i = (r : EReal))
      ∧ (∀ i, ∃ r : ℝ, (m ((c.tc : Thread Cert.KernelIdeal.nD Cert.KernelIdeal.τ).loc Cert.KernelIdeal.main_arg14)) i = (r : EReal))
      ∧ (∀ i, ∃ r : ℝ, (m ((c.tc : Thread Cert.KernelIdeal.nD Cert.KernelIdeal.τ).loc Cert.KernelIdeal.main_arg15)) i = (r : EReal))
      ∧ (∀ i, ∃ r : ℝ, (m ((c.tc : Thread Cert.KernelIdeal.nD Cert.KernelIdeal.τ).loc Cert.KernelIdeal.main_arg16)) i = (r : EReal))
      ∧ (∀ i, ∃ r : ℝ, (m ((c.tc : Thread Cert.KernelIdeal.nD Cert.KernelIdeal.τ).loc Cert.KernelIdeal.main_arg17)) i = (r : EReal))
      ∧ (∀ i, ∃ r : ℝ, (m ((c.tc : Thread Cert.KernelIdeal.nD Cert.KernelIdeal.τ).loc Cert.KernelIdeal.main_arg18)) i = (r : EReal))
      ∧ (∀ i, ∃ r : ℝ, (m ((c.tc : Thread Cert.KernelIdeal.nD Cert.KernelIdeal.τ).loc Cert.KernelIdeal.main_arg19)) i = (r : EReal))
      ∧ (∀ i, ∃ r : ℝ, (m ((c.tc : Thread Cert.KernelIdeal.nD Cert.KernelIdeal.τ).loc Cert.KernelIdeal.main_arg20)) i = (r : EReal))
      ∧ (∀ i, ∃ r : ℝ, (m ((c.tc : Thread Cert.KernelIdeal.nD Cert.KernelIdeal.τ).loc Cert.KernelIdeal.main_arg21)) i = (r : EReal))
      ∧ (∀ i, ∃ r : ℝ, (m ((c.tc : Thread Cert.KernelIdeal.nD Cert.KernelIdeal.τ).loc Cert.KernelIdeal.main_arg22)) i = (r : EReal))
      ∧ (∀ i, ∃ r : ℝ, (m ((c.tc : Thread Cert.KernelIdeal.nD Cert.KernelIdeal.τ).loc Cert.KernelIdeal.main_arg23)) i = (r : EReal))
      ∧ (∀ i, ∃ r : ℝ, (m ((c.tc : Thread Cert.KernelIdeal.nD Cert.KernelIdeal.τ).loc Cert.KernelIdeal.main_arg24)) i = (r : EReal))
      ∧ (∀ i, ∃ r : ℝ, (m ((c.tc : Thread Cert.KernelIdeal.nD Cert.KernelIdeal.τ).loc Cert.KernelIdeal.main_arg25)) i = (r : EReal))
      ∧ (∀ i, ∃ r : ℝ, (m ((c.tc : Thread Cert.KernelIdeal.nD Cert.KernelIdeal.τ).loc Cert.KernelIdeal.main_arg26)) i = (r : EReal))
      ∧ (∀ i, ∃ r : ℝ, (m ((c.tc : Thread Cert.KernelIdeal.nD Cert.KernelIdeal.τ).loc Cert.KernelIdeal.main_arg27)) i = (r : EReal))
      ∧ (∀ i, ∃ r : ℝ, (m ((c.tc : Thread Cert.KernelIdeal.nD Cert.KernelIdeal.τ).loc Cert.KernelIdeal.main_arg28)) i = (r : EReal)) :=
  reals_all _ _ _ _ _ _ _ _ _ _ _ _ _ _ _ _ _ _ _ _ _ _ _ _ _ _ _ _ _ (hpre c)

end Cert.FiniteInputs

end
-- ==== Proof.KernelValue.lean ====
/-
  The idealized kernel program's result as a function of the argument arrays, and that it is the reference's last
  stage. Each region's output array is the dense layer relu(x·w + b) of the region's three inputs; the inputs are the
  aggregated features, the weight matrix and the bias row; under finite float inputs each layer of the kernel
  program (aggregate, then multiply by the weights) is the reference's layer (multiply, then aggregate), since the
  edge factors and the features are reals and multiplication distributes over the finite sums; the pooled embedding,
  the molecule embedding and the score are then the same functions of equal values.
-/
import proofs.«178620_j32633161515065_1_alg».proof.Proof.KernelStagesA
import proofs.«178620_j32633161515065_1_alg».proof.Proof.KernelStagesD
import proofs.«178620_j32633161515065_1_alg».proof.Proof.RegionValue
import proofs.«178620_j32633161515065_1_alg».proof.Proof.LayerLaw
import proofs.«178620_j32633161515065_1_alg».proof.Proof.NormReal
import proofs.«178620_j32633161515065_1_alg».proof.Proof.FiniteInputs

set_option maxRecDepth 16384

noncomputable section

namespace Cert.KernelIdeal.Result

open Cert.KernelIdeal Cert.KernelIdeal.Gen Cert.KernelIdeal.Stages
open Idealize.ShloMosaic Idealize.ShloMosaic.TcCoe Idealize.SL.Sem Idealize.ShloMosaic.StableHlo

variable (m : (ℓ : Loc nD τ sig) → Buf (Elt Ideal) ℓ) (ρ : Dev nD → PrngReg)

/-- Region 0 leaves the first cell-line layer: the dense layer of the aggregated input features. -/
theorem out0 (c : Dev nD) : W2 (F := Ideal) m ρ c (Proc.devRef .tc main_v41)
    = Cert.Spec.dense (agg1 (m ((c.tc : Thread nD τ).loc main_arg0)) (m ((c.tc : Thread nD τ).loc main_arg3))) (m ((c.tc : Thread nD τ).loc main_arg7)) (shapeCast S1x200 (m ((c.tc : Thread nD τ).loc main_arg8)) shapeCasts_S200_S1x200) :=
  (W2_arr (F := Ideal) m ρ c 3).trans ((Cert.KernelIdeal.RegionValue.arr0 (V1 (F := Ideal) m ρ) c).trans (by
    show Cert.Spec.dense (W1 (F := Ideal) m ρ c (Proc.devRef .tc main_v39)) (W1 (F := Ideal) m ρ c (Proc.devRef .tc main_arg7)) (W1 (F := Ideal) m ρ c (Proc.devRef .tc main_v40)) = _
    rw [W1_v39, W1_arg7, W1_v40]))

/-- Region 1 leaves the second cell-line layer, of the first layer's output aggregated. -/
theorem out1 (c : Dev nD) : W4 (F := Ideal) m ρ c (Proc.devRef .tc main_v56)
    = Cert.Spec.dense (agg2 (W2 (F := Ideal) m ρ c (Proc.devRef .tc main_v41)) (m ((c.tc : Thread nD τ).loc main_arg3))) (m ((c.tc : Thread nD τ).loc main_arg9)) (shapeCast S1x200 (m ((c.tc : Thread nD τ).loc main_arg10)) shapeCasts_S200_S1x200) :=
  (W4_arr (F := Ideal) m ρ c 3).trans ((Cert.KernelIdeal.RegionValue.arr1 (V3 (F := Ideal) m ρ) c).trans (by
    show Cert.Spec.dense (W3 (F := Ideal) m ρ c (Proc.devRef .tc main_v54)) (W3 (F := Ideal) m ρ c (Proc.devRef .tc main_arg9)) (W3 (F := Ideal) m ρ c (Proc.devRef .tc main_v55)) = _
    rw [W3_v54, W3_arg9, W3_v55]))

/-- Region 2 leaves the first protein layer. -/
theorem out2 (c : Dev nD) : W10 (F := Ideal) m ρ c (Proc.devRef .tc main_v161)
    = Cert.Spec.dense (agg3 (m ((c.tc : Thread nD τ).loc main_arg2)) (m ((c.tc : Thread nD τ).loc main_arg6))) (m ((c.tc : Thread nD τ).loc main_arg21)) (shapeCast S1x200 (m ((c.tc : Thread nD τ).loc main_arg22)) shapeCasts_S200_S1x200) :=
  (W10_arr (F := Ideal) m ρ c 3).trans ((Cert.KernelIdeal.RegionValue.arr2 (V9 (F := Ideal) m ρ) c).trans (by
    show Cert.Spec.dense (W9 (F := Ideal) m ρ c (Proc.devRef .tc main_v159)) (W9 (F := Ideal) m ρ c (Proc.devRef .tc main_arg21)) (W9 (F := Ideal) m ρ c (Proc.devRef .tc main_v160)) = _
    rw [W9_v159, W9_arg21, W9_v160]))

/-- Region 3 leaves the second protein layer. -/
theorem out3 (c : Dev nD) : W12 (F := Ideal) m ρ c (Proc.devRef .tc main_v176)
    = Cert.Spec.dense (agg4 (W10 (F := Ideal) m ρ c (Proc.devRef .tc main_v161)) (m ((c.tc : Thread nD τ).loc main_arg6))) (m ((c.tc : Thread nD τ).loc main_arg23)) (shapeCast S1x200 (m ((c.tc : Thread nD τ).loc main_arg24)) shapeCasts_S200_S1x200) :=
  (W12_arr (F := Ideal) m ρ c 3).trans ((Cert.KernelIdeal.RegionValue.arr3 (V11 (F := Ideal) m ρ) c).trans (by
    show Cert.Spec.dense (W11 (F := Ideal) m ρ c (Proc.devRef .tc main_v174)) (W11 (F := Ideal) m ρ c (Proc.devRef .tc main_arg23)) (W11 (F := Ideal) m ρ c (Proc.devRef .tc main_v175)) = _
    rw [W11_v174, W11_arg23, W11_v175]))

/-- Under finite float inputs the kernel program's result buffer ends at the reference's last stage of the same
    argument arrays. -/
theorem result_eq [hPre_finite_inputs : Cert.Pre_finite_inputs.Facts] (hpre : Cert.Pre_KernelIdeal m) (c : Dev nD) :
    W13 (F := Ideal) m ρ c (Proc.devRef .tc main_v189)
      = Cert.ReferenceIdeal.ReadP.val_main_v255 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) := by
  obtain ⟨h0, h2, h7, h8, h9, h10, h21, h22, h23, h24⟩ := Cert.FiniteInputs.of_pre m hpre c
  rw [W13_v189, out3, out2, out1, out0]
  rw [Cert.LayerLaw.layer_cll1 _ _ _ _ h0 h7 (Cert.NormReal.factor_real_cll _),
    Cert.LayerLaw.layer_cll2 _ _ _ _ _ _ (Cert.LayerLaw.layer_cll1_real _ _ _ _ h0 h7 (Cert.NormReal.factor_real_cll _) h8) h9 (Cert.NormReal.factor_real_cll2 _),
    Cert.LayerLaw.layer_bio1 _ _ _ _ h2 h21 (Cert.NormReal.factor_real_bio _),
    Cert.LayerLaw.layer_bio2 _ _ _ _ _ _ (Cert.LayerLaw.layer_bio1_real _ _ _ _ h2 h21 (Cert.NormReal.factor_real_bio _) h22) h23 (Cert.NormReal.factor_real_bio2 _)]
  rw [← Cert.ReferenceIdeal.Forms.xc_eq]
  exact (Cert.ReferenceIdeal.Forms.result_eq _ _ _ _ _ _ _ _ _ _ _ _ _ _ _ _ _ _ _ _ _ _ _ _ _ _ _ _ _).symm

end Cert.KernelIdeal.Result

end
-- ==== Proof.RefRunEq.lean ====
/-
  The reference's run ends with its result at the last stage of its operations read one at a time: the run's composed
  term and the stage are the same term of the argument arrays.
-/
import proofs.«178620_j32633161515065_1_alg».proof.Proof.RefRun
import proofs.«178620_j32633161515065_1_alg».proof.Proof.RefRead

set_option maxRecDepth 16384

noncomputable section

namespace Cert.ReferenceIdeal.RunEq

open Cert.ReferenceIdeal Cert.ReferenceIdeal.Gen Idealize.ShloMosaic Idealize.ShloMosaic.TcCoe Idealize.SL.Sem Idealize.ShloMosaic.StableHlo

variable {F : FTy → Type} [FloatOps F]

/-- The composed term the reference's run ends at is its last stage. -/
theorem res_eq (m : (ℓ : Loc nD τ sig) → Buf (Elt F) ℓ) (c : Dev nD) :
    Cert.ReferenceIdeal.ValueP.res_main_v255 m c = Cert.ReferenceIdeal.ReadP.val_main_v255 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) := by
  unfold Cert.ReferenceIdeal.ValueP.res_main_v255; rfl

end Cert.ReferenceIdeal.RunEq

end
-- ==== Proof.lean ====
/-
  The certificate of the graph-network score: a kernel program of four dense-layer regions (two graph-convolution
  layers on each of two graphs) among stretches of host operations, against a reference that is host operations only.

  The two programs differ in ONE place, four times: a graph-convolution layer is D^(-1/2) (A + I) D^(-1/2) X W + b. The
  reference multiplies the node features by the weights first and then aggregates over the edges (gather the rows at
  the edges' sources, scale by the edge factor, scatter-add into the edges' targets); the kernel program aggregates
  the features first and multiplies the aggregate by the weights inside a region, tile of rows by tile of rows. On the
  extended reals the two orders agree when the features, the weights and the edge factors are reals, because then
  multiplication distributes over the finite sums: Σ_k (Σ_e x[s_e,k]·n_e)·W[k,c] = Σ_e (Σ_k x[s_e,k]·W[k,c])·n_e.
  The features and weights are reals by the precondition (every float input finite); an edge factor is the product
  of two inverse square roots of node degrees, and a degree is at least 1 because every node carries a self loop, so
  the factor is a real too; the first layer's output, a maximum of a real with 0, is a real, which gives the second
  layer its hypothesis. Out-of-range edge indices change nothing: a gather clamps its index and a scatter-add drops
  an update that lands outside, in both programs alike.
  Everything else — the index columns, the edge factors, the molecule branch, the mean pooling, the last linear maps
  and the bilinear score — is the same operations on equal values in the two programs, and is carried as one function.

  Frames: the two kernel programs' frames are the generated ones; the reference's is its run with the result dropped.
  The idealization changed nothing (its ledger is empty). The algebraic claim: the kernel program's run names its
  result buffer after the last stretch of host operations; that value is the reference's last stage of the same
  argument arrays; the reference's run ends at that stage.
-/
import proofs.«178620_j32633161515065_1_alg».proof.Defs
import proofs.«178620_j32633161515065_1_alg».proof.Proof.Gen.Kernel
import proofs.«178620_j32633161515065_1_alg».proof.Proof.Gen.Kernel.Skeleton
import proofs.«178620_j32633161515065_1_alg».proof.Proof.Gen.Kernel.Launch
import proofs.«178620_j32633161515065_1_alg».proof.Proof.Gen.Kernel.Points
import proofs.«178620_j32633161515065_1_alg».proof.Proof.Gen.Kernel.Frame
import proofs.«178620_j32633161515065_1_alg».proof.Proof.Gen.KernelIdeal
import proofs.«178620_j32633161515065_1_alg».proof.Proof.Gen.KernelIdeal.Skeleton
import proofs.«178620_j32633161515065_1_alg».proof.Proof.Gen.KernelIdeal.Launch
import proofs.«178620_j32633161515065_1_alg».proof.Proof.Gen.KernelIdeal.Points
import proofs.«178620_j32633161515065_1_alg».proof.Proof.Gen.KernelIdeal.Frame
import proofs.«178620_j32633161515065_1_alg».proof.Proof.Gen.ReferenceIdeal
import proofs.«178620_j32633161515065_1_alg».proof.Proof.Gen.Pre_finite_inputs
import proofs.«178620_j32633161515065_1_alg».proof.Proof.KernelRun
import proofs.«178620_j32633161515065_1_alg».proof.Proof.KernelValue
import proofs.«178620_j32633161515065_1_alg».proof.Proof.RefRun
import proofs.«178620_j32633161515065_1_alg».proof.Proof.RefRunEq
import Idealize.ShloMosaic.Adequacy
import Idealize.ShloMosaic.Init

set_option maxRecDepth 16384

noncomputable section

namespace Cert.Proof

open Idealize.ShloMosaic Idealize.SL.Sem Cert.Kernel

/-- The word-level kernel program's frame: generated. -/
theorem frame_k : Cert.frame_Kernel := fun m ρ _ => Cert.Kernel.Gen.frame m ρ

/-- The idealized kernel program's frame: generated. -/
theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing: no conjunct is owed. -/
theorem preserves : Cert.preserves_Kernel_KernelIdeal := trivial

/-- From memories that agree on the arguments, the finite inputs' precondition holding, both idealized programs end,
    with equal results: the kernel program's result buffer holds the reference's last stage of the argument arrays. -/
theorem algebraic : Cert.algebraic_KernelIdeal_ReferenceIdeal := by
  intro m ρ m' ρ' hpre hagree
  refine ⟨fun c => Cert.KernelIdeal.Gen.W13 (F := Ideal) m ρ c (Proc.devRef .tc Cert.KernelIdeal.main_v189),
    Cert.KernelIdeal.RunValue.run (F := Ideal) m ρ, ?_⟩
  refine (θ_run Cert.ReferenceIdeal.defs _ _).mono (fun r h c => ⟨(h c).1.trans ?_, (h c).2⟩)
    (Cert.ReferenceIdeal.ValueP.run (F := Ideal) m' ρ')
  obtain ⟨e0, e1, e2, e3, e4, e5, e6, e7, e8, e9, e10, e11, e12, e13, e14, e15, e16, e17, e18, e19, e20, e21, e22, e23, e24, e25, e26, e27, e28⟩ := hagree c
  rw [Cert.ReferenceIdeal.RunEq.res_eq, e0, e1, e2, e3, e4, e5, e6, e7, e8, e9, e10, e11, e12, e13, e14, e15, e16, e17, e18, e19, e20, e21, e22, e23, e24, e25, e26, e27, e28]
  exact (Cert.KernelIdeal.Result.result_eq m ρ hpre c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
